-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x6400000 : Shape := ⟨2, ![2, 6400000]⟩
abbrev S6400000x1 : Shape := ⟨2, ![6400000, 1]⟩
abbrev S2x5 : Shape := ⟨2, ![2, 5]⟩
abbrev S5 : Shape := ⟨1, ![5]⟩
abbrev S11x5 : Shape := ⟨2, ![11, 5]⟩
abbrev S5x2 : Shape := ⟨2, ![5, 2]⟩
abbrev S2 : Shape := ⟨1, ![2]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S6400000x1 : S_.BroadcastsInDim S6400000x1 (![] : Fin 0 → Fin S6400000x1.rank)
  reducesTo_S6400000x1_S_d0_1 : S6400000x1.ReducesTo [0, 1] S_
  bcast_S_S2x5 : S_.BroadcastsInDim S2x5 (![] : Fin 0 → Fin S2x5.rank)
  reducesTo_S2x5_S_d0_1 : S2x5.ReducesTo [0, 1] S_
  bcast_S_S5 : S_.BroadcastsInDim S5 (![] : Fin 0 → Fin S5.rank)
  reducesTo_S5_S_d0 : S5.ReducesTo [0] S_
  bcast_S_S11x5 : S_.BroadcastsInDim S11x5 (![] : Fin 0 → Fin S11x5.rank)
  reducesTo_S11x5_S_d0_1 : S11x5.ReducesTo [0, 1] S_
  bcast_S_S5x2 : S_.BroadcastsInDim S5x2 (![] : Fin 0 → Fin S5x2.rank)
  reducesTo_S5x2_S_d0_1 : S5x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S5 .f32) (main_arg13 : FVec F S5x2 .f32) (main_arg14 : FVec F S2 .f32) (main_v48 : IVec S_ 1) (main_v49 : FVec F S11x5 .f32) (main_v50 : FVec F S11x5 .f32) : IVec S_ 1 :=
  let main_v51 : IVec S11x5 1 := cmpf .olt main_v49 main_v50
  let main_c_19 : IVec S_ 1 := constantI S_ 1 1#1
  let main_v52 : IVec S_ 1 := (fun x v => Host.reduce IntOp.andi x v reducesTo_S11x5_S_d0_1 h_S_) main_v51 main_c_19
  let main_v53 : IVec S_ 1 := andi main_v48 main_v52
  let main_v54 : FVec F S5 .f32 := Host.absf main_arg12
  let main_cst_20 : FVec F S_ .f32 := constant S_ .f32 0x7F800000#32
  let main_v55 : FVec F S5 .f32 := broadcastInDim S5 ![] bcast_S_S5 main_cst_20
  let main_v56 : IVec S5 1 := cmpf .olt main_v54 main_v55
  let main_c_21 : IVec S_ 1 := constantI S_ 1 1#1
  let main_v57 : IVec S_ 1 := (fun x v => Host.reduce IntOp.andi x v reducesTo_S5_S_d0 h_S_) main_v56 main_c_21
  let main_v58 : IVec S_ 1 := andi main_v53 main_v57
  let main_v59 : FVec F S5x2 .f32 := Host.absf main_arg13
  let main_cst_22 : FVec F S_ .f32 := constant S_ .f32 0x7F800000#32
  let main_v60 : FVec F S5x2 .f32 := broadcastInDim S5x2 ![] bcast_S_S5x2 main_cst_22
  let main_v61 : IVec S5x2 1 := cmpf .olt main_v59 main_v60
  let main_c_23 : IVec S_ 1 := constantI S_ 1 1#1
  let main_v62 : IVec S_ 1 := (fun x v => Host.reduce IntOp.andi x v reducesTo_S5x2_S_d0_1 h_S_) main_v61 main_c_23
  let main_v63 : IVec S_ 1 := andi main_v58 main_v62
  let main_v64 : FVec F S2 .f32 := Host.absf main_arg14
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg8 : FVec F S5 .f32) (main_arg9 : FVec F S11x5 .f32) (main_arg10 : FVec F S5 .f32) (main_arg11 : FVec F S11x5 .f32) (main_arg12 : FVec F S5 .f32) (main_arg13 : FVec F S5x2 .f32) (main_arg14 : FVec F S2 .f32) (main_v33 : IVec S_ 1) : IVec S_ 1 :=
  let main_v34 : FVec F S5 .f32 := Host.absf main_arg8
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  let main_v39 : FVec F S11x5 .f32 := Host.absf main_arg9
  let main_cst_14 : FVec F S_ .f32 := constant S_ .f32 0x7F800000#32
  let main_v40 : FVec F S11x5 .f32 := broadcastInDim S11x5 ![] bcast_S_S11x5 main_cst_14
  let main_v41 : IVec S11x5 1 := cmpf .olt main_v39 main_v40
  let main_c_15 : IVec S_ 1 := constantI S_ 1 1#1
  let main_v42 : IVec S_ 1 := (fun x v => Host.reduce IntOp.andi x v reducesTo_S11x5_S_d0_1 h_S_) main_v41 main_c_15
  let main_v43 : IVec S_ 1 := andi main_v38 main_v42
  let main_v44 : FVec F S5 .f32 := Host.absf main_arg10
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  let main_v49 : FVec F S11x5 .f32 := Host.absf main_arg11
  let main_cst_18 : FVec F S_ .f32 := constant S_ .f32 0x7F800000#32
  let main_v50 : FVec F S11x5 .f32 := broadcastInDim S11x5 ![] bcast_S_S11x5 main_cst_18
  fn_part3 (F := F) main_arg12 main_arg13 main_arg14 main_v48 main_v49 main_v50

def fn_part1 {F : FTy → Type} [FloatOps F] (main_arg5 : FVec F S11x5 .f32) (main_arg6 : FVec F S5 .f32) (main_arg7 : FVec F S11x5 .f32) (main_arg8 : FVec F S5 .f32) (main_arg9 : FVec F S11x5 .f32) (main_arg10 : FVec F S5 .f32) (main_arg11 : FVec F S11x5 .f32) (main_arg12 : FVec F S5 .f32) (main_arg13 : FVec F S5x2 .f32) (main_arg14 : FVec F S2 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S11x5 .f32 := Host.absf main_arg5
  let main_cst_6 : FVec F S_ .f32 := constant S_ .f32 0x7F800000#32
  let main_v20 : FVec F S11x5 .f32 := broadcastInDim S11x5 ![] bcast_S_S11x5 main_cst_6
  let main_v21 : IVec S11x5 1 := cmpf .olt main_v19 main_v20
  let main_c_7 : IVec S_ 1 := constantI S_ 1 1#1
  let main_v22 : IVec S_ 1 := (fun x v => Host.reduce IntOp.andi x v reducesTo_S11x5_S_d0_1 h_S_) main_v21 main_c_7
  let main_v23 : IVec S_ 1 := andi main_v18 main_v22
  let main_v24 : FVec F S5 .f32 := Host.absf main_arg6
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  let main_v29 : FVec F S11x5 .f32 := Host.absf main_arg7
  let main_cst_10 : FVec F S_ .f32 := constant S_ .f32 0x7F800000#32
  let main_v30 : FVec F S11x5 .f32 := broadcastInDim S11x5 ![] bcast_S_S11x5 main_cst_10
  let main_v31 : IVec S11x5 1 := cmpf .olt main_v29 main_v30
  let main_c_11 : IVec S_ 1 := constantI S_ 1 1#1
  let main_v32 : IVec S_ 1 := (fun x v => Host.reduce IntOp.andi x v reducesTo_S11x5_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x2 .f32) (main_arg1 : IVec S2x6400000 32) (main_arg2 : FVec F S6400000x1 .f32) (main_arg3 : FVec F S2x5 .f32) (main_arg4 : FVec F S5 .f32) (main_arg5 : FVec F S11x5 .f32) (main_arg6 : FVec F S5 .f32) (main_arg7 : FVec F S11x5 .f32) (main_arg8 : FVec F S5 .f32) (main_arg9 : FVec F S11x5 .f32) (main_arg10 : FVec F S5 .f32) (main_arg11 : FVec F S11x5 .f32) (main_arg12 : FVec F S5 .f32) (main_arg13 : FVec F S5x2 .f32) (main_arg14 : FVec F S2 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S6400000x1 .f32 := Host.absf main_arg2
  let main_cst_0 : FVec F S_ .f32 := constant S_ .f32 0x7F800000#32
  let main_v5 : FVec F S6400000x1 .f32 := broadcastInDim S6400000x1 ![] bcast_S_S6400000x1 main_cst_0
  let main_v6 : IVec S6400000x1 1 := cmpf .olt main_v4 main_v5
  let main_c_1 : IVec S_ 1 := constantI S_ 1 1#1
  let main_v7 : IVec S_ 1 := (fun x v => Host.reduce IntOp.andi x v reducesTo_S6400000x1_S_d0_1 h_S_) main_v6 main_c_1
  let main_v8 : IVec S_ 1 := andi main_v3 main_v7
  let main_v9 : FVec F S2x5 .f32 := Host.absf main_arg3
  let main_cst_2 : FVec F S_ .f32 := constant S_ .f32 0x7F800000#32
  let main_v10 : FVec F S2x5 .f32 := broadcastInDim S2x5 ![] bcast_S_S2x5 main_cst_2
  let main_v11 : IVec S2x5 1 := cmpf .olt main_v9 main_v10
  let main_c_3 : IVec S_ 1 := constantI S_ 1 1#1
  let main_v12 : IVec S_ 1 := (fun x v => Host.reduce IntOp.andi x v reducesTo_S2x5_S_d0_1 h_S_) main_v11 main_c_3
  let main_v13 : IVec S_ 1 := andi main_v8 main_v12
  let main_v14 : FVec F S5 .f32 := Host.absf main_arg4
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x2 : Shape := ⟨2, ![100000, 2]⟩
abbrev S2x6400000 : Shape := ⟨2, ![2, 6400000]⟩
abbrev S6400000x1 : Shape := ⟨2, ![6400000, 1]⟩
abbrev S2x5 : Shape := ⟨2, ![2, 5]⟩
abbrev S5 : Shape := ⟨1, ![5]⟩
abbrev S11x5 : Shape := ⟨2, ![11, 5]⟩
abbrev S5x2 : Shape := ⟨2, ![5, 2]⟩
abbrev S2 : Shape := ⟨1, ![2]⟩
abbrev S100000x5 : Shape := ⟨2, ![100000, 5]⟩
abbrev S1x5 : Shape := ⟨2, ![1, 5]⟩
abbrev S1x6400000 : Shape := ⟨2, ![1, 6400000]⟩
abbrev S6400000 : Shape := ⟨1, ![6400000]⟩
abbrev S_ : Shape := ⟨0, ![]⟩
abbrev S6400000x5 : Shape := ⟨2, ![6400000, 5]⟩
abbrev S5x5 : Shape := ⟨2, ![5, 5]⟩
abbrev S3200x5 : Shape := ⟨2, ![3200, 5]⟩
abbrev S3200x1 : Shape := ⟨2, ![3200, 1]⟩
abbrev S1x2 : Shape := ⟨2, ![1, 2]⟩

abbrev nBuf : Space → Nat
  | .hbm => 95
  | .vmem => 32
  | .smem => 0
  | _ => 0

abbrev bufTy : (tb : Table) → Fin (tcTables nBuf tb) → BufTy
  | .hbm, ⟨0, _⟩ => ⟨S100000x2, .f32⟩
  | .hbm, ⟨1, _⟩ => ⟨S2x6400000, .i32⟩
  | .hbm, ⟨2, _⟩ => ⟨S6400000x1, .f32⟩
  | .hbm, ⟨3, _⟩ => ⟨S2x5, .f32⟩
  | .hbm, ⟨4, _⟩ => ⟨S5, .f32⟩
  | .hbm, ⟨5, _⟩ => ⟨S11x5, .f32⟩
  | .hbm, ⟨6, _⟩ => ⟨S5, .f32⟩
  | .hbm, ⟨7, _⟩ => ⟨S11x5, .f32⟩
  | .hbm, ⟨8, _⟩ => ⟨S5, .f32⟩
  | .hbm, ⟨9, _⟩ => ⟨S11x5, .f32⟩
  | .hbm, ⟨10, _⟩ => ⟨S5, .f32⟩
  | .hbm, ⟨11, _⟩ => ⟨S11x5, .f32⟩
  | .hbm, ⟨12, _⟩ => ⟨S5, .f32⟩
  | .hbm, ⟨13, _⟩ => ⟨S5x2, .f32⟩
  | .hbm, ⟨14, _⟩ => ⟨S2, .f32⟩
  | .hbm, ⟨15, _⟩ => ⟨S100000x5, .f32⟩
  | .hbm, ⟨16, _⟩ => ⟨S1x5, .f32⟩
  | .hbm, ⟨17, _⟩ => ⟨S100000x5, .f32⟩
  | .hbm, ⟨18, _⟩ => ⟨S100000x5, .f32⟩
  | .hbm, ⟨19, _⟩ => ⟨S1x6400000, .i32⟩
  | .hbm, ⟨20, _⟩ => ⟨S6400000, .i32⟩
  | .hbm, ⟨21, _⟩ => ⟨S1x6400000, .i32⟩
  | .hbm, ⟨22, _⟩ => ⟨S6400000, .i32⟩
  | .hbm, ⟨23, _⟩ => ⟨S_, .i32⟩
  | .hbm, ⟨24, _⟩ => ⟨S6400000, .i32⟩
  | .hbm, ⟨25, _⟩ => ⟨S6400000, .i1⟩
  | .hbm, ⟨26, _⟩ => ⟨S_, .i32⟩
  | .hbm, ⟨27, _⟩ => ⟨S6400000, .i32⟩
  | .hbm, ⟨28, _⟩ => ⟨S6400000, .i32⟩
  | .hbm, ⟨29, _⟩ => ⟨S6400000, .i32⟩
  | .hbm, ⟨30, _⟩ => ⟨S6400000x1, .i32⟩
  | .hbm, ⟨31, _⟩ => ⟨S6400000x5, .f32⟩
  | .hbm, ⟨32, _⟩ => ⟨S_, .i32⟩
  | .hbm, ⟨33, _⟩ => ⟨S6400000, .i32⟩
  | .hbm, ⟨34, _⟩ => ⟨S6400000, .i1⟩
  | .hbm, ⟨35, _⟩ => ⟨S_, .i32⟩
  | .hbm, ⟨36, _⟩ => ⟨S6400000, .i32⟩
  | .hbm, ⟨37, _⟩ => ⟨S6400000, .i32⟩
  | .hbm, ⟨38, _⟩ => ⟨S6400000, .i32⟩
  | .hbm, ⟨39, _⟩ => ⟨S6400000x1, .i32⟩
  | .hbm, ⟨40, _⟩ => ⟨S6400000x5, .f32⟩
  | .hbm, ⟨41, _⟩ => ⟨S5x5, .f32⟩
  | .hbm, ⟨42, _⟩ => ⟨S5x5, .f32⟩
  | .hbm, ⟨43, _⟩ => ⟨S1x5, .f32⟩
  | .hbm, ⟨44, _⟩ => ⟨S5x5, .f32⟩
  | .hbm, ⟨45, _⟩ => ⟨S5x5, .f32⟩
  | .hbm, ⟨46, _⟩ => ⟨S1x5, .f32⟩
  | .hbm, ⟨47, _⟩ => ⟨S1x5, .f32⟩
  | .hbm, ⟨48, _⟩ => ⟨S1x5, .f32⟩
  | .hbm, ⟨49, _⟩ => ⟨S6400000x5, .f32⟩
  | .hbm, ⟨50, _⟩ => ⟨S_, .f32⟩
  | .hbm, ⟨51, _⟩ => ⟨S100000x5, .f32⟩
  | .hbm, ⟨52, _⟩ => ⟨S6400000x1, .i32⟩
  | .hbm, ⟨53, _⟩ => ⟨S100000x5, .f32⟩
  | .hbm, ⟨54, _⟩ => ⟨S100000x5, .f32⟩
  | .hbm, ⟨55, _⟩ => ⟨S1x6400000, .i32⟩
  | .hbm, ⟨56, _⟩ => ⟨S6400000, .i32⟩
  | .hbm, ⟨57, _⟩ => ⟨S1x6400000, .i32⟩
  | .hbm, ⟨58, _⟩ => ⟨S6400000, .i32⟩
  | .hbm, ⟨59, _⟩ => ⟨S_, .i32⟩
  | .hbm, ⟨60, _⟩ => ⟨S6400000, .i32⟩
  | .hbm, ⟨61, _⟩ => ⟨S6400000, .i1⟩
  | .hbm, ⟨62, _⟩ => ⟨S_, .i32⟩
  | .hbm, ⟨63, _⟩ => ⟨S6400000, .i32⟩
  | .hbm, ⟨64, _⟩ => ⟨S6400000, .i32⟩
  | .hbm, ⟨65, _⟩ => ⟨S6400000, .i32⟩
  | .hbm, ⟨66, _⟩ => ⟨S6400000x1, .i32⟩
  | .hbm, ⟨67, _⟩ => ⟨S6400000x5, .f32⟩
  | .hbm, ⟨68, _⟩ => ⟨S_, .i32⟩
  | .hbm, ⟨69, _⟩ => ⟨S6400000, .i32⟩
  | .hbm, ⟨70, _⟩ => ⟨S6400000, .i1⟩
  | .hbm, ⟨71, _⟩ => ⟨S_, .i32⟩
  | .hbm, ⟨72, _⟩ => ⟨S6400000, .i32⟩
  | .hbm, ⟨73, _⟩ => ⟨S6400000, .i32⟩
  | .hbm, ⟨74, _⟩ => ⟨S6400000, .i32⟩
  | .hbm, ⟨75, _⟩ => ⟨S6400000x1, .i32⟩
  | .hbm, ⟨76, _⟩ => ⟨S6400000x5, .f32⟩
  | .hbm, ⟨77, _⟩ => ⟨S5x5, .f32⟩
  | .hbm, ⟨78, _⟩ => ⟨S5x5, .f32⟩
  | .hbm, ⟨79, _⟩ => ⟨S1x5, .f32⟩
  | .hbm, ⟨80, _⟩ => ⟨S5x5, .f32⟩
  | .hbm, ⟨81, _⟩ => ⟨S5x5, .f32⟩
  | .hbm, ⟨82, _⟩ => ⟨S1x5, .f32⟩
  | .hbm, ⟨83, _⟩ => ⟨S1x5, .f32⟩
  | .hbm, ⟨84, _⟩ => ⟨S1x5, .f32⟩
  | .hbm, ⟨85, _⟩ => ⟨S6400000x5, .f32⟩
  | .hbm, ⟨86, _⟩ => ⟨S_, .f32⟩
  | .hbm, ⟨87, _⟩ => ⟨S100000x5, .f32⟩
  | .hbm, ⟨88, _⟩ => ⟨S6400000x1, .i32⟩
  | .hbm, ⟨89, _⟩ => ⟨S100000x5, .f32⟩
  | .hbm, ⟨90, _⟩ => ⟨S100000x5, .f32⟩
  | .hbm, ⟨91, _⟩ => ⟨S100000x2, .f32⟩
  | .hbm, ⟨92, _⟩ => ⟨S1x2, .f32⟩
  | .hbm, ⟨93, _⟩ => ⟨S100000x2, .f32⟩
  | .hbm, ⟨94, _⟩ => ⟨S100000x2, .f32⟩
  | .local _ .vmem, ⟨0, _⟩ => ⟨S3200x5, .f32⟩
  | .local _ .vmem, ⟨1, _⟩ => ⟨S3200x5, .f32⟩
  | .local _ .vmem, ⟨2, _⟩ => ⟨S3200x5, .f32⟩
  | .local _ .vmem, ⟨3, _⟩ => ⟨S3200x5, .f32⟩
  | .local _ .vmem, ⟨4, _⟩ => ⟨S3200x1, .f32⟩
  | .local _ .vmem, ⟨5, _⟩ => ⟨S3200x1, .f32⟩
  | .local _ .vmem, ⟨6, _⟩ => ⟨S5x5, .f32⟩
  | .local _ .vmem, ⟨7, _⟩ => ⟨S5x5, .f32⟩
  | .local _ .vmem, ⟨8, _⟩ => ⟨S1x5, .f32⟩
  | .local _ .vmem, ⟨9, _⟩ => ⟨S1x5, .f32⟩
  | .local _ .vmem, ⟨10, _⟩ => ⟨S5x5, .f32⟩
  | .local _ .vmem, ⟨11, _⟩ => ⟨S5x5, .f32⟩
  | .local _ .vmem, ⟨12, _⟩ => ⟨S1x5, .f32⟩
  | .local _ .vmem, ⟨13, _⟩ => ⟨S1x5, .f32⟩
  | .local _ .vmem, ⟨14, _⟩ => ⟨S3200x5, .f32⟩
  | .local _ .vmem, ⟨15, _⟩ => ⟨S3200x5, .f32⟩
  | .local _ .vmem, ⟨16, _⟩ => ⟨S3200x5, .f32⟩
  | .local _ .vmem, ⟨17, _⟩ => ⟨S3200x5, .f32⟩
  | .local _ .vmem, ⟨18, _⟩ => ⟨S3200x5, .f32⟩
  | .local _ .vmem, ⟨19, _⟩ => ⟨S3200x5, .f32⟩
  | .local _ .vmem, ⟨20, _⟩ => ⟨S3200x1, .f32⟩
  | .local _ .vmem, ⟨21, _⟩ => ⟨S3200x1, .f32⟩
  | .local _ .vmem, ⟨22, _⟩ => ⟨S5x5, .f32⟩
  | .local _ .vmem, ⟨23, _⟩ => ⟨S5x5, .f32⟩
  | .local _ .vmem, ⟨24, _⟩ => ⟨S1x5, .f32⟩
  | .local _ .vmem, ⟨25, _⟩ => ⟨S1x5, .f32⟩
  | .local _ .vmem, ⟨26, _⟩ => ⟨S5x5, .f32⟩
  | .local _ .vmem, ⟨27, _⟩ => ⟨S5x5, .f32⟩
  | .local _ .vmem, ⟨28, _⟩ => ⟨S1x5, .f32⟩
  | .local _ .vmem, ⟨29, _⟩ => ⟨S1x5, .f32⟩
  | .local _ .vmem, ⟨30, _⟩ => ⟨S3200x5, .f32⟩
  | .local _ .vmem, ⟨31, _⟩ => ⟨S3200x5, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_3 : Ref sig .tc := ⟨.hbm, 59, rfl⟩
abbrev main_v39 : Ref sig .tc := ⟨.hbm, 60, rfl⟩
abbrev main_v40 : Ref sig .tc := ⟨.hbm, 61, rfl⟩
abbrev main_c_4 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_5 : Ref sig .tc := ⟨.hbm, 68, rfl⟩
abbrev main_v46 : Ref sig .tc := ⟨.hbm, 69, rfl⟩
abbrev main_v47 : Ref sig .tc := ⟨.hbm, 70, rfl⟩
abbrev main_c_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_7 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem11_1 : DmaSem sig := 31

abbrev nD : Nat := 1
abbrev τ : Topo := Topo.v7x

variable {F : FTy → Type} [FloatOps F]

abbrev grid0 : Pipeline.Grid := ⟨1, ![2000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x5 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3200x5 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![2000], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S5x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S5x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x5 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x5 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S5x5 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S5x5 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x5 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x5 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S3200x5 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S11x5_S5x5_0_0 : S11x5.Slices ![0, 0] S5x5
  slices_S11x5_S5x5_5_0 : S11x5.Slices ![5, 0] S5x5
  slices_S11x5_S1x5_10_0 : S11x5.Slices ![10, 0] S1x5
  shapeCasts_S5_S1x5 : S5.ShapeCasts S1x5
  inb_S3200x5_S3200x5_0_0 : ∀ a, (![0, 0] : Fin 2 → Nat) a + S3200x5.size a ≤ S3200x5.size a
  h_S3200x5 : 0 < S3200x5.numel
  shapeCasts_S3200x5_S3200x5 : S3200x5.ShapeCasts S3200x5
  bitsLt_bf16_f32 : FTy.bits .bf16 < FTy.bits .f32
  inb_S3200x1_S3200x1_0_0 : ∀ a, (![0, 0] : Fin 2 → Nat) a + S3200x1.size a ≤ S3200x1.size a
  h_S3200x1 : 0 < S3200x1.numel
  inb_S5x5_S5x5_0_0 : ∀ a, (![0, 0] : Fin 2 → Nat) a + S5x5.size a ≤ S5x5.size a
  h_S5x5 : 0 < S5x5.numel
  shapeCasts_S5x5_S5x5 : S5x5.ShapeCasts S5x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S3200x5 : S1x5.Broadcasts S3200x5
  bcast_S_S100000x5 : S_.BroadcastsInDim S100000x5 (![] : Fin 0 → Fin S100000x5.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x2_S2x5_S100000x5_1_0_0_1_n_n_wf : DotDims.WF S100000x2 S2x5 S100000x5 [1] [0] [0] [1] [] []
  gather_S100000x5_S6400000x1_S6400000x5_1_0_n_n_0_1_15_wf : GatherDims.WF S100000x5 S6400000x1 S6400000x5 [1] [0] [] [0] [] 1 ![1, 5]
  dot_S3200x5_S5x5_S3200x5_1_0_0_1_n_n_wf : DotDims.WF S3200x5 S5x5 S3200x5 [1] [0] [0] [1] [] []
  dot_S3200x1_S1x5_S3200x5_1_0_0_1_n_n_wf : DotDims.WF S3200x1 S1x5 S3200x5 [1] [0] [0] [1] [] []
  scatter_S100000x5_S6400000x1_S6400000x5_1_0_0_1_wf : ScatterDims.WF S100000x5 S6400000x1 S6400000x5 [1] [0] [0] 1
  dot_S100000x5_S5x2_S100000x2_1_0_0_1_n_n_wf : DotDims.WF S100000x5 S5x2 S100000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x5.size a ≤ S6400000x5.size a
  hwx0_0 : ∀ i : grid0.Coords, EltTy.bits .f32 = 32 ∨ (Rect.block (s := S6400000x5) S3200x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x5.size a ≤ S6400000x5.size a
  hwx0_1 : ∀ i : grid0.Coords, EltTy.bits .f32 = 32 ∨ (Rect.block (s := S6400000x5) S3200x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x1.size a ≤ S6400000x1.size a
  hwx0_2 : ∀ i : grid0.Coords, EltTy.bits .f32 = 32 ∨ (Rect.block (s := S6400000x1) S3200x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x5.size a ≤ S5x5.size a
  hwx0_3 : ∀ i : grid0.Coords, EltTy.bits .f32 = 32 ∨ (Rect.block (s := S5x5) S5x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x5.size a ≤ S5x5.size a
  hwx0_4 : ∀ i : grid0.Coords, EltTy.bits .f32 = 32 ∨ (Rect.block (s := S5x5) S5x5.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x5.size a ≤ S1x5.size a
  hwx0_5 : ∀ i : grid0.Coords, EltTy.bits .f32 = 32 ∨ (Rect.block (s := S1x5) S1x5.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x5.size a ≤ S1x5.size a
  hwx0_6 : ∀ i : grid0.Coords, EltTy.bits .f32 = 32 ∨ (Rect.block (s := S1x5) S1x5.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5x5.size a ≤ S5x5.size a
  hwx0_7 : ∀ i : grid0.Coords, EltTy.bits .f32 = 32 ∨ (Rect.block (s := S5x5) S5x5.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5x5.size a ≤ S5x5.size a
  hwx0_8 : ∀ i : grid0.Coords, EltTy.bits .f32 = 32 ∨ (Rect.block (s := S5x5) S5x5.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x5.size a ≤ S1x5.size a
  hwx0_9 : ∀ i : grid0.Coords, EltTy.bits .f32 = 32 ∨ (Rect.block (s := S1x5) S1x5.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x5.size a ≤ S1x5.size a
  hwx0_10 : ∀ i : grid0.Coords, EltTy.bits .f32 = 32 ∨ (Rect.block (s := S1x5) S1x5.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3200x5.size a ≤ S6400000x5.size a
  hwx0_11 : ∀ i : grid0.Coords, EltTy.bits .f32 = 32 ∨ (Rect.block (s := S6400000x5) S3200x5.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x5.size a ≤ S6400000x5.size a
  hwx1_0 : ∀ i : grid1.Coords, EltTy.bits .f32 = 32 ∨ (Rect.block (s := S6400000x5) S3200x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x5.size a ≤ S6400000x5.size a
  hwx1_1 : ∀ i : grid1.Coords, EltTy.bits .f32 = 32 ∨ (Rect.block (s := S6400000x5) S3200x5.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x1.size a ≤ S6400000x1.size a
  hwx1_2 : ∀ i : grid1.Coords, EltTy.bits .f32 = 32 ∨ (Rect.block (s := S6400000x1) S3200x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5x5.size a ≤ S5x5.size a
  hwx1_3 : ∀ i : grid1.Coords, EltTy.bits .f32 = 32 ∨ (Rect.block (s := S5x5) S5x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S5x5.size a ≤ S5x5.size a
  hwx1_4 : ∀ i : grid1.Coords, EltTy.bits .f32 = 32 ∨ (Rect.block (s := S5x5) S5x5.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x5.size a ≤ S1x5.size a
  hwx1_5 : ∀ i : grid1.Coords, EltTy.bits .f32 = 32 ∨ (Rect.block (s := S1x5) S1x5.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x5.size a ≤ S1x5.size a
  hwx1_6 : ∀ i : grid1.Coords, EltTy.bits .f32 = 32 ∨ (Rect.block (s := S1x5) S1x5.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S5x5.size a ≤ S5x5.size a
  hwx1_7 : ∀ i : grid1.Coords, EltTy.bits .f32 = 32 ∨ (Rect.block (s := S5x5) S5x5.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S5x5.size a ≤ S5x5.size a
  hwx1_8 : ∀ i : grid1.Coords, EltTy.bits .f32 = 32 ∨ (Rect.block (s := S5x5) S5x5.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x5.size a ≤ S1x5.size a
  hwx1_9 : ∀ i : grid1.Coords, EltTy.bits .f32 = 32 ∨ (Rect.block (s := S1x5) S1x5.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x5.size a ≤ S1x5.size a
  hwx1_10 : ∀ i : grid1.Coords, EltTy.bits .f32 = 32 ∨ (Rect.block (s := S1x5) S1x5.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S3200x5.size a ≤ S6400000x5.size a
  hwx1_11 : ∀ i : grid1.Coords, EltTy.bits .f32 = 32 ∨ (Rect.block (s := S6400000x5) S3200x5.size (cc1_transform_11 i) (hinb1_11 i)).WholeWords (EltTy.packing .f32)

variable [Facts₀]

def dot_S100000x2_S2x5_S100000x5_1_0_0_1_n_n : DotDims S100000x2 S2x5 S100000x5 where
  lhsContracting := [1]
  rhsContracting := [0]
  lhsNonContracting := [0]
  rhsNonContracting := [1]
  lhsBatch := []
  rhsBatch := []
  wf := dot_S100000x2_S2x5_S100000x5_1_0_0_1_n_n_wf
def gather_S100000x5_S6400000x1_S6400000x5_1_0_n_n_0_1_15 : GatherDims S100000x5 S6400000x1 S6400000x5 where
  offsetDims := [1]
  collapsedSliceDims := [0]
  operandBatchingDims := []
  startIndicesBatchingDims := []
  startIndexMap := [0]
  indexVectorDim := 1
  sliceSizes := ![1, 5]
  wf := gather_S100000x5_S6400000x1_S6400000x5_1_0_n_n_0_1_15_wf
def dot_S3200x5_S5x5_S3200x5_1_0_0_1_n_n : DotDims S3200x5 S5x5 S3200x5 where
  lhsContracting := [1]
  rhsContracting := [0]
  lhsNonContracting := [0]
  rhsNonContracting := [1]
  lhsBatch := []
  rhsBatch := []
  wf := dot_S3200x5_S5x5_S3200x5_1_0_0_1_n_n_wf
def dot_S3200x1_S1x5_S3200x5_1_0_0_1_n_n : DotDims S3200x1 S1x5 S3200x5 where
  lhsContracting := [1]
  rhsContracting := [0]
  lhsNonContracting := [0]
  rhsNonContracting := [1]
  lhsBatch := []
  rhsBatch := []
  wf := dot_S3200x1_S1x5_S3200x5_1_0_0_1_n_n_wf
def scatter_S100000x5_S6400000x1_S6400000x5_1_0_0_1 : ScatterDims S100000x5 S6400000x1 S6400000x5 where
  updateWindowDims := [1]
  insertedWindowDims := [0]
  scatterDimsToOperandDims := [0]
  indexVectorDim := 1
  wf := scatter_S100000x5_S6400000x1_S6400000x5_1_0_0_1_wf
def dot_S100000x5_S5x2_S100000x2_1_0_0_1_n_n : DotDims S100000x5 S5x2 S100000x2 where
  lhsContracting := [1]
  rhsContracting := [0]
  lhsNonContracting := [0]
  rhsNonContracting := [1]
  lhsBatch := []
  rhsBatch := []
  wf := dot_S100000x5_S5x2_S100000x2_1_0_0_1_n_n_wf

abbrev win0_0 : Pipeline.Window sig grid0 :=
  Pipeline.Window.ofSpec (Memref.whole main_v14) S3200x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S3200x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S5x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x5.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S5x5.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S5x5.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1x5.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S1x5.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S3200x5.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v45) S3200x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S3200x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S3200x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v53) S5x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S5x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S1x5.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S1x5.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v56) S5x5.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v57) S5x5.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v58) S1x5.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v60) S1x5.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v61) S3200x5.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x2 : Shape := ⟨2, ![100000, 2]⟩
abbrev S2x6400000 : Shape := ⟨2, ![2, 6400000]⟩
abbrev S6400000x1 : Shape := ⟨2, ![6400000, 1]⟩
abbrev S2x5 : Shape := ⟨2, ![2, 5]⟩
abbrev S5 : Shape := ⟨1, ![5]⟩
abbrev S11x5 : Shape := ⟨2, ![11, 5]⟩
abbrev S5x2 : Shape := ⟨2, ![5, 2]⟩
abbrev S2 : Shape := ⟨1, ![2]⟩
abbrev S100000x5 : Shape := ⟨2, ![100000, 5]⟩
abbrev S1x5 : Shape := ⟨2, ![1, 5]⟩
abbrev S1x6400000 : Shape := ⟨2, ![1, 6400000]⟩
abbrev S6400000 : Shape := ⟨1, ![6400000]⟩
abbrev S_ : Shape := ⟨0, ![]⟩
abbrev S6400000x5 : Shape := ⟨2, ![6400000, 5]⟩
abbrev S6400000x11 : Shape := ⟨2, ![6400000, 11]⟩
abbrev S1x2 : Shape := ⟨2, ![1, 2]⟩

abbrev nBuf : Space → Nat
  | .hbm => 141
  | .vmem => 0
  | .smem => 0
  | _ => 0

abbrev hbmTy0_0 (i : Nat) : BufTy := match i % 128 with
  | 0 => ⟨S100000x2, .f32⟩
  | 1 => ⟨S2x6400000, .i32⟩
  | 2 => ⟨S6400000x1, .f32⟩
  | 3 => ⟨S2x5, .f32⟩
  | 4 => ⟨S5, .f32⟩
  | 5 => ⟨S11x5, .f32⟩
  | 6 => ⟨S5, .f32⟩
  | 7 => ⟨S11x5, .f32⟩
  | 8 => ⟨S5, .f32⟩
  | 9 => ⟨S11x5, .f32⟩
  | 10 => ⟨S5, .f32⟩
  | 11 => ⟨S11x5, .f32⟩
  | 12 => ⟨S5, .f32⟩
  | 13 => ⟨S5x2, .f32⟩
  | 14 => ⟨S2, .f32⟩
  | 15 => ⟨S100000x5, .f32⟩
  | 16 => ⟨S1x5, .f32⟩
  | 17 => ⟨S100000x5, .f32⟩
  | 18 => ⟨S100000x5, .f32⟩
  | 19 => ⟨S1x6400000, .i32⟩
  | 20 => ⟨S6400000, .i32⟩
  | 21 => ⟨S1x6400000, .i32⟩
  | 22 => ⟨S6400000, .i32⟩
  | 23 => ⟨S_, .i32⟩
  | 24 => ⟨S6400000, .i32⟩
  | 25 => ⟨S6400000, .i1⟩
  | 26 => ⟨S_, .i32⟩
  | 27 => ⟨S6400000, .i32⟩
  | 28 => ⟨S6400000, .i32⟩
  | 29 => ⟨S6400000, .i32⟩
  | 30 => ⟨S6400000x1, .i32⟩
  | 31 => ⟨S6400000x5, .f32⟩
  | 32 => ⟨S_, .i32⟩
  | 33 => ⟨S6400000, .i32⟩
  | 34 => ⟨S6400000, .i1⟩
  | 35 => ⟨S_, .i32⟩
  | 36 => ⟨S6400000, .i32⟩
  | 37 => ⟨S6400000, .i32⟩
  | 38 => ⟨S6400000, .i32⟩
  | 39 => ⟨S6400000x1, .i32⟩
  | 40 => ⟨S6400000x5, .f32⟩
  | 41 => ⟨S6400000x11, .f32⟩
  | 42 => ⟨S6400000x5, .f32⟩
  | 43 => ⟨S1x5, .f32⟩
  | 44 => ⟨S6400000x5, .f32⟩
  | 45 => ⟨S6400000x5, .f32⟩
  | 46 => ⟨S6400000x5, .f32⟩
  | 47 => ⟨S6400000x5, .f32⟩
  | 48 => ⟨S_, .f32⟩
  | 49 => ⟨S6400000x5, .f32⟩
  | 50 => ⟨S6400000x5, .f32⟩
  | 51 => ⟨S_, .f32⟩
  | 52 => ⟨S6400000x5, .f32⟩
  | 53 => ⟨S6400000x5, .f32⟩
  | 54 => ⟨S6400000x5, .f32⟩
  | 55 => ⟨S1x5, .f32⟩
  | 56 => ⟨S6400000x5, .f32⟩
  | 57 => ⟨S6400000x5, .f32⟩
  | 58 => ⟨S_, .f32⟩
  | 59 => ⟨S6400000x5, .f32⟩
  | 60 => ⟨S6400000x5, .f32⟩
  | 61 => ⟨S6400000x5, .f32⟩
  | 62 => ⟨S6400000x5, .f32⟩
  | 63 => ⟨S6400000x5, .i1⟩
  | 64 => ⟨S6400000x5, .f32⟩
  | 65 => ⟨S6400000x5, .f32⟩
  | 66 => ⟨S6400000x5, .f32⟩
  | 67 => ⟨S6400000x5, .f32⟩
  | 68 => ⟨S6400000x5, .f32⟩
  | 69 => ⟨S6400000x5, .f32⟩
  | 70 => ⟨S6400000x5, .f32⟩
  | 71 => ⟨S6400000x5, .f32⟩
  | 72 => ⟨S6400000x5, .f32⟩
  | 73 => ⟨S_, .f32⟩
  | 74 => ⟨S100000x5, .f32⟩
  | 75 => ⟨S6400000x1, .i32⟩
  | 76 => ⟨S100000x5, .f32⟩
  | 77 => ⟨S100000x5, .f32⟩
  | 78 => ⟨S1x6400000, .i32⟩
  | 79 => ⟨S6400000, .i32⟩
  | 80 => ⟨S1x6400000, .i32⟩
  | 81 => ⟨S6400000, .i32⟩
  | 82 => ⟨S_, .i32⟩
  | 83 => ⟨S6400000, .i32⟩
  | 84 => ⟨S6400000, .i1⟩
  | 85 => ⟨S_, .i32⟩
  | 86 => ⟨S6400000, .i32⟩
  | 87 => ⟨S6400000, .i32⟩
  | 88 => ⟨S6400000, .i32⟩
  | 89 => ⟨S6400000x1, .i32⟩
  | 90 => ⟨S6400000x5, .f32⟩
  | 91 => ⟨S_, .i32⟩
  | 92 => ⟨S6400000, .i32⟩
  | 93 => ⟨S6400000, .i1⟩
  | 94 => ⟨S_, .i32⟩
  | 95 => ⟨S6400000, .i32⟩
  | 96 => ⟨S6400000, .i32⟩
  | 97 => ⟨S6400000, .i32⟩
  | 98 => ⟨S6400000x1, .i32⟩
  | 99 => ⟨S6400000x5, .f32⟩
  | 100 => ⟨S6400000x11, .f32⟩
  | 101 => ⟨S6400000x5, .f32⟩
  | 102 => ⟨S1x5, .f32⟩
  | 103 => ⟨S6400000x5, .f32⟩
  | 104 => ⟨S6400000x5, .f32⟩
  | 105 => ⟨S6400000x5, .f32⟩
  | 106 => ⟨S6400000x5, .f32⟩
  | 107 => ⟨S_, .f32⟩
  | 108 => ⟨S6400000x5, .f32⟩
  | 109 => ⟨S6400000x5, .f32⟩
  | 110 => ⟨S_, .f32⟩
  | 111 => ⟨S6400000x5, .f32⟩
  | 112 => ⟨S6400000x5, .f32⟩
  | 113 => ⟨S6400000x5, .f32⟩
  | 114 => ⟨S1x5, .f32⟩
  | 115 => ⟨S6400000x5, .f32⟩
  | 116 => ⟨S6400000x5, .f32⟩
  | 117 => ⟨S_, .f32⟩
  | 118 => ⟨S6400000x5, .f32⟩
  | 119 => ⟨S6400000x5, .f32⟩
  | 120 => ⟨S6400000x5, .f32⟩
  | 121 => ⟨S6400000x5, .f32⟩
  | 122 => ⟨S6400000x5, .i1⟩
  | 123 => ⟨S6400000x5, .f32⟩
  | 124 => ⟨S6400000x5, .f32⟩
  | 125 => ⟨S6400000x5, .f32⟩
  | 126 => ⟨S6400000x5, .f32⟩
  | 127 => ⟨S6400000x5, .f32⟩
  | _ => ⟨S100000x2, .f32⟩

abbrev hbmTy0_1 (i : Nat) : BufTy := match i % 128 with
  | 0 => ⟨S6400000x5, .f32⟩
  | 1 => ⟨S6400000x5, .f32⟩
  | 2 => ⟨S6400000x5, .f32⟩
  | 3 => ⟨S6400000x5, .f32⟩
  | 4 => ⟨S_, .f32⟩
  | 5 => ⟨S100000x5, .f32⟩
  | 6 => ⟨S6400000x1, .i32⟩
  | 7 => ⟨S100000x5, .f32⟩
  | 8 => ⟨S100000x5, .f32⟩
  | 9 => ⟨S100000x2, .f32⟩
  | 10 => ⟨S1x2, .f32⟩
  | 11 => ⟨S100000x2, .f32⟩
  | 12 => ⟨S100000x2, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_v37 : Ref sig .tc := ⟨.hbm, 71, rfl⟩
abbrev main_v38 : Ref sig .tc := ⟨.hbm, 72, rfl⟩
abbrev main_cst_4 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_5 : Ref sig .tc := ⟨.hbm, 82, rfl⟩
abbrev main_v47 : Ref sig .tc := ⟨.hbm, 83, rfl⟩
abbrev main_v48 : Ref sig .tc := ⟨.hbm, 84, rfl⟩
abbrev main_c_6 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_7 : Ref sig .tc := ⟨.hbm, 91, rfl⟩
abbrev main_v54 : Ref sig .tc := ⟨.hbm, 92, rfl⟩
abbrev main_v55 : Ref sig .tc := ⟨.hbm, 93, rfl⟩
abbrev main_c_8 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_9 : Ref sig .tc := ⟨.hbm, 107, rfl⟩
abbrev main_v68 : Ref sig .tc := ⟨.hbm, 108, rfl⟩
abbrev main_v69 : Ref sig .tc := ⟨.hbm, 109, rfl⟩
abbrev main_cst_10 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_call1_cst : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_call1_v5 : Ref sig .tc := ⟨.hbm, 123, rfl⟩
abbrev main_call1_v6 : Ref sig .tc := ⟨.hbm, 124, rfl⟩
abbrev main_call1_v7 : Ref sig .tc := ⟨.hbm, 125, rfl⟩
abbrev main_call1_v8 : Ref sig .tc := ⟨.hbm, 126, rfl⟩
abbrev main_call1_v9 : Ref sig .tc := ⟨.hbm, 127, rfl⟩
abbrev main_call1_v10 : Ref sig .tc := ⟨.hbm, 128, rfl⟩
abbrev main_call1_v11 : Ref sig .tc := ⟨.hbm, 129, rfl⟩
abbrev main_v76 : Ref sig .tc := ⟨.hbm, 130, rfl⟩
abbrev main_v77 : Ref sig .tc := ⟨.hbm, 131, rfl⟩
abbrev main_cst_11 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩

abbrev nD : Nat := 1
abbrev τ : Topo := Topo.v7x

variable {F : FTy → Type} [FloatOps F]

class Facts₀ : Prop where
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  concatenates_S6400000x5_S6400000x5_S6400000x1_S6400000x11_d1 : Shape.Concatenates [S6400000x5, S6400000x5, S6400000x1] S6400000x11 1
  bcast_S1x5_S6400000x5_0_1 : S1x5.BroadcastsInDim S6400000x5 (![0, 1] : Fin 2 → Fin S6400000x5.rank)
  bcast_S_S6400000x5 : S_.BroadcastsInDim S6400000x5 (![] : Fin 0 → Fin S6400000x5.rank)
  bcast_S_S100000x5 : S_.BroadcastsInDim S100000x5 (![] : Fin 0 → Fin S100000x5.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x2_S2x5_S100000x5_1_0_0_1_n_n_wf : DotDims.WF S100000x2 S2x5 S100000x5 [1] [0] [0] [1] [] []
  gather_S100000x5_S6400000x1_S6400000x5_1_0_n_n_0_1_15_wf : GatherDims.WF S100000x5 S6400000x1 S6400000x5 [1] [0] [] [0] [] 1 ![1, 5]
  dot_S6400000x11_S11x5_S6400000x5_1_0_0_1_n_n_wf : DotDims.WF S6400000x11 S11x5 S6400000x5 [1] [0] [0] [1] [] []
  scatter_S100000x5_S6400000x1_S6400000x5_1_0_0_1_wf : ScatterDims.WF S100000x5 S6400000x1 S6400000x5 [1] [0] [0] 1
  dot_S100000x5_S5x2_S100000x2_1_0_0_1_n_n_wf : DotDims.WF S100000x5 S5x2 S100000x2 [1] [0] [0] [1] [] []

variable [Facts₀]

def dot_S100000x2_S2x5_S100000x5_1_0_0_1_n_n : DotDims S100000x2 S2x5 S100000x5 where
  lhsContracting := [1]
  rhsContracting := [0]
  lhsNonContracting := [0]
  rhsNonContracting := [1]
  lhsBatch := []
  rhsBatch := []
  wf := dot_S100000x2_S2x5_S100000x5_1_0_0_1_n_n_wf
def gather_S100000x5_S6400000x1_S6400000x5_1_0_n_n_0_1_15 : GatherDims S100000x5 S6400000x1 S6400000x5 where
  offsetDims := [1]
  collapsedSliceDims := [0]
  operandBatchingDims := []
  startIndicesBatchingDims := []
  startIndexMap := [0]
  indexVectorDim := 1
  sliceSizes := ![1, 5]
  wf := gather_S100000x5_S6400000x1_S6400000x5_1_0_n_n_0_1_15_wf
def dot_S6400000x11_S11x5_S6400000x5_1_0_0_1_n_n : DotDims S6400000x11 S11x5 S6400000x5 where
  lhsContracting := [1]
  rhsContracting := [0]
  lhsNonContracting := [0]
  rhsNonContracting := [1]
  lhsBatch := []
  rhsBatch := []
  wf := dot_S6400000x11_S11x5_S6400000x5_1_0_0_1_n_n_wf
def scatter_S100000x5_S6400000x1_S6400000x5_1_0_0_1 : ScatterDims S100000x5 S6400000x1 S6400000x5 where
  updateWindowDims := [1]
  insertedWindowDims := [0]
  scatterDimsToOperandDims := [0]
  indexVectorDim := 1
  wf := scatter_S100000x5_S6400000x1_S6400000x5_1_0_0_1_wf
def dot_S100000x5_S5x2_S100000x2_1_0_0_1_n_n : DotDims S100000x5 S5x2 S100000x2 where
  lhsContracting := [1]
  rhsContracting := [0]
  lhsNonContracting := [0]
  rhsNonContracting := [1]
  lhsBatch := []
  rhsBatch := []
  wf := dot_S100000x5_S5x2_S100000x2_1_0_0_1_n_n_wf

class Facts : Prop extends Facts₀ where

variable [Facts]
-- ==== Proof.KernelRun.lean ====
/-
  The kernel program's run with its result kept.

  @main is five segments: host operations, the first edge-message region, host operations, the second region, host
  operations. Every unscoped buffer ends at the contents the segments' fold leaves (W5): each host stretch applies its
  operations to what it finds, each region leaves its arrays at what its write-backs made of them. Reading the final
  state against that fold gives the result array's contents, W5 at the result buffer, beside the unchanged arguments.
-/
import proofs.«181776_j90881507983728_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the fold's contents
    and every argument array as launched. -/
theorem run : θ_run defs (onTc (τ := τ) (main (F := F))) ⟨m, fun _ => 0, ρ⟩ (fun r => ∀ c : Dev nD,
      r.2.mem ((c.tc : Thread nD τ).loc main_v69) = W5 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v69 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c)⟩)

end Cert.KernelIdeal.RunValue

end
-- ==== Proof.LibReciprocalScale.lean ====
/-
  A product with a reciprocal against a quotient, on the extended reals.

  At exact arithmetic a quotient a / d by d ≠ 0 is a · d⁻¹, and 1 / d is d⁻¹, so a · (1 / d) = a / d for EVERY extended
  real a, the infinities included: no finiteness is needed, only d ≠ 0. A maximum with the value of the f32 word
  0x3F800000 (the real 1) is at least 1, hence never 0: a degree clamped below at 1 can always be divided by.
-/
import Idealize.ShloMosaic.PureOps.Ideal.Laws

noncomputable section

namespace LibReciprocalScale

open Idealize.ShloMosaic

/-- The f32 word 0x3F800000 denotes the real 1. -/
theorem ofBits_one_f32 : Ideal.ofBits .f32 0x3F800000#32 = 1 := by
  simp [Ideal.ofBits, Ideal.ieee, -EReal.coe_mul]; norm_num

/-- A maximum with the word 0x3F800000's value is not 0. -/
theorem max_one_ne_zero (x : EReal) : max x (Ideal.ofBits .f32 0x3F800000#32) ≠ 0 := by
  rw [ofBits_one_f32]
  exact ne_of_gt (lt_of_lt_of_le zero_lt_one (le_max_right x 1))

/-- Off zero, the product with the reciprocal is the quotient, on every extended real. -/
theorem mul_one_div (a d : EReal) (hd : d ≠ 0) : a * Ideal.div 1 d = Ideal.div a d := by
  unfold Ideal.div
  rw [if_neg hd, if_neg hd, one_mul]

end LibReciprocalScale

end
-- ==== Proof.EdgeMessage.lean ====
/-
  The message of one edge, entry by entry, on the extended reals.

  For an edge e and a channel q let z = [a₀ … a₄, b₀ … b₄, c] be the joined row (target node's row, source node's
  row, edge attribute). The sigmoid's and the softplus's arguments are z · W[:, q] + β_q for two 11 × 5 matrices W.
  The sum over the eleven positions of z is the sum over the first five, plus the sum over the next five, plus
  the last one: addition on the extended reals is associative and commutative, so this holds with no finiteness
  assumption. The sigmoid is written 1 / (1 + e^(−t)) on one side and as the logistic function, which is that very
  quotient, on the other; the softplus's inner exponent is −|u| on one side and 0 − |u| on the other.
-/
import Idealize.ShloMosaic.Lib.ValueIdx
import Idealize.ShloMosaic.PureOps.Ideal.Laws
import proofs.«181776_j90881507983728_1_alg».proof.Proof.LibReciprocalScale

noncomputable section

namespace EdgeMessage

open Idealize.ShloMosaic Idealize.ShloMosaic.ValueIdx

/-- The value of the f32 word of zero. -/
abbrev zw : EReal := Ideal.ofBits .f32 0x00000000#32
/-- The value of the f32 word of one. -/
abbrev ow : EReal := Ideal.ofBits .f32 0x3F800000#32

/-- Sigmoid times softplus of the two arguments, the sigmoid as the logistic function, the exponent as 0 − |u|. -/
def actLogistic (f s : EReal) : EReal :=
  FloatOps.mulf (F := Ideal) (φ := .f32) (FloatOps.logistic (F := Ideal) (φ := .f32) f)
    (Scalar.select (FloatOps.cmpf (F := Ideal) (φ := .f32) .one (FloatOps.subf (F := Ideal) (φ := .f32) s zw) (FloatOps.subf (F := Ideal) (φ := .f32) s zw))
      (FloatOps.addf (F := Ideal) (φ := .f32) s zw)
      (FloatOps.addf (F := Ideal) (φ := .f32) (FloatOps.maximumf (F := Ideal) (φ := .f32) s zw)
        (FloatOps.log1p (F := Ideal) (φ := .f32) (FloatOps.exp (F := Ideal) (φ := .f32)
          (FloatOps.subf (F := Ideal) (φ := .f32) zw (FloatOps.absf (F := Ideal) (φ := .f32) (FloatOps.subf (F := Ideal) (φ := .f32) s zw)))))))

/-- Sigmoid times softplus of the two arguments, the sigmoid as 1 / (1 + e^(−f)), the exponent as −|u|. -/
def actQuotient (f s : EReal) : EReal :=
  FloatOps.mulf (F := Ideal) (φ := .f32)
    (FloatOps.hostDivf (F := Ideal) (φ := .f32) ow (FloatOps.addf (F := Ideal) (φ := .f32) ow
      (FloatOps.hostUnary (F := Ideal) (φ := .f32) .exp (FloatOps.hostNegf (F := Ideal) (φ := .f32) f))))
    (Scalar.select (FloatOps.cmpf (F := Ideal) (φ := .f32) .une (FloatOps.subf (F := Ideal) (φ := .f32) s zw) (FloatOps.subf (F := Ideal) (φ := .f32) s zw))
      (FloatOps.addf (F := Ideal) (φ := .f32) s zw)
      (FloatOps.addf (F := Ideal) (φ := .f32) (FloatOps.maximumf (F := Ideal) (φ := .f32) s zw)
        (FloatOps.hostUnary (F := Ideal) (φ := .f32) .log1p (FloatOps.hostUnary (F := Ideal) (φ := .f32) .exp
          (FloatOps.hostNegf (F := Ideal) (φ := .f32) (FloatOps.hostAbsf (F := Ideal) (φ := .f32) (FloatOps.subf (F := Ideal) (φ := .f32) s zw)))))))

/-- The two spellings are one function of the arguments. -/
theorem actLogistic_eq_actQuotient (f s : EReal) : actLogistic f s = actQuotient f s := by
  unfold actLogistic actQuotient
  have h0 : (zw - max (s - zw) (-(s - zw)) : EReal) = -(max (s - zw) (-(s - zw))) := by
    show Ideal.ofBits .f32 0x00000000#32 - _ = _
    rw [Ideal.ofBits_zero_f32, zero_sub]
  have h1 : Ideal.logistic f = Ideal.div ow (ow + Ideal.exp (-f)) := by
    show Ideal.div 1 (1 + Ideal.exp (-f)) = Ideal.div (Ideal.ofBits .f32 0x3F800000#32) (Ideal.ofBits .f32 0x3F800000#32 + Ideal.exp (-f))
    rw [LibReciprocalScale.ofBits_one_f32]
  show Ideal.logistic f * Scalar.select (Ideal.cmp .one (s - zw) (s - zw)) (s + zw) (max s zw + Ideal.log1p (Ideal.exp (zw - max (s - zw) (-(s - zw)))))
    = Ideal.div ow (ow + Ideal.exp (-f)) * Scalar.select (Ideal.cmp .une (s - zw) (s - zw)) (s + zw) (max s zw + Ideal.log1p (Ideal.exp (-(max (s - zw) (-(s - zw))))))
  rw [h0, h1]
  rfl

/-- A sum over eleven positions is the sum over the first five, the next five and the last one. -/
theorem sum_eleven (g : Fin 11 → EReal) :
    ∑ k : Fin 11, g k
      = (∑ k : Fin 5, g (Fin.castAdd 1 (Fin.castAdd 5 k)) + ∑ k : Fin 5, g (Fin.castAdd 1 (Fin.natAdd 5 k)))
        + ∑ k : Fin 1, g (Fin.natAdd 10 k) :=
  (Fin.sum_univ_add (a := 10) (b := 1) g).trans
    (congrArg (· + ∑ k : Fin 1, g (Fin.natAdd 10 k)) (Fin.sum_univ_add (a := 5) (b := 5) fun k => g (Fin.castAdd 1 k)))

/-- z · W[:, q] + β_q with the joined row's three parts and the matrix's three row blocks given apart: five terms from
    the target's row, five from the source's, one from the attribute, each sum taken by itself. -/
def preSplit {E : ℕ} (xd xs : (⟨2, ![E, 5]⟩ : Shape).Idx → EReal) (attr : (⟨2, ![E, 1]⟩ : Shape).Idx → EReal)
    (wd ws : (⟨2, ![5, 5]⟩ : Shape).Idx → EReal) (we b : (⟨2, ![1, 5]⟩ : Shape).Idx → EReal) (r : Fin E) (q : Fin 5) : EReal :=
  ((∑ k : Fin 5, xd (ix2 r k) * wd (ix2 k q)) + ∑ k : Fin 5, xs (ix2 r k) * ws (ix2 k q))
    + (∑ k : Fin 1, attr (ix2 r k) * we (ix2 k q)) + b (ix2 (0 : Fin 1) q)

/-- The message array from the parts: at edge r and channel q, sigmoid times softplus of the two split sums. -/
def msgSplit {E : ℕ} (xd xs : (⟨2, ![E, 5]⟩ : Shape).Idx → EReal) (attr : (⟨2, ![E, 1]⟩ : Shape).Idx → EReal)
    (wfd wfs : (⟨2, ![5, 5]⟩ : Shape).Idx → EReal) (wfe bf : (⟨2, ![1, 5]⟩ : Shape).Idx → EReal)
    (wsd wss : (⟨2, ![5, 5]⟩ : Shape).Idx → EReal) (wse bs : (⟨2, ![1, 5]⟩ : Shape).Idx → EReal) :
    (⟨2, ![E, 5]⟩ : Shape).Idx → EReal :=
  fun i => actLogistic (preSplit xd xs attr wfd wfs wfe bf (i 0) (i 1)) (preSplit xd xs attr wsd wss wse bs (i 0) (i 1))

/-- The split sums are the joined row's one sum: when z's first five positions hold the target's row, the next five the
    source's and the last the attribute, and the three blocks and the bias row are those of W and β. -/
theorem preSplit_eq_joined {E : ℕ} (xd xs : (⟨2, ![E, 5]⟩ : Shape).Idx → EReal) (attr : (⟨2, ![E, 1]⟩ : Shape).Idx → EReal)
    (wd ws : (⟨2, ![5, 5]⟩ : Shape).Idx → EReal) (we b2 : (⟨2, ![1, 5]⟩ : Shape).Idx → EReal)
    (z : (⟨2, ![E, 11]⟩ : Shape).Idx → EReal) (w : (⟨2, ![11, 5]⟩ : Shape).Idx → EReal) (b : (⟨1, ![5]⟩ : Shape).Idx → EReal)
    (hzd : ∀ (r : Fin E) (k : Fin 5), z (ix2 r (Fin.castAdd 1 (Fin.castAdd 5 k))) = xd (ix2 r k))
    (hzs : ∀ (r : Fin E) (k : Fin 5), z (ix2 r (Fin.castAdd 1 (Fin.natAdd 5 k))) = xs (ix2 r k))
    (hze : ∀ (r : Fin E) (k : Fin 1), z (ix2 r (Fin.natAdd 10 k)) = attr (ix2 r k))
    (hwd : ∀ (k : Fin 5) (q : Fin 5), wd (ix2 k q) = w (ix2 (Fin.castAdd 1 (Fin.castAdd 5 k)) q))
    (hws : ∀ (k : Fin 5) (q : Fin 5), ws (ix2 k q) = w (ix2 (Fin.castAdd 1 (Fin.natAdd 5 k)) q))
    (hwe : ∀ (k : Fin 1) (q : Fin 5), we (ix2 k q) = w (ix2 (Fin.natAdd 10 k) q))
    (hb : ∀ q : Fin 5, b2 (ix2 (0 : Fin 1) q) = b (ix1 q)) (r : Fin E) (q : Fin 5) :
    preSplit xd xs attr wd ws we b2 r q = (∑ k : Fin 11, z (ix2 r k) * w (ix2 k q)) + b (ix1 q) := by
  unfold preSplit
  rw [sum_eleven]
  simp only [hzd, hzs, hze, hwd, hws, hwe, hb]

end EdgeMessage

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.KernelEntry.lean ====
/-
  What one grid point of an edge-message region stores, entry by entry.

  The body loads a block of 3200 target rows, the same block of source rows and of attributes, the three row
  blocks of each of the two weight matrices and the two bias rows; it forms, for both matrices, the three
  products into a zero accumulator and their sum plus the bias row, and stores sigmoid times softplus of the two.
  At exact arithmetic the rounding to the narrower format on the way into a product is the identity, so the stored
  block at (p, q) is the message function of row p's entries alone.
-/
import proofs.«181776_j90881507983728_1_alg».proof.Proof.Gen.KernelIdeal.Skeleton
import Idealize.ShloMosaic.Lib.Pipeline.Value
import proofs.«181776_j90881507983728_1_alg».proof.Proof.EdgeMessage
import proofs.«181776_j90881507983728_1_alg».proof.Proof.LibMatmulIdx
import proofs.«181776_j90881507983728_1_alg».proof.Proof.LibRowOps

noncomputable section

namespace EdgeMessage.Kernel

open Cert.KernelIdeal Cert.KernelIdeal.Gen Idealize.ShloMosaic Idealize.ShloMosaic.ValueIdx

theorem d55_l0 (j : S3200x5.Idx) (k : dot_S3200x5_S5x5_S3200x5_1_0_0_1_n_n.contr.Idx) : (dot_S3200x5_S5x5_S3200x5_1_0_0_1_n_n.lhsIdx j k 0).val = (j 0).val := by
  unfold DotDims.lhsIdx
  rw [dif_neg (show ¬(0 : Fin S3200x5.rank) ∈ dot_S3200x5_S5x5_S3200x5_1_0_0_1_n_n.lhsBatch by decide), dif_pos (show (0 : Fin S3200x5.rank) ∈ dot_S3200x5_S5x5_S3200x5_1_0_0_1_n_n.lhsNonContracting by decide)]
  rfl
theorem d55_l1 (j : S3200x5.Idx) (k : dot_S3200x5_S5x5_S3200x5_1_0_0_1_n_n.contr.Idx) : (dot_S3200x5_S5x5_S3200x5_1_0_0_1_n_n.lhsIdx j k 1).val = (k ⟨0, by decide⟩).val :=
  dot_S3200x5_S5x5_S3200x5_1_0_0_1_n_n.lhsIdx_val_of_single rfl j k
theorem d55_r0 (j : S3200x5.Idx) (k : dot_S3200x5_S5x5_S3200x5_1_0_0_1_n_n.contr.Idx) : (dot_S3200x5_S5x5_S3200x5_1_0_0_1_n_n.rhsIdx j k 0).val = (k ⟨0, by decide⟩).val :=
  dot_S3200x5_S5x5_S3200x5_1_0_0_1_n_n.rhsIdx_val_of_single rfl j k
theorem d55_r1 (j : S3200x5.Idx) (k : dot_S3200x5_S5x5_S3200x5_1_0_0_1_n_n.contr.Idx) : (dot_S3200x5_S5x5_S3200x5_1_0_0_1_n_n.rhsIdx j k 1).val = (j 1).val := by
  unfold DotDims.rhsIdx
  rw [dif_neg (show ¬(1 : Fin S5x5.rank) ∈ dot_S3200x5_S5x5_S3200x5_1_0_0_1_n_n.rhsBatch by decide), dif_pos (show (1 : Fin S5x5.rank) ∈ dot_S3200x5_S5x5_S3200x5_1_0_0_1_n_n.rhsNonContracting by decide)]
  rfl

theorem d15_l0 (j : S3200x5.Idx) (k : dot_S3200x1_S1x5_S3200x5_1_0_0_1_n_n.contr.Idx) : (dot_S3200x1_S1x5_S3200x5_1_0_0_1_n_n.lhsIdx j k 0).val = (j 0).val := by
  unfold DotDims.lhsIdx
  rw [dif_neg (show ¬(0 : Fin S3200x1.rank) ∈ dot_S3200x1_S1x5_S3200x5_1_0_0_1_n_n.lhsBatch by decide), dif_pos (show (0 : Fin S3200x1.rank) ∈ dot_S3200x1_S1x5_S3200x5_1_0_0_1_n_n.lhsNonContracting by decide)]
  rfl
theorem d15_l1 (j : S3200x5.Idx) (k : dot_S3200x1_S1x5_S3200x5_1_0_0_1_n_n.contr.Idx) : (dot_S3200x1_S1x5_S3200x5_1_0_0_1_n_n.lhsIdx j k 1).val = (k ⟨0, by decide⟩).val :=
  dot_S3200x1_S1x5_S3200x5_1_0_0_1_n_n.lhsIdx_val_of_single rfl j k
theorem d15_r0 (j : S3200x5.Idx) (k : dot_S3200x1_S1x5_S3200x5_1_0_0_1_n_n.contr.Idx) : (dot_S3200x1_S1x5_S3200x5_1_0_0_1_n_n.rhsIdx j k 0).val = (k ⟨0, by decide⟩).val :=
  dot_S3200x1_S1x5_S3200x5_1_0_0_1_n_n.rhsIdx_val_of_single rfl j k
theorem d15_r1 (j : S3200x5.Idx) (k : dot_S3200x1_S1x5_S3200x5_1_0_0_1_n_n.contr.Idx) : (dot_S3200x1_S1x5_S3200x5_1_0_0_1_n_n.rhsIdx j k 1).val = (j 1).val := by
  unfold DotDims.rhsIdx
  rw [dif_neg (show ¬(1 : Fin S1x5.rank) ∈ dot_S3200x1_S1x5_S3200x5_1_0_0_1_n_n.rhsBatch by decide), dif_pos (show (1 : Fin S1x5.rank) ∈ dot_S3200x1_S1x5_S3200x5_1_0_0_1_n_n.rhsNonContracting by decide)]
  rfl

/-- A cast of a shape to itself followed by a change of float format is the identity at exact arithmetic. -/
theorem castTrunc {s : Shape} (x : Vec Ideal s .f32) (h : s.ShapeCasts s) (hb : FTy.bf16.bits < FTy.f32.bits) :
    (truncf (F := Ideal) .bf16 (shapeCast s x h) hb : s.Idx → EReal) = x := by
  rw [shapeCast_self]; rfl

/-- A 3200 × 5 by 5 × 5 product into the zero splat at (p, q): the sum over the five contracted positions. -/
theorem mm55 (l : FVec Ideal S3200x5 .bf16) (r : FVec Ideal S5x5 .bf16) (p : Fin 3200) (q : Fin 5) :
    FloatOps.matmul (F := Ideal) dot_S3200x5_S5x5_S3200x5_1_0_0_1_n_n none l r (constant S3200x5 .f32 0x00000000#32) (ix2 p q) = ∑ k : Fin 5, l (ix2 p k) * r (ix2 k q) :=
  LibMatmulIdx.matmul2_apply dot_S3200x5_S5x5_S3200x5_1_0_0_1_n_n rfl rfl d55_l0 d55_l1 d55_r0 d55_r1 none l r (ix2 p q)

/-- A 3200 × 1 by 1 × 5 product into the zero splat at (p, q): the one product. -/
theorem mm15 (l : FVec Ideal S3200x1 .bf16) (r : FVec Ideal S1x5 .bf16) (p : Fin 3200) (q : Fin 5) :
    FloatOps.matmul (F := Ideal) dot_S3200x1_S1x5_S3200x5_1_0_0_1_n_n none l r (constant S3200x5 .f32 0x00000000#32) (ix2 p q) = ∑ k : Fin 1, l (ix2 p k) * r (ix2 k q) :=
  LibMatmulIdx.matmul2_apply dot_S3200x1_S1x5_S3200x5_1_0_0_1_n_n rfl rfl d15_l0 d15_l1 d15_r0 d15_r1 none l r (ix2 p q)

/-- A bias row broadcast down the 3200 rows reads, at (p, q), its entry q. -/
theorem rowDown (v : FVec Ideal S1x5 .f32) (p : Fin 3200) (q : Fin 5) :
    broadcastTo S3200x5 v broadcasts_S1x5_S3200x5 (ix2 p q) = v (ix2 (0 : Fin 1) q) :=
  LibRowOps.broadcastTo_row_apply v broadcasts_S1x5_S3200x5 p q

/-! ## Region 0 -/

theorem pay0_store (v2 v5 : FVec Ideal S3200x5 .bf16) (v7 : FVec Ideal S3200x1 .bf16) (v18 : FVec Ideal S1x5 .f32) (v21 v24 : FVec Ideal S5x5 .bf16)
    (v27 : FVec Ideal S1x5 .bf16) (v29 : FVec Ideal S1x5 .f32) (v32 v33 : FVec Ideal S3200x5 .f32) (i : S3200x5.Idx) :
    k0_pay1 (F := Ideal) v2 v5 v7 v18 v21 v24 v27 v29 v32 v33 i
      = EdgeMessage.actLogistic
          (FloatOps.addf (F := Ideal) (φ := .f32) (FloatOps.addf (F := Ideal) (φ := .f32) (v32 i) (v33 i)) (broadcastTo S3200x5 v18 broadcasts_S1x5_S3200x5 i))
          (FloatOps.addf (F := Ideal) (φ := .f32) (FloatOps.addf (F := Ideal) (φ := .f32) (FloatOps.addf (F := Ideal) (φ := .f32)
              (FloatOps.matmul (F := Ideal) dot_S3200x5_S5x5_S3200x5_1_0_0_1_n_n none v2 v21 (constant S3200x5 .f32 0x00000000#32) i)
              (FloatOps.matmul (F := Ideal) dot_S3200x5_S5x5_S3200x5_1_0_0_1_n_n none v5 v24 (constant S3200x5 .f32 0x00000000#32) i))
              (FloatOps.matmul (F := Ideal) dot_S3200x1_S1x5_S3200x5_1_0_0_1_n_n none v7 v27 (constant S3200x5 .f32 0x00000000#32) i))
            (broadcastTo S3200x5 v29 broadcasts_S1x5_S3200x5 i)) := rfl

theorem pay0_two (v0 v3 : Vec Ideal S3200x5 .f32) (v8 v11 : Vec Ideal S5x5 .f32) (i : S3200x5.Idx) :
    k0_pay10 (F := Ideal) v0 v3 v8 v11 i
      = FloatOps.addf (F := Ideal) (φ := .f32)
          (FloatOps.matmul (F := Ideal) dot_S3200x5_S5x5_S3200x5_1_0_0_1_n_n none (k0_pay2 (F := Ideal) v0) (truncf .bf16 (shapeCast S5x5 v8 shapeCasts_S5x5_S5x5) bitsLt_bf16_f32) (constant S3200x5 .f32 0x00000000#32) i)
          (FloatOps.matmul (F := Ideal) dot_S3200x5_S5x5_S3200x5_1_0_0_1_n_n none (k0_pay3 (F := Ideal) v3) (truncf .bf16 (shapeCast S5x5 v11 shapeCasts_S5x5_S5x5) bitsLt_bf16_f32) (constant S3200x5 .f32 0x00000000#32) i) := rfl

theorem pay0_attr (v6 : Vec Ideal S3200x1 .f32) (v14 : Vec Ideal S1x5 .f32) (i : S3200x5.Idx) :
    k0_pay11 (F := Ideal) v6 v14 i
      = FloatOps.matmul (F := Ideal) dot_S3200x1_S1x5_S3200x5_1_0_0_1_n_n none (k0_pay4 (F := Ideal) v6) (truncf .bf16 (shapeCast S1x5 v14 shapeCasts_S1x5_S1x5) bitsLt_bf16_f32) (constant S3200x5 .f32 0x00000000#32) i := rfl

theorem pay0_2 (x : Vec Ideal S3200x5 .f32) : (k0_pay2 (F := Ideal) x : S3200x5.Idx → EReal) = x := castTrunc x _ _
theorem pay0_3 (x : Vec Ideal S3200x5 .f32) : (k0_pay3 (F := Ideal) x : S3200x5.Idx → EReal) = x := castTrunc x _ _
theorem pay0_4 (x : Vec Ideal S3200x1 .f32) : (k0_pay4 (F := Ideal) x : S3200x1.Idx → EReal) = x := rfl
theorem pay0_5 (x : Vec Ideal S1x5 .f32) : (k0_pay5 (F := Ideal) x : S1x5.Idx → EReal) = x := shapeCast_self x _
theorem pay0_6 (x : Vec Ideal S5x5 .f32) : (k0_pay6 (F := Ideal) x : S5x5.Idx → EReal) = x := castTrunc x _ _
theorem pay0_7 (x : Vec Ideal S5x5 .f32) : (k0_pay7 (F := Ideal) x : S5x5.Idx → EReal) = x := castTrunc x _ _
theorem pay0_8 (x : Vec Ideal S1x5 .f32) : (k0_pay8 (F := Ideal) x : S1x5.Idx → EReal) = x := castTrunc x _ _
theorem pay0_9 (x : Vec Ideal S1x5 .f32) : (k0_pay9 (F := Ideal) x : S1x5.Idx → EReal) = x := shapeCast_self x _

/-- Region 0's stored value at row p and channel q of its block, from the eleven loaded blocks: the message function
    of row p's entries. -/
theorem pay0_entry (x0 x1 : Vec Ideal S3200x5 .f32) (x2 : Vec Ideal S3200x1 .f32) (x3 x4 : Vec Ideal S5x5 .f32)
    (x5 x6 : Vec Ideal S1x5 .f32) (x7 x8 : Vec Ideal S5x5 .f32) (x9 x10 : Vec Ideal S1x5 .f32) (p : Fin 3200) (q : Fin 5) :
    k0_pay1 (F := Ideal) (k0_pay2 x0) (k0_pay3 x1) (k0_pay4 x2) (k0_pay5 x6) (k0_pay6 x7) (k0_pay7 x8) (k0_pay8 x9) (k0_pay9 x10)
        (k0_pay10 x0 x1 x3 x4) (k0_pay11 x2 x5) (ix2 p q)
      = EdgeMessage.msgSplit (E := 3200) x0 x1 x2 x3 x4 x5 x6 x7 x8 x9 x10 (ix2 p q) := by
  rw [pay0_store, pay0_two, pay0_attr]
  simp only [mm55, mm15, rowDown, pay0_2, pay0_3, pay0_4, pay0_5, pay0_6, pay0_7, pay0_8, pay0_9, castTrunc]
  rfl

/-! ## Region 1 -/

theorem pay1_store (v2 v5 : FVec Ideal S3200x5 .bf16) (v7 : FVec Ideal S3200x1 .bf16) (v18 : FVec Ideal S1x5 .f32) (v21 v24 : FVec Ideal S5x5 .bf16)
    (v27 : FVec Ideal S1x5 .bf16) (v29 : FVec Ideal S1x5 .f32) (v32 v33 : FVec Ideal S3200x5 .f32) (i : S3200x5.Idx) :
    k1_pay1 (F := Ideal) v2 v5 v7 v18 v21 v24 v27 v29 v32 v33 i
      = EdgeMessage.actLogistic
          (FloatOps.addf (F := Ideal) (φ := .f32) (FloatOps.addf (F := Ideal) (φ := .f32) (v32 i) (v33 i)) (broadcastTo S3200x5 v18 broadcasts_S1x5_S3200x5 i))
          (FloatOps.addf (F := Ideal) (φ := .f32) (FloatOps.addf (F := Ideal) (φ := .f32) (FloatOps.addf (F := Ideal) (φ := .f32)
              (FloatOps.matmul (F := Ideal) dot_S3200x5_S5x5_S3200x5_1_0_0_1_n_n none v2 v21 (constant S3200x5 .f32 0x00000000#32) i)
              (FloatOps.matmul (F := Ideal) dot_S3200x5_S5x5_S3200x5_1_0_0_1_n_n none v5 v24 (constant S3200x5 .f32 0x00000000#32) i))
              (FloatOps.matmul (F := Ideal) dot_S3200x1_S1x5_S3200x5_1_0_0_1_n_n none v7 v27 (constant S3200x5 .f32 0x00000000#32) i))
            (broadcastTo S3200x5 v29 broadcasts_S1x5_S3200x5 i)) := rfl

theorem pay1_two (v0 v3 : Vec Ideal S3200x5 .f32) (v8 v11 : Vec Ideal S5x5 .f32) (i : S3200x5.Idx) :
    k1_pay10 (F := Ideal) v0 v3 v8 v11 i
      = FloatOps.addf (F := Ideal) (φ := .f32)
          (FloatOps.matmul (F := Ideal) dot_S3200x5_S5x5_S3200x5_1_0_0_1_n_n none (k1_pay2 (F := Ideal) v0) (truncf .bf16 (shapeCast S5x5 v8 shapeCasts_S5x5_S5x5) bitsLt_bf16_f32) (constant S3200x5 .f32 0x00000000#32) i)
          (FloatOps.matmul (F := Ideal) dot_S3200x5_S5x5_S3200x5_1_0_0_1_n_n none (k1_pay3 (F := Ideal) v3) (truncf .bf16 (shapeCast S5x5 v11 shapeCasts_S5x5_S5x5) bitsLt_bf16_f32) (constant S3200x5 .f32 0x00000000#32) i) := rfl

theorem pay1_attr (v6 : Vec Ideal S3200x1 .f32) (v14 : Vec Ideal S1x5 .f32) (i : S3200x5.Idx) :
    k1_pay11 (F := Ideal) v6 v14 i
      = FloatOps.matmul (F := Ideal) dot_S3200x1_S1x5_S3200x5_1_0_0_1_n_n none (k1_pay4 (F := Ideal) v6) (truncf .bf16 (shapeCast S1x5 v14 shapeCasts_S1x5_S1x5) bitsLt_bf16_f32) (constant S3200x5 .f32 0x00000000#32) i := rfl

theorem pay1_2 (x : Vec Ideal S3200x5 .f32) : (k1_pay2 (F := Ideal) x : S3200x5.Idx → EReal) = x := castTrunc x _ _
theorem pay1_3 (x : Vec Ideal S3200x5 .f32) : (k1_pay3 (F := Ideal) x : S3200x5.Idx → EReal) = x := castTrunc x _ _
theorem pay1_4 (x : Vec Ideal S3200x1 .f32) : (k1_pay4 (F := Ideal) x : S3200x1.Idx → EReal) = x := rfl
theorem pay1_5 (x : Vec Ideal S1x5 .f32) : (k1_pay5 (F := Ideal) x : S1x5.Idx → EReal) = x := shapeCast_self x _
theorem pay1_6 (x : Vec Ideal S5x5 .f32) : (k1_pay6 (F := Ideal) x : S5x5.Idx → EReal) = x := castTrunc x _ _
theorem pay1_7 (x : Vec Ideal S5x5 .f32) : (k1_pay7 (F := Ideal) x : S5x5.Idx → EReal) = x := castTrunc x _ _
theorem pay1_8 (x : Vec Ideal S1x5 .f32) : (k1_pay8 (F := Ideal) x : S1x5.Idx → EReal) = x := castTrunc x _ _
theorem pay1_9 (x : Vec Ideal S1x5 .f32) : (k1_pay9 (F := Ideal) x : S1x5.Idx → EReal) = x := shapeCast_self x _

/-- Region 1's stored value at row p and channel q of its block, from the eleven loaded blocks: the message function
    of row p's entries. -/
theorem pay1_entry (x0 x1 : Vec Ideal S3200x5 .f32) (x2 : Vec Ideal S3200x1 .f32) (x3 x4 : Vec Ideal S5x5 .f32)
    (x5 x6 : Vec Ideal S1x5 .f32) (x7 x8 : Vec Ideal S5x5 .f32) (x9 x10 : Vec Ideal S1x5 .f32) (p : Fin 3200) (q : Fin 5) :
    k1_pay1 (F := Ideal) (k1_pay2 x0) (k1_pay3 x1) (k1_pay4 x2) (k1_pay5 x6) (k1_pay6 x7) (k1_pay7 x8) (k1_pay8 x9) (k1_pay9 x10)
        (k1_pay10 x0 x1 x3 x4) (k1_pay11 x2 x5) (ix2 p q)
      = EdgeMessage.msgSplit (E := 3200) x0 x1 x2 x3 x4 x5 x6 x7 x8 x9 x10 (ix2 p q) := by
  rw [pay1_store, pay1_two, pay1_attr]
  simp only [mm55, mm15, rowDown, pay1_2, pay1_3, pay1_4, pay1_5, pay1_6, pay1_7, pay1_8, pay1_9, castTrunc]
  rfl

end EdgeMessage.Kernel

end
-- ==== Proof.KernelBlocks.lean ====
/-
  An edge-message region's output array after its grid.

  The grid has 2000 points; point t stages rows t · 3200 … t · 3200 + 3199 of the two gathered node-row arrays and
  of the attribute array, the whole of each weight block and bias row, and writes back rows t · 3200 … of the output.
  What it writes at (p, q) is the message function of row t · 3200 + p. The 2000 blocks tile the 6 400 000 rows, so
  the output array ends holding the message function of the region's arrays at every edge.
-/
import proofs.«181776_j90881507983728_1_alg».proof.Proof.Gen.KernelIdeal.Frame
import proofs.«181776_j90881507983728_1_alg».proof.Proof.KernelEntry

set_option maxRecDepth 16384

noncomputable section

namespace EdgeMessage.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## Region 0 -/

section Region0

variable (V : (c : Dev nD) → (b : Ref sig .tc) → Buf (Elt Ideal) ((c : Thread nD τ).loc b))

/-- The printed index maps over the grid of 2000 points: the three edge windows and the output move with the point
    along the rows, the weight and bias windows stay at their one block. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0 :=
  (by decide +kernel : ∀ t : Fin grid0.N, _)

/-- Window 0's block at point t, at row p of the block, is row t · 3200 + p of its array. -/
theorem blk0_0 (c : Dev nD) (t : Fin cfg0.N) (p : Fin 3200) (k : Fin 5) (R : Fin 6400000) (hR : R.val = t.val * 3200 + p.val) :
    iblk0 V c 0 t (ix2 p k) = V c main_v14 (ix2 R k) := by
  obtain ⟨e0a, e0b, e1a, e1b, e2a, e2b, e3a, e3b, e4a, e4b, e5a, e5b, e6a, e6b, e7a, e7b, e8a, e8b, e9a, e9b, e10a, e10b, e11a, e11b⟩ := idx_facts0 t
  show V c main_v14 (((cfg0.win 0).blk t).view.emb (ix2 p k)) = V c main_v14 (ix2 R k)
  refine congrArg (V c main_v14) (funext fun a => Fin.ext ?_)
  match a with
  | ⟨0, _⟩ => show win0_0.index t (0 : Fin 2) * 3200 + 1 * p.val = R.val; omega
  | ⟨1, _⟩ => show win0_0.index t (1 : Fin 2) * 5 + 1 * k.val = k.val; omega

/-- Window 1's block at point t, at row p of the block, is row t · 3200 + p of its array. -/
theorem blk0_1 (c : Dev nD) (t : Fin cfg0.N) (p : Fin 3200) (k : Fin 5) (R : Fin 6400000) (hR : R.val = t.val * 3200 + p.val) :
    iblk0 V c 1 t (ix2 p k) = V c main_v21 (ix2 R k) := by
  obtain ⟨e0a, e0b, e1a, e1b, e2a, e2b, e3a, e3b, e4a, e4b, e5a, e5b, e6a, e6b, e7a, e7b, e8a, e8b, e9a, e9b, e10a, e10b, e11a, e11b⟩ := idx_facts0 t
  show V c main_v21 (((cfg0.win 1).blk t).view.emb (ix2 p k)) = V c main_v21 (ix2 R k)
  refine congrArg (V c main_v21) (funext fun a => Fin.ext ?_)
  match a with
  | ⟨0, _⟩ => show win0_1.index t (0 : Fin 2) * 3200 + 1 * p.val = R.val; omega
  | ⟨1, _⟩ => show win0_1.index t (1 : Fin 2) * 5 + 1 * k.val = k.val; omega

/-- Window 2's block at point t, at row p of the block, is row t · 3200 + p of its array. -/
theorem blk0_2 (c : Dev nD) (t : Fin cfg0.N) (p : Fin 3200) (k : Fin 1) (R : Fin 6400000) (hR : R.val = t.val * 3200 + p.val) :
    iblk0 V c 2 t (ix2 p k) = V c main_arg2 (ix2 R k) := by
  obtain ⟨e0a, e0b, e1a, e1b, e2a, e2b, e3a, e3b, e4a, e4b, e5a, e5b, e6a, e6b, e7a, e7b, e8a, e8b, e9a, e9b, e10a, e10b, e11a, e11b⟩ := idx_facts0 t
  show V c main_arg2 (((cfg0.win 2).blk t).view.emb (ix2 p k)) = V c main_arg2 (ix2 R k)
  refine congrArg (V c main_arg2) (funext fun a => Fin.ext ?_)
  match a with
  | ⟨0, _⟩ => show win0_2.index t (0 : Fin 2) * 3200 + 1 * p.val = R.val; omega
  | ⟨1, _⟩ => show win0_2.index t (1 : Fin 2) * 1 + 1 * k.val = k.val; omega

/-- Window 3's block at every point is its whole array. -/
theorem blk0_3 (c : Dev nD) (t : Fin cfg0.N) (y : S5x5.Idx) : iblk0 V c 3 t y = V c main_v22 y := by
  obtain ⟨e0a, e0b, e1a, e1b, e2a, e2b, e3a, e3b, e4a, e4b, e5a, e5b, e6a, e6b, e7a, e7b, e8a, e8b, e9a, e9b, e10a, e10b, e11a, e11b⟩ := idx_facts0 t
  show V c main_v22 (((cfg0.win 3).blk t).view.emb y) = V c main_v22 y
  refine congrArg (V c main_v22) (funext fun a => Fin.ext ?_)
  match a with
  | ⟨0, _⟩ => show win0_3.index t (0 : Fin 2) * 5 + 1 * (y 0).val = (y 0).val; omega
  | ⟨1, _⟩ => show win0_3.index t (1 : Fin 2) * 5 + 1 * (y 1).val = (y 1).val; omega

/-- Window 4's block at every point is its whole array. -/
theorem blk0_4 (c : Dev nD) (t : Fin cfg0.N) (y : S5x5.Idx) : iblk0 V c 4 t y = V c main_v23 y := by
  obtain ⟨e0a, e0b, e1a, e1b, e2a, e2b, e3a, e3b, e4a, e4b, e5a, e5b, e6a, e6b, e7a, e7b, e8a, e8b, e9a, e9b, e10a, e10b, e11a, e11b⟩ := idx_facts0 t
  show V c main_v23 (((cfg0.win 4).blk t).view.emb y) = V c main_v23 y
  refine congrArg (V c main_v23) (funext fun a => Fin.ext ?_)
  match a with
  | ⟨0, _⟩ => show win0_4.index t (0 : Fin 2) * 5 + 1 * (y 0).val = (y 0).val; omega
  | ⟨1, _⟩ => show win0_4.index t (1 : Fin 2) * 5 + 1 * (y 1).val = (y 1).val; omega

/-- Window 5's block at every point is its whole array. -/
theorem blk0_5 (c : Dev nD) (t : Fin cfg0.N) (y : S1x5.Idx) : iblk0 V c 5 t y = V c main_v24 y := by
  obtain ⟨e0a, e0b, e1a, e1b, e2a, e2b, e3a, e3b, e4a, e4b, e5a, e5b, e6a, e6b, e7a, e7b, e8a, e8b, e9a, e9b, e10a, e10b, e11a, e11b⟩ := idx_facts0 t
  show V c main_v24 (((cfg0.win 5).blk t).view.emb y) = V c main_v24 y
  refine congrArg (V c main_v24) (funext fun a => Fin.ext ?_)
  match a with
  | ⟨0, _⟩ => show win0_5.index t (0 : Fin 2) * 1 + 1 * (y 0).val = (y 0).val; omega
  | ⟨1, _⟩ => show win0_5.index t (1 : Fin 2) * 5 + 1 * (y 1).val = (y 1).val; omega

/-- Window 6's block at every point is its whole array. -/
theorem blk0_6 (c : Dev nD) (t : Fin cfg0.N) (y : S1x5.Idx) : iblk0 V c 6 t y = V c main_v28 y := by
  obtain ⟨e0a, e0b, e1a, e1b, e2a, e2b, e3a, e3b, e4a, e4b, e5a, e5b, e6a, e6b, e7a, e7b, e8a, e8b, e9a, e9b, e10a, e10b, e11a, e11b⟩ := idx_facts0 t
  show V c main_v28 (((cfg0.win 6).blk t).view.emb y) = V c main_v28 y
  refine congrArg (V c main_v28) (funext fun a => Fin.ext ?_)
  match a with
  | ⟨0, _⟩ => show win0_6.index t (0 : Fin 2) * 1 + 1 * (y 0).val = (y 0).val; omega
  | ⟨1, _⟩ => show win0_6.index t (1 : Fin 2) * 5 + 1 * (y 1).val = (y 1).val; omega

/-- Window 7's block at every point is its whole array. -/
theorem blk0_7 (c : Dev nD) (t : Fin cfg0.N) (y : S5x5.Idx) : iblk0 V c 7 t y = V c main_v25 y := by
  obtain ⟨e0a, e0b, e1a, e1b, e2a, e2b, e3a, e3b, e4a, e4b, e5a, e5b, e6a, e6b, e7a, e7b, e8a, e8b, e9a, e9b, e10a, e10b, e11a, e11b⟩ := idx_facts0 t
  show V c main_v25 (((cfg0.win 7).blk t).view.emb y) = V c main_v25 y
  refine congrArg (V c main_v25) (funext fun a => Fin.ext ?_)
  match a with
  | ⟨0, _⟩ => show win0_7.index t (0 : Fin 2) * 5 + 1 * (y 0).val = (y 0).val; omega
  | ⟨1, _⟩ => show win0_7.index t (1 : Fin 2) * 5 + 1 * (y 1).val = (y 1).val; omega

/-- Window 8's block at every point is its whole array. -/
theorem blk0_8 (c : Dev nD) (t : Fin cfg0.N) (y : S5x5.Idx) : iblk0 V c 8 t y = V c main_v26 y := by
  obtain ⟨e0a, e0b, e1a, e1b, e2a, e2b, e3a, e3b, e4a, e4b, e5a, e5b, e6a, e6b, e7a, e7b, e8a, e8b, e9a, e9b, e10a, e10b, e11a, e11b⟩ := idx_facts0 t
  show V c main_v26 (((cfg0.win 8).blk t).view.emb y) = V c main_v26 y
  refine congrArg (V c main_v26) (funext fun a => Fin.ext ?_)
  match a with
  | ⟨0, _⟩ => show win0_8.index t (0 : Fin 2) * 5 + 1 * (y 0).val = (y 0).val; omega
  | ⟨1, _⟩ => show win0_8.index t (1 : Fin 2) * 5 + 1 * (y 1).val = (y 1).val; omega

/-- Window 9's block at every point is its whole array. -/
theorem blk0_9 (c : Dev nD) (t : Fin cfg0.N) (y : S1x5.Idx) : iblk0 V c 9 t y = V c main_v27 y := by
  obtain ⟨e0a, e0b, e1a, e1b, e2a, e2b, e3a, e3b, e4a, e4b, e5a, e5b, e6a, e6b, e7a, e7b, e8a, e8b, e9a, e9b, e10a, e10b, e11a, e11b⟩ := idx_facts0 t
  show V c main_v27 (((cfg0.win 9).blk t).view.emb y) = V c main_v27 y
  refine congrArg (V c main_v27) (funext fun a => Fin.ext ?_)
  match a with
  | ⟨0, _⟩ => show win0_9.index t (0 : Fin 2) * 1 + 1 * (y 0).val = (y 0).val; omega
  | ⟨1, _⟩ => show win0_9.index t (1 : Fin 2) * 5 + 1 * (y 1).val = (y 1).val; omega

/-- Window 10's block at every point is its whole array. -/
theorem blk0_10 (c : Dev nD) (t : Fin cfg0.N) (y : S1x5.Idx) : iblk0 V c 10 t y = V c main_v29 y := by
  obtain ⟨e0a, e0b, e1a, e1b, e2a, e2b, e3a, e3b, e4a, e4b, e5a, e5b, e6a, e6b, e7a, e7b, e8a, e8b, e9a, e9b, e10a, e10b, e11a, e11b⟩ := idx_facts0 t
  show V c main_v29 (((cfg0.win 10).blk t).view.emb y) = V c main_v29 y
  refine congrArg (V c main_v29) (funext fun a => Fin.ext ?_)
  match a with
  | ⟨0, _⟩ => show win0_10.index t (0 : Fin 2) * 1 + 1 * (y 0).val = (y 0).val; omega
  | ⟨1, _⟩ => show win0_10.index t (1 : Fin 2) * 5 + 1 * (y 1).val = (y 1).val; omega

/-- The message array of region 0, from the arrays as the region finds them. -/
abbrev msgArr0 (c : Dev nD) : S6400000x5.Idx → EReal :=
  EdgeMessage.msgSplit (E := 6400000) (V c main_v14) (V c main_v21) (V c main_arg2) (V c main_v22) (V c main_v23) (V c main_v24) (V c main_v28)
    (V c main_v25) (V c main_v26) (V c main_v27) (V c main_v29)

/-- What point t writes back is block t of the message array. -/
theorem flushed0_eq (c : Dev nD) (t : Fin cfg0.N) :
    (dat0 V c).flushed 11 t = ((cfg0.win 11).blk t).view.read (Elt Ideal) (msgArr0 V c) := by
  show (cfg0.win 11).cut (grid0.coords t) ((dat0 V c).after 11 t) = _
  rw [after0_11]
  unfold out0_11
  rw [View.canon_unit_zero hz]
  simp only [View.ld_unit_zero (S := S3200x5) hz, View.ld_unit_zero (S := S3200x1) hz, View.ld_unit_zero (S := S5x5) hz, View.ld_unit_zero (S := S1x5) hz]
  funext j
  obtain ⟨p, q, rfl⟩ : ∃ (p : Fin 3200) (q : Fin 5), j = ix2 p q := ⟨j 0, j 1, eq_ix2 j⟩
  have htN : t.val < 2000 := lt_of_lt_of_eq t.isLt N_0
  obtain ⟨R, hR⟩ : ∃ R : Fin 6400000, R.val = t.val * 3200 + p.val := ⟨⟨t.val * 3200 + p.val, by have := p.isLt; omega⟩, rfl⟩
  have hout : ((cfg0.win 11).blk t).view.emb (ix2 p q) = ix2 R q := by
    obtain ⟨e0a, e0b, e1a, e1b, e2a, e2b, e3a, e3b, e4a, e4b, e5a, e5b, e6a, e6b, e7a, e7b, e8a, e8b, e9a, e9b, e10a, e10b, e11a, e11b⟩ := idx_facts0 t
    funext a; apply Fin.ext
    match a with
    | ⟨0, _⟩ => show win0_11.index t (0 : Fin 2) * 3200 + 1 * p.val = R.val; omega
    | ⟨1, _⟩ => show win0_11.index t (1 : Fin 2) * 5 + 1 * q.val = q.val; omega
  refine (EdgeMessage.Kernel.pay0_entry (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) p q).trans ?_
  show _ = msgArr0 V c (((cfg0.win 11).blk t).view.emb (ix2 p q))
  rw [hout]
  show EdgeMessage.actLogistic (EdgeMessage.preSplit _ _ _ _ _ _ _ p q) (EdgeMessage.preSplit _ _ _ _ _ _ _ p q)
    = EdgeMessage.actLogistic (EdgeMessage.preSplit _ _ _ _ _ _ _ R q) (EdgeMessage.preSplit _ _ _ _ _ _ _ R q)
  unfold EdgeMessage.preSplit
  simp only [blk0_0 V c t p _ R hR, blk0_1 V c t p _ R hR, blk0_2 V c t p _ R hR, blk0_3 V c t, blk0_4 V c t, blk0_5 V c t,
    blk0_6 V c t, blk0_7 V c t, blk0_8 V c t, blk0_9 V c t, blk0_10 V c t]

/-- An index of the message array is in point t's block iff its row is among the block's 3200 and its channel among the 5. -/
theorem mem_blk0 (t : Fin cfg0.N) (i : S6400000x5.Idx) :
    i ∈ ((cfg0.win 11).blk t).view.set ↔ ∀ a : Fin 2, win0_11.index t a * S3200x5.size a ≤ (i a).val ∧ (i a).val < win0_11.index t a * S3200x5.size a + S3200x5.size a := by
  show i ∈ ((View.whole main_v30).slice (win0_11.rect t)).set ↔ _
  rw [View.set_slice_whole, Rect.mem_set_unit]
  exact Iff.rfl

/-- Every row of the message array lies in the block of the point (row / 3200). -/
theorem cover0 (i : S6400000x5.Idx) : ∃ t : Fin cfg0.N, (cfg0.win 11).flush t = true ∧ i ∈ ((cfg0.win 11).blk t).view.set := by
  have hi0 : (i 0).val < 6400000 := (i 0).isLt
  have hi1 : (i 1).val < 5 := (i 1).isLt
  have hN : cfg0.N = 2000 := N_0
  let t : Fin cfg0.N := ⟨(i 0).val / 3200, by rw [hN]; omega⟩
  have ht : t.val = (i 0).val / 3200 := rfl
  obtain ⟨e0a, e0b, e1a, e1b, e2a, e2b, e3a, e3b, e4a, e4b, e5a, e5b, e6a, e6b, e7a, e7b, e8a, e8b, e9a, e9b, e10a, e10b, e11a, e11b⟩ := idx_facts0 t
  refine ⟨t, flush0_11 t, ?_⟩
  rw [mem_blk0]
  intro a
  match a with
  | ⟨0, _⟩ => show win0_11.index t (0 : Fin 2) * 3200 ≤ (i 0).val ∧ (i 0).val < win0_11.index t (0 : Fin 2) * 3200 + 3200; omega
  | ⟨1, _⟩ => show win0_11.index t (1 : Fin 2) * 5 ≤ (i 1).val ∧ (i 1).val < win0_11.index t (1 : Fin 2) * 5 + 5; omega

/-- THE REGION'S RESULT: after its 2000 points the output array holds the message array. -/
theorem final0 (c : Dev nD) : (dat0 V c).arrAt 11 cfg0.N = msgArr0 V c :=
  (dat0 V c).arrAt_eq_of_cover 11 (msgArr0 V c) (fun t _ => flushed0_eq V c t) (cover0)

end Region0

/-! ## Region 1 -/

section Region1

variable (V : (c : Dev nD) → (b : Ref sig .tc) → Buf (Elt Ideal) ((c : Thread nD τ).loc b))

/-- The printed index maps over the grid of 2000 points: the three edge windows and the output move with the point
    along the rows, the weight and bias windows stay at their one block. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = t.val
    ∧ win1_11.index t (1 : Fin 2) = 0 :=
  (by decide +kernel : ∀ t : Fin grid1.N, _)

/-- Window 0's block at point t, at row p of the block, is row t · 3200 + p of its array. -/
theorem blk1_0 (c : Dev nD) (t : Fin cfg1.N) (p : Fin 3200) (k : Fin 5) (R : Fin 6400000) (hR : R.val = t.val * 3200 + p.val) :
    iblk1 V c 0 t (ix2 p k) = V c main_v45 (ix2 R k) := by
  obtain ⟨e0a, e0b, e1a, e1b, e2a, e2b, e3a, e3b, e4a, e4b, e5a, e5b, e6a, e6b, e7a, e7b, e8a, e8b, e9a, e9b, e10a, e10b, e11a, e11b⟩ := idx_facts1 t
  show V c main_v45 (((cfg1.win 0).blk t).view.emb (ix2 p k)) = V c main_v45 (ix2 R k)
  refine congrArg (V c main_v45) (funext fun a => Fin.ext ?_)
  match a with
  | ⟨0, _⟩ => show win1_0.index t (0 : Fin 2) * 3200 + 1 * p.val = R.val; omega
  | ⟨1, _⟩ => show win1_0.index t (1 : Fin 2) * 5 + 1 * k.val = k.val; omega

/-- Window 1's block at point t, at row p of the block, is row t · 3200 + p of its array. -/
theorem blk1_1 (c : Dev nD) (t : Fin cfg1.N) (p : Fin 3200) (k : Fin 5) (R : Fin 6400000) (hR : R.val = t.val * 3200 + p.val) :
    iblk1 V c 1 t (ix2 p k) = V c main_v52 (ix2 R k) := by
  obtain ⟨e0a, e0b, e1a, e1b, e2a, e2b, e3a, e3b, e4a, e4b, e5a, e5b, e6a, e6b, e7a, e7b, e8a, e8b, e9a, e9b, e10a, e10b, e11a, e11b⟩ := idx_facts1 t
  show V c main_v52 (((cfg1.win 1).blk t).view.emb (ix2 p k)) = V c main_v52 (ix2 R k)
  refine congrArg (V c main_v52) (funext fun a => Fin.ext ?_)
  match a with
  | ⟨0, _⟩ => show win1_1.index t (0 : Fin 2) * 3200 + 1 * p.val = R.val; omega
  | ⟨1, _⟩ => show win1_1.index t (1 : Fin 2) * 5 + 1 * k.val = k.val; omega

/-- Window 2's block at point t, at row p of the block, is row t · 3200 + p of its array. -/
theorem blk1_2 (c : Dev nD) (t : Fin cfg1.N) (p : Fin 3200) (k : Fin 1) (R : Fin 6400000) (hR : R.val = t.val * 3200 + p.val) :
    iblk1 V c 2 t (ix2 p k) = V c main_arg2 (ix2 R k) := by
  obtain ⟨e0a, e0b, e1a, e1b, e2a, e2b, e3a, e3b, e4a, e4b, e5a, e5b, e6a, e6b, e7a, e7b, e8a, e8b, e9a, e9b, e10a, e10b, e11a, e11b⟩ := idx_facts1 t
  show V c main_arg2 (((cfg1.win 2).blk t).view.emb (ix2 p k)) = V c main_arg2 (ix2 R k)
  refine congrArg (V c main_arg2) (funext fun a => Fin.ext ?_)
  match a with
  | ⟨0, _⟩ => show win1_2.index t (0 : Fin 2) * 3200 + 1 * p.val = R.val; omega
  | ⟨1, _⟩ => show win1_2.index t (1 : Fin 2) * 1 + 1 * k.val = k.val; omega

/-- Window 3's block at every point is its whole array. -/
theorem blk1_3 (c : Dev nD) (t : Fin cfg1.N) (y : S5x5.Idx) : iblk1 V c 3 t y = V c main_v53 y := by
  obtain ⟨e0a, e0b, e1a, e1b, e2a, e2b, e3a, e3b, e4a, e4b, e5a, e5b, e6a, e6b, e7a, e7b, e8a, e8b, e9a, e9b, e10a, e10b, e11a, e11b⟩ := idx_facts1 t
  show V c main_v53 (((cfg1.win 3).blk t).view.emb y) = V c main_v53 y
  refine congrArg (V c main_v53) (funext fun a => Fin.ext ?_)
  match a with
  | ⟨0, _⟩ => show win1_3.index t (0 : Fin 2) * 5 + 1 * (y 0).val = (y 0).val; omega
  | ⟨1, _⟩ => show win1_3.index t (1 : Fin 2) * 5 + 1 * (y 1).val = (y 1).val; omega

/-- Window 4's block at every point is its whole array. -/
theorem blk1_4 (c : Dev nD) (t : Fin cfg1.N) (y : S5x5.Idx) : iblk1 V c 4 t y = V c main_v54 y := by
  obtain ⟨e0a, e0b, e1a, e1b, e2a, e2b, e3a, e3b, e4a, e4b, e5a, e5b, e6a, e6b, e7a, e7b, e8a, e8b, e9a, e9b, e10a, e10b, e11a, e11b⟩ := idx_facts1 t
  show V c main_v54 (((cfg1.win 4).blk t).view.emb y) = V c main_v54 y
  refine congrArg (V c main_v54) (funext fun a => Fin.ext ?_)
  match a with
  | ⟨0, _⟩ => show win1_4.index t (0 : Fin 2) * 5 + 1 * (y 0).val = (y 0).val; omega
  | ⟨1, _⟩ => show win1_4.index t (1 : Fin 2) * 5 + 1 * (y 1).val = (y 1).val; omega

/-- Window 5's block at every point is its whole array. -/
theorem blk1_5 (c : Dev nD) (t : Fin cfg1.N) (y : S1x5.Idx) : iblk1 V c 5 t y = V c main_v55 y := by
  obtain ⟨e0a, e0b, e1a, e1b, e2a, e2b, e3a, e3b, e4a, e4b, e5a, e5b, e6a, e6b, e7a, e7b, e8a, e8b, e9a, e9b, e10a, e10b, e11a, e11b⟩ := idx_facts1 t
  show V c main_v55 (((cfg1.win 5).blk t).view.emb y) = V c main_v55 y
  refine congrArg (V c main_v55) (funext fun a => Fin.ext ?_)
  match a with
  | ⟨0, _⟩ => show win1_5.index t (0 : Fin 2) * 1 + 1 * (y 0).val = (y 0).val; omega
  | ⟨1, _⟩ => show win1_5.index t (1 : Fin 2) * 5 + 1 * (y 1).val = (y 1).val; omega

/-- Window 6's block at every point is its whole array. -/
theorem blk1_6 (c : Dev nD) (t : Fin cfg1.N) (y : S1x5.Idx) : iblk1 V c 6 t y = V c main_v59 y := by
  obtain ⟨e0a, e0b, e1a, e1b, e2a, e2b, e3a, e3b, e4a, e4b, e5a, e5b, e6a, e6b, e7a, e7b, e8a, e8b, e9a, e9b, e10a, e10b, e11a, e11b⟩ := idx_facts1 t
  show V c main_v59 (((cfg1.win 6).blk t).view.emb y) = V c main_v59 y
  refine congrArg (V c main_v59) (funext fun a => Fin.ext ?_)
  match a with
  | ⟨0, _⟩ => show win1_6.index t (0 : Fin 2) * 1 + 1 * (y 0).val = (y 0).val; omega
  | ⟨1, _⟩ => show win1_6.index t (1 : Fin 2) * 5 + 1 * (y 1).val = (y 1).val; omega

/-- Window 7's block at every point is its whole array. -/
theorem blk1_7 (c : Dev nD) (t : Fin cfg1.N) (y : S5x5.Idx) : iblk1 V c 7 t y = V c main_v56 y := by
  obtain ⟨e0a, e0b, e1a, e1b, e2a, e2b, e3a, e3b, e4a, e4b, e5a, e5b, e6a, e6b, e7a, e7b, e8a, e8b, e9a, e9b, e10a, e10b, e11a, e11b⟩ := idx_facts1 t
  show V c main_v56 (((cfg1.win 7).blk t).view.emb y) = V c main_v56 y
  refine congrArg (V c main_v56) (funext fun a => Fin.ext ?_)
  match a with
  | ⟨0, _⟩ => show win1_7.index t (0 : Fin 2) * 5 + 1 * (y 0).val = (y 0).val; omega
  | ⟨1, _⟩ => show win1_7.index t (1 : Fin 2) * 5 + 1 * (y 1).val = (y 1).val; omega

/-- Window 8's block at every point is its whole array. -/
theorem blk1_8 (c : Dev nD) (t : Fin cfg1.N) (y : S5x5.Idx) : iblk1 V c 8 t y = V c main_v57 y := by
  obtain ⟨e0a, e0b, e1a, e1b, e2a, e2b, e3a, e3b, e4a, e4b, e5a, e5b, e6a, e6b, e7a, e7b, e8a, e8b, e9a, e9b, e10a, e10b, e11a, e11b⟩ := idx_facts1 t
  show V c main_v57 (((cfg1.win 8).blk t).view.emb y) = V c main_v57 y
  refine congrArg (V c main_v57) (funext fun a => Fin.ext ?_)
  match a with
  | ⟨0, _⟩ => show win1_8.index t (0 : Fin 2) * 5 + 1 * (y 0).val = (y 0).val; omega
  | ⟨1, _⟩ => show win1_8.index t (1 : Fin 2) * 5 + 1 * (y 1).val = (y 1).val; omega

/-- Window 9's block at every point is its whole array. -/
theorem blk1_9 (c : Dev nD) (t : Fin cfg1.N) (y : S1x5.Idx) : iblk1 V c 9 t y = V c main_v58 y := by
  obtain ⟨e0a, e0b, e1a, e1b, e2a, e2b, e3a, e3b, e4a, e4b, e5a, e5b, e6a, e6b, e7a, e7b, e8a, e8b, e9a, e9b, e10a, e10b, e11a, e11b⟩ := idx_facts1 t
  show V c main_v58 (((cfg1.win 9).blk t).view.emb y) = V c main_v58 y
  refine congrArg (V c main_v58) (funext fun a => Fin.ext ?_)
  match a with
  | ⟨0, _⟩ => show win1_9.index t (0 : Fin 2) * 1 + 1 * (y 0).val = (y 0).val; omega
  | ⟨1, _⟩ => show win1_9.index t (1 : Fin 2) * 5 + 1 * (y 1).val = (y 1).val; omega

/-- Window 10's block at every point is its whole array. -/
theorem blk1_10 (c : Dev nD) (t : Fin cfg1.N) (y : S1x5.Idx) : iblk1 V c 10 t y = V c main_v60 y := by
  obtain ⟨e0a, e0b, e1a, e1b, e2a, e2b, e3a, e3b, e4a, e4b, e5a, e5b, e6a, e6b, e7a, e7b, e8a, e8b, e9a, e9b, e10a, e10b, e11a, e11b⟩ := idx_facts1 t
  show V c main_v60 (((cfg1.win 10).blk t).view.emb y) = V c main_v60 y
  refine congrArg (V c main_v60) (funext fun a => Fin.ext ?_)
  match a with
  | ⟨0, _⟩ => show win1_10.index t (0 : Fin 2) * 1 + 1 * (y 0).val = (y 0).val; omega
  | ⟨1, _⟩ => show win1_10.index t (1 : Fin 2) * 5 + 1 * (y 1).val = (y 1).val; omega

/-- The message array of region 1, from the arrays as the region finds them. -/
abbrev msgArr1 (c : Dev nD) : S6400000x5.Idx → EReal :=
  EdgeMessage.msgSplit (E := 6400000) (V c main_v45) (V c main_v52) (V c main_arg2) (V c main_v53) (V c main_v54) (V c main_v55) (V c main_v59)
    (V c main_v56) (V c main_v57) (V c main_v58) (V c main_v60)

/-- What point t writes back is block t of the message array. -/
theorem flushed1_eq (c : Dev nD) (t : Fin cfg1.N) :
    (dat1 V c).flushed 11 t = ((cfg1.win 11).blk t).view.read (Elt Ideal) (msgArr1 V c) := by
  show (cfg1.win 11).cut (grid1.coords t) ((dat1 V c).after 11 t) = _
  rw [after1_11]
  unfold out1_11
  rw [View.canon_unit_zero hz]
  simp only [View.ld_unit_zero (S := S3200x5) hz, View.ld_unit_zero (S := S3200x1) hz, View.ld_unit_zero (S := S5x5) hz, View.ld_unit_zero (S := S1x5) hz]
  funext j
  obtain ⟨p, q, rfl⟩ : ∃ (p : Fin 3200) (q : Fin 5), j = ix2 p q := ⟨j 0, j 1, eq_ix2 j⟩
  have htN : t.val < 2000 := lt_of_lt_of_eq t.isLt N_1
  obtain ⟨R, hR⟩ : ∃ R : Fin 6400000, R.val = t.val * 3200 + p.val := ⟨⟨t.val * 3200 + p.val, by have := p.isLt; omega⟩, rfl⟩
  have hout : ((cfg1.win 11).blk t).view.emb (ix2 p q) = ix2 R q := by
    obtain ⟨e0a, e0b, e1a, e1b, e2a, e2b, e3a, e3b, e4a, e4b, e5a, e5b, e6a, e6b, e7a, e7b, e8a, e8b, e9a, e9b, e10a, e10b, e11a, e11b⟩ := idx_facts1 t
    funext a; apply Fin.ext
    match a with
    | ⟨0, _⟩ => show win1_11.index t (0 : Fin 2) * 3200 + 1 * p.val = R.val; omega
    | ⟨1, _⟩ => show win1_11.index t (1 : Fin 2) * 5 + 1 * q.val = q.val; omega
  refine (EdgeMessage.Kernel.pay1_entry (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) p q).trans ?_
  show _ = msgArr1 V c (((cfg1.win 11).blk t).view.emb (ix2 p q))
  rw [hout]
  show EdgeMessage.actLogistic (EdgeMessage.preSplit _ _ _ _ _ _ _ p q) (EdgeMessage.preSplit _ _ _ _ _ _ _ p q)
    = EdgeMessage.actLogistic (EdgeMessage.preSplit _ _ _ _ _ _ _ R q) (EdgeMessage.preSplit _ _ _ _ _ _ _ R q)
  unfold EdgeMessage.preSplit
  simp only [blk1_0 V c t p _ R hR, blk1_1 V c t p _ R hR, blk1_2 V c t p _ R hR, blk1_3 V c t, blk1_4 V c t, blk1_5 V c t,
    blk1_6 V c t, blk1_7 V c t, blk1_8 V c t, blk1_9 V c t, blk1_10 V c t]

/-- An index of the message array is in point t's block iff its row is among the block's 3200 and its channel among the 5. -/
theorem mem_blk1 (t : Fin cfg1.N) (i : S6400000x5.Idx) :
    i ∈ ((cfg1.win 11).blk t).view.set ↔ ∀ a : Fin 2, win1_11.index t a * S3200x5.size a ≤ (i a).val ∧ (i a).val < win1_11.index t a * S3200x5.size a + S3200x5.size a := by
  show i ∈ ((View.whole main_v61).slice (win1_11.rect t)).set ↔ _
  rw [View.set_slice_whole, Rect.mem_set_unit]
  exact Iff.rfl

/-- Every row of the message array lies in the block of the point (row / 3200). -/
theorem cover1 (i : S6400000x5.Idx) : ∃ t : Fin cfg1.N, (cfg1.win 11).flush t = true ∧ i ∈ ((cfg1.win 11).blk t).view.set := by
  have hi0 : (i 0).val < 6400000 := (i 0).isLt
  have hi1 : (i 1).val < 5 := (i 1).isLt
  have hN : cfg1.N = 2000 := N_1
  let t : Fin cfg1.N := ⟨(i 0).val / 3200, by rw [hN]; omega⟩
  have ht : t.val = (i 0).val / 3200 := rfl
  obtain ⟨e0a, e0b, e1a, e1b, e2a, e2b, e3a, e3b, e4a, e4b, e5a, e5b, e6a, e6b, e7a, e7b, e8a, e8b, e9a, e9b, e10a, e10b, e11a, e11b⟩ := idx_facts1 t
  refine ⟨t, flush1_11 t, ?_⟩
  rw [mem_blk1]
  intro a
  match a with
  | ⟨0, _⟩ => show win1_11.index t (0 : Fin 2) * 3200 ≤ (i 0).val ∧ (i 0).val < win1_11.index t (0 : Fin 2) * 3200 + 3200; omega
  | ⟨1, _⟩ => show win1_11.index t (1 : Fin 2) * 5 ≤ (i 1).val ∧ (i 1).val < win1_11.index t (1 : Fin 2) * 5 + 5; omega

/-- THE REGION'S RESULT: after its 2000 points the output array holds the message array. -/
theorem final1 (c : Dev nD) : (dat1 V c).arrAt 11 cfg1.N = msgArr1 V c :=
  (dat1 V c).arrAt_eq_of_cover 11 (msgArr1 V c) (fun t _ => flushed1_eq V c t) (cover1)

end Region1

end EdgeMessage.Blocks

end
-- ==== Proof.EdgeNet.lean ====
/-
  The network both programs compute, as ONE term of the argument arrays.

  A node array h : [100000, 5] is made from x by an affine map; two message-passing layers follow; an affine map
  to [100000, 2] ends it. A layer gathers, for every edge e = (src → dst), the rows h[dst] and h[src], forms from
  them and the edge attribute a message of 5 numbers, adds every message into row dst of a zero array, and adds the
  result to h. The message is left a PARAMETER here: the two programs compute it by different means (one matrix
  product of the joined row [h[dst], h[src], attr] with an 11 × 5 matrix, against three products with the matrix's
  three row blocks, summed), and everything around it is the same text.
-/
import proofs.«181776_j90881507983728_1_alg».proof.Proof.Gen.ReferenceIdeal

noncomputable section

namespace EdgeNet

open Cert.ReferenceIdeal Cert.ReferenceIdeal.Gen Idealize.ShloMosaic Idealize.ShloMosaic.TcCoe

variable {F : FTy → Type} [FloatOps F]

/-- The contents of an array of a shape and an element type. -/
abbrev Arr (F : FTy → Type) (S : Shape) (φ : EltTy) : Type := (⟨S, φ⟩ : BufTy).Contents (Elt F)

/-- The input projection x · W + b. -/
def lin1 (x : Arr F S100000x2 .f32) (w : Arr F S2x5 .f32) (b : Arr F S5 .f32) : Arr F S100000x5 .f32 :=
  addf (Host.dotGeneral dot_S100000x2_S2x5_S100000x5_1_0_0_1_n_n none x w)
    (broadcastInDim S100000x5 ![0, 1] bcast_S1x5_S100000x5_0_1 (broadcastInDim S1x5 ![1] bcast_S5_S1x5_1 b))

/-- Row 0 of the edge list: the source node of every edge. -/
def srcRow (ei : Arr F S2x6400000 .i32) : Arr F S6400000 .i32 :=
  shapeCast _ (extractStridedSlice S1x6400000 ![0, 0] ei slices_S2x6400000_S1x6400000_0_0) shapeCasts_S1x6400000_S6400000

/-- Row 1 of the edge list: the target node of every edge. -/
def dstRow (ei : Arr F S2x6400000 .i32) : Arr F S6400000 .i32 :=
  shapeCast _ (extractStridedSlice S1x6400000 ![1, 0] ei slices_S2x6400000_S1x6400000_1_0) shapeCasts_S1x6400000_S6400000

/-- A node number as a gather index: a negative one counts from the end, and the vector becomes a column. -/
def wrapCol (v : Arr F S6400000 .i32) : Arr F S6400000x1 .i32 :=
  broadcastInDim S6400000x1 ![0] bcast_S6400000_S6400000x1_0
    (select (cmpi .slt v (broadcastInDim S6400000 ![] bcast_S_S6400000 (constantI S_ 32 0#32)))
      (addi v (broadcastInDim S6400000 ![] bcast_S_S6400000 (constantI S_ 32 100000#32))) v)

/-- The rows of h an index column names. -/
def rowsAt (h : Arr F S100000x5 .f32) (idx : Arr F S6400000x1 .i32) : Arr F S6400000x5 .f32 :=
  Host.gather gather_S100000x5_S6400000x1_S6400000x5_1_0_n_n_0_1_15 h idx

/-- Every message added into the row of its edge's target, from zero. -/
def sumInto (dst : Arr F S6400000 .i32) (msg : Arr F S6400000x5 .f32) : Arr F S100000x5 .f32 :=
  Host.scatterAdd scatter_S100000x5_S6400000x1_S6400000x5_1_0_0_1
    (broadcastInDim S100000x5 ![] bcast_S_S100000x5 (constant S_ .f32 0x00000000#32))
    (broadcastInDim S6400000x1 ![0] bcast_S6400000_S6400000x1_0 dst) msg

/-- One layer, the message function a parameter. -/
def layer (MSG : Arr F S6400000x5 .f32 → Arr F S6400000x5 .f32 → Arr F S6400000x5 .f32)
    (h : Arr F S100000x5 .f32) (ei : Arr F S2x6400000 .i32) : Arr F S100000x5 .f32 :=
  addf h (sumInto (dstRow ei) (MSG (rowsAt h (wrapCol (dstRow ei))) (rowsAt h (wrapCol (srcRow ei)))))

/-- The output projection h · W + b. -/
def lin2 (h : Arr F S100000x5 .f32) (w : Arr F S5x2 .f32) (b : Arr F S2 .f32) : Arr F S100000x2 .f32 :=
  addf (Host.dotGeneral dot_S100000x5_S5x2_S100000x2_1_0_0_1_n_n none h w)
    (broadcastInDim S100000x2 ![0, 1] bcast_S1x2_S100000x2_0_1 (broadcastInDim S1x2 ![1] bcast_S2_S1x2_1 b))

/-- max(t, 0) + log(1 + e^(−|t − 0|)), behind the source's guard "t − 0 is not a number", which would answer t + 0. -/
def softplusGuarded (t : Arr F S6400000x5 .f32) : Arr F S6400000x5 .f32 :=
  select (cmpf .une (subf t (broadcastInDim S6400000x5 ![] bcast_S_S6400000x5 (constant S_ .f32 0x00000000#32)))
      (subf t (broadcastInDim S6400000x5 ![] bcast_S_S6400000x5 (constant S_ .f32 0x00000000#32))))
    (addf t (broadcastInDim S6400000x5 ![] bcast_S_S6400000x5 (constant S_ .f32 0x00000000#32)))
    (addf (maximumf t (broadcastInDim S6400000x5 ![] bcast_S_S6400000x5 (constant S_ .f32 0x00000000#32)))
      (Host.log1p (Host.exp (Host.negf (Host.absf
        (subf t (broadcastInDim S6400000x5 ![] bcast_S_S6400000x5 (constant S_ .f32 0x00000000#32))))))))

/-- The joined-row message: sigmoid(z·Wf + bf) · softplus(z·Ws + bs), z = [h[dst], h[src], attr], the sigmoid as
    1 / (1 + e^(−t)), the softplus as max(t, 0) + log(1 + e^(−|t − 0|)) behind the source's not-a-number guard. -/
def msgJoined (attr : Arr F S6400000x1 .f32) (wf : Arr F S11x5 .f32) (bf : Arr F S5 .f32) (ws : Arr F S11x5 .f32) (bs : Arr F S5 .f32)
    (xd xs : Arr F S6400000x5 .f32) : Arr F S6400000x5 .f32 :=
  mulf
    (Host.divf (broadcastInDim S6400000x5 ![] bcast_S_S6400000x5 (constant S_ .f32 0x3F800000#32))
      (addf (broadcastInDim S6400000x5 ![] bcast_S_S6400000x5 (constant S_ .f32 0x3F800000#32))
        (Host.exp (Host.negf (addf
          (Host.dotGeneral dot_S6400000x11_S11x5_S6400000x5_1_0_0_1_n_n none
            (concatenate S6400000x11 1 [⟨S6400000x5, xd⟩, ⟨S6400000x5, xs⟩, ⟨S6400000x1, attr⟩] concatenates_S6400000x5_S6400000x5_S6400000x1_S6400000x11_d1) wf)
          (broadcastInDim S6400000x5 ![0, 1] bcast_S1x5_S6400000x5_0_1 (broadcastInDim S1x5 ![1] bcast_S5_S1x5_1 bf)))))))
    (softplusGuarded (addf
          (Host.dotGeneral dot_S6400000x11_S11x5_S6400000x5_1_0_0_1_n_n none
            (concatenate S6400000x11 1 [⟨S6400000x5, xd⟩, ⟨S6400000x5, xs⟩, ⟨S6400000x1, attr⟩] concatenates_S6400000x5_S6400000x5_S6400000x1_S6400000x11_d1) ws)
          (broadcastInDim S6400000x5 ![0, 1] bcast_S1x5_S6400000x5_0_1 (broadcastInDim S1x5 ![1] bcast_S5_S1x5_1 bs))))

/-- The whole network, each layer's message function a parameter. -/
def net (MSG1 MSG2 : Arr F S6400000x5 .f32 → Arr F S6400000x5 .f32 → Arr F S6400000x5 .f32)
    (x : Arr F S100000x2 .f32) (ei : Arr F S2x6400000 .i32) (w1 : Arr F S2x5 .f32) (b1 : Arr F S5 .f32)
    (w2 : Arr F S5x2 .f32) (b2 : Arr F S2 .f32) : Arr F S100000x2 .f32 :=
  lin2 (layer MSG2 (layer MSG1 (lin1 x w1 b1) ei) ei) w2 b2

end EdgeNet

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.JoinedEntry.lean ====
/-
  The joined-row message is the split message.

  One side joins the target's row, the source's row and the attribute into a row of eleven and multiplies by an
  11 × 5 matrix; the other multiplies the three parts by the matrix's rows 0–4, 5–9 and 10 and adds the products. At
  an edge r and a channel q both are sigmoid times softplus of the same two sums, by associativity and commutativity
  of addition on the extended reals alone.
-/
import proofs.«181776_j90881507983728_1_alg».proof.Proof.EdgeNet
import proofs.«181776_j90881507983728_1_alg».proof.Proof.EdgeMessage
import proofs.«181776_j90881507983728_1_alg».proof.Proof.Gen.KernelIdeal
import proofs.«181776_j90881507983728_1_alg».proof.Proof.LibMatIdx
import proofs.«181776_j90881507983728_1_alg».proof.Proof.LibRowOps
import Idealize.ShloMosaic.Lib.Pipeline.Value
import Idealize.ShloMosaic.Lib.ValueLayout

noncomputable section

namespace EdgeMessage.Joined

open Idealize.ShloMosaic Idealize.ShloMosaic.TcCoe Idealize.ShloMosaic.ValueIdx
open Cert.ReferenceIdeal Cert.ReferenceIdeal.Gen

theorem d11_l0 (j : S6400000x5.Idx) (k : dot_S6400000x11_S11x5_S6400000x5_1_0_0_1_n_n.contr.Idx) : (dot_S6400000x11_S11x5_S6400000x5_1_0_0_1_n_n.lhsIdx j k 0).val = (j 0).val := by
  unfold DotDims.lhsIdx
  rw [dif_neg (show ¬(0 : Fin S6400000x11.rank) ∈ dot_S6400000x11_S11x5_S6400000x5_1_0_0_1_n_n.lhsBatch by decide), dif_pos (show (0 : Fin S6400000x11.rank) ∈ dot_S6400000x11_S11x5_S6400000x5_1_0_0_1_n_n.lhsNonContracting by decide)]
  rfl
theorem d11_l1 (j : S6400000x5.Idx) (k : dot_S6400000x11_S11x5_S6400000x5_1_0_0_1_n_n.contr.Idx) : (dot_S6400000x11_S11x5_S6400000x5_1_0_0_1_n_n.lhsIdx j k 1).val = (k ⟨0, by decide⟩).val :=
  dot_S6400000x11_S11x5_S6400000x5_1_0_0_1_n_n.lhsIdx_val_of_single rfl j k
theorem d11_r0 (j : S6400000x5.Idx) (k : dot_S6400000x11_S11x5_S6400000x5_1_0_0_1_n_n.contr.Idx) : (dot_S6400000x11_S11x5_S6400000x5_1_0_0_1_n_n.rhsIdx j k 0).val = (k ⟨0, by decide⟩).val :=
  dot_S6400000x11_S11x5_S6400000x5_1_0_0_1_n_n.rhsIdx_val_of_single rfl j k
theorem d11_r1 (j : S6400000x5.Idx) (k : dot_S6400000x11_S11x5_S6400000x5_1_0_0_1_n_n.contr.Idx) : (dot_S6400000x11_S11x5_S6400000x5_1_0_0_1_n_n.rhsIdx j k 1).val = (j 1).val := by
  unfold DotDims.rhsIdx
  rw [dif_neg (show ¬(1 : Fin S11x5.rank) ∈ dot_S6400000x11_S11x5_S6400000x5_1_0_0_1_n_n.rhsBatch by decide), dif_pos (show (1 : Fin S11x5.rank) ∈ dot_S6400000x11_S11x5_S6400000x5_1_0_0_1_n_n.rhsNonContracting by decide)]
  rfl

/-- The joined-row product at (r, q): the sum over the eleven positions. -/
theorem dot11 (z : EdgeNet.Arr Ideal S6400000x11 .f32) (w : EdgeNet.Arr Ideal S11x5 .f32) (r : Fin 6400000) (q : Fin 5) :
    Host.dotGeneral (F := Ideal) (φ₁ := .f32) (φ₂ := .f32) dot_S6400000x11_S11x5_S6400000x5_1_0_0_1_n_n none z w (ix2 r q) = ∑ k : Fin 11, z (ix2 r k) * w (ix2 k q) :=
  LibMatIdx.dot2_apply dot_S6400000x11_S11x5_S6400000x5_1_0_0_1_n_n rfl rfl d11_l0 d11_l1 d11_r0 d11_r1 none z w (ix2 r q)

/-- A bias vector as a row, broadcast down the edges, reads its entry q at (r, q). -/
theorem biasDown (b : EdgeNet.Arr Ideal S5 .f32) (r : Fin 6400000) (q : Fin 5) :
    broadcastInDim S6400000x5 ![0, 1] bcast_S1x5_S6400000x5_0_1 (broadcastInDim S1x5 ![1] bcast_S5_S1x5_1 b) (ix2 r q) = b (ix1 q) := by
  rw [broadcastInDim_apply ![0, 1] bcast_S1x5_S6400000x5_0_1 _ (ix2 r q) (ix2 (0 : Fin 1) q) (fun a => by
    match a with
    | ⟨0, _⟩ => rfl
    | ⟨1, _⟩ => rfl)]
  exact broadcastInDim_apply ![1] bcast_S5_S1x5_1 b (ix2 (0 : Fin 1) q) (ix1 q) (fun a => by
    match a with
    | ⟨0, _⟩ => rfl)

/-- The message array of the joined-row form at an index: sigmoid (as a quotient) times softplus of the two sums. -/
theorem joined_store (attr : EdgeNet.Arr Ideal S6400000x1 .f32) (wf : EdgeNet.Arr Ideal S11x5 .f32) (bf : EdgeNet.Arr Ideal S5 .f32)
    (ws : EdgeNet.Arr Ideal S11x5 .f32) (bs : EdgeNet.Arr Ideal S5 .f32) (xd xs : EdgeNet.Arr Ideal S6400000x5 .f32) (i : S6400000x5.Idx) :
    EdgeNet.msgJoined (F := Ideal) attr wf bf ws bs xd xs i
      = EdgeMessage.actQuotient
          (FloatOps.addf (F := Ideal) (φ := .f32)
            (Host.dotGeneral (F := Ideal) (φ₁ := .f32) (φ₂ := .f32) dot_S6400000x11_S11x5_S6400000x5_1_0_0_1_n_n none
              (concatenate (α := Ideal .f32) S6400000x11 1 ([⟨S6400000x5, xd⟩, ⟨S6400000x5, xs⟩, ⟨S6400000x1, attr⟩] : List ((s : Shape) × (s.Idx → Ideal .f32))) concatenates_S6400000x5_S6400000x5_S6400000x1_S6400000x11_d1) wf i)
            (broadcastInDim S6400000x5 ![0, 1] bcast_S1x5_S6400000x5_0_1 (broadcastInDim S1x5 ![1] bcast_S5_S1x5_1 bf) i))
          (FloatOps.addf (F := Ideal) (φ := .f32)
            (Host.dotGeneral (F := Ideal) (φ₁ := .f32) (φ₂ := .f32) dot_S6400000x11_S11x5_S6400000x5_1_0_0_1_n_n none
              (concatenate (α := Ideal .f32) S6400000x11 1 ([⟨S6400000x5, xd⟩, ⟨S6400000x5, xs⟩, ⟨S6400000x1, attr⟩] : List ((s : Shape) × (s.Idx → Ideal .f32))) concatenates_S6400000x5_S6400000x5_S6400000x1_S6400000x11_d1) ws i)
            (broadcastInDim S6400000x5 ![0, 1] bcast_S1x5_S6400000x5_0_1 (broadcastInDim S1x5 ![1] bcast_S5_S1x5_1 bs) i)) := rfl

section Pieces

variable (xd xs : EdgeNet.Arr Ideal S6400000x5 .f32) (attr : EdgeNet.Arr Ideal S6400000x1 .f32)

/-- The joined row's positions 0–4 hold the target's row. -/
theorem z_target (r : Fin 6400000) (k : Fin 5) :
    concatenate (α := Ideal .f32) S6400000x11 1 ([⟨S6400000x5, xd⟩, ⟨S6400000x5, xs⟩, ⟨S6400000x1, attr⟩] : List ((s : Shape) × (s.Idx → Ideal .f32))) concatenates_S6400000x5_S6400000x5_S6400000x1_S6400000x11_d1
      (ix2 r (Fin.castAdd 1 (Fin.castAdd 5 k))) = xd (ix2 r k) :=
  concatenate_apply_piece (α := Ideal .f32) (t := S6400000x11) 1 ([⟨S6400000x5, xd⟩, ⟨S6400000x5, xs⟩, ⟨S6400000x1, attr⟩] : List ((s : Shape) × (s.Idx → Ideal .f32))) concatenates_S6400000x5_S6400000x5_S6400000x1_S6400000x11_d1 _ 0 (by show (0 : ℕ) < 3; omega) S6400000x5 xd rfl rfl 0 rfl (ix2 r k)
    (fun b hb => by
      match b with
      | ⟨0, _⟩ => rfl
      | ⟨1, _⟩ => exact absurd rfl hb)
    (by show 0 + k.val = k.val; omega)

/-- The joined row's positions 5–9 hold the source's row. -/
theorem z_source (r : Fin 6400000) (k : Fin 5) :
    concatenate (α := Ideal .f32) S6400000x11 1 ([⟨S6400000x5, xd⟩, ⟨S6400000x5, xs⟩, ⟨S6400000x1, attr⟩] : List ((s : Shape) × (s.Idx → Ideal .f32))) concatenates_S6400000x5_S6400000x5_S6400000x1_S6400000x11_d1
      (ix2 r (Fin.castAdd 1 (Fin.natAdd 5 k))) = xs (ix2 r k) :=
  concatenate_apply_piece (α := Ideal .f32) (t := S6400000x11) 1 ([⟨S6400000x5, xd⟩, ⟨S6400000x5, xs⟩, ⟨S6400000x1, attr⟩] : List ((s : Shape) × (s.Idx → Ideal .f32))) concatenates_S6400000x5_S6400000x5_S6400000x1_S6400000x11_d1 _ 1 (by show (1 : ℕ) < 3; omega) S6400000x5 xs rfl rfl 5 rfl (ix2 r k)
    (fun b hb => by
      match b with
      | ⟨0, _⟩ => rfl
      | ⟨1, _⟩ => exact absurd rfl hb)
    (by show 5 + k.val = 5 + k.val; rfl)

/-- The joined row's position 10 holds the attribute. -/
theorem z_attr (r : Fin 6400000) (k : Fin 1) :
    concatenate (α := Ideal .f32) S6400000x11 1 ([⟨S6400000x5, xd⟩, ⟨S6400000x5, xs⟩, ⟨S6400000x1, attr⟩] : List ((s : Shape) × (s.Idx → Ideal .f32))) concatenates_S6400000x5_S6400000x5_S6400000x1_S6400000x11_d1
      (ix2 r (Fin.natAdd 10 k)) = attr (ix2 r k) :=
  concatenate_apply_piece (α := Ideal .f32) (t := S6400000x11) 1 ([⟨S6400000x5, xd⟩, ⟨S6400000x5, xs⟩, ⟨S6400000x1, attr⟩] : List ((s : Shape) × (s.Idx → Ideal .f32))) concatenates_S6400000x5_S6400000x5_S6400000x1_S6400000x11_d1 _ 2 (by show (2 : ℕ) < 3; omega) S6400000x1 attr rfl rfl 10 rfl (ix2 r k)
    (fun b hb => by
      match b with
      | ⟨0, _⟩ => rfl
      | ⟨1, _⟩ => exact absurd rfl hb)
    (by show 10 + k.val = 10 + k.val; rfl)

end Pieces

/-- THE TWO FORMS AGREE: the joined-row message array is the split message array of the matrix's three row blocks and
    the bias as a row. -/
theorem joined_eq_split (attr : EdgeNet.Arr Ideal S6400000x1 .f32) (wf : EdgeNet.Arr Ideal S11x5 .f32) (bf : EdgeNet.Arr Ideal S5 .f32)
    (ws : EdgeNet.Arr Ideal S11x5 .f32) (bs : EdgeNet.Arr Ideal S5 .f32) (xd xs : EdgeNet.Arr Ideal S6400000x5 .f32) :
    EdgeMessage.msgSplit (E := 6400000) xd xs attr
        (extractStridedSlice Cert.KernelIdeal.S5x5 ![0, 0] wf Cert.KernelIdeal.Gen.slices_S11x5_S5x5_0_0)
        (extractStridedSlice Cert.KernelIdeal.S5x5 ![5, 0] wf Cert.KernelIdeal.Gen.slices_S11x5_S5x5_5_0)
        (extractStridedSlice Cert.KernelIdeal.S1x5 ![10, 0] wf Cert.KernelIdeal.Gen.slices_S11x5_S1x5_10_0)
        (shapeCast Cert.KernelIdeal.S1x5 bf Cert.KernelIdeal.Gen.shapeCasts_S5_S1x5)
        (extractStridedSlice Cert.KernelIdeal.S5x5 ![0, 0] ws Cert.KernelIdeal.Gen.slices_S11x5_S5x5_0_0)
        (extractStridedSlice Cert.KernelIdeal.S5x5 ![5, 0] ws Cert.KernelIdeal.Gen.slices_S11x5_S5x5_5_0)
        (extractStridedSlice Cert.KernelIdeal.S1x5 ![10, 0] ws Cert.KernelIdeal.Gen.slices_S11x5_S1x5_10_0)
        (shapeCast Cert.KernelIdeal.S1x5 bs Cert.KernelIdeal.Gen.shapeCasts_S5_S1x5)
      = EdgeNet.msgJoined (F := Ideal) attr wf bf ws bs xd xs := by
  funext i
  obtain ⟨r, q, rfl⟩ : ∃ (r : Fin 6400000) (q : Fin 5), i = ix2 r q := ⟨i 0, i 1, eq_ix2 i⟩
  rw [joined_store, dot11, dot11, biasDown, biasDown]
  show EdgeMessage.actLogistic (EdgeMessage.preSplit _ _ _ _ _ _ _ r q) (EdgeMessage.preSplit _ _ _ _ _ _ _ r q) = _
  rw [EdgeMessage.actLogistic_eq_actQuotient]
  refine congrArg₂ EdgeMessage.actQuotient ?_ ?_
  · exact EdgeMessage.preSplit_eq_joined xd xs attr _ _ _ _ _ wf bf (z_target xd xs attr) (z_source xd xs attr) (z_attr xd xs attr)
      (fun k q => slice2_axis0_apply 0 wf _ k q _ (by show k.val = 0 + k.val; omega))
      (fun k q => slice2_axis0_apply 5 wf _ k q _ (by show 5 + k.val = 5 + k.val; rfl))
      (fun k q => slice2_axis0_apply 10 wf _ k q _ (by show 10 + k.val = 10 + k.val; rfl))
      (fun q => LibRowOps.shapeCast_row_apply bf _ 0 q) r q
  · exact EdgeMessage.preSplit_eq_joined xd xs attr _ _ _ _ _ ws bs (z_target xd xs attr) (z_source xd xs attr) (z_attr xd xs attr)
      (fun k q => slice2_axis0_apply 0 ws _ k q _ (by show k.val = 0 + k.val; omega))
      (fun k q => slice2_axis0_apply 5 ws _ k q _ (by show 5 + k.val = 5 + k.val; rfl))
      (fun k q => slice2_axis0_apply 10 ws _ k q _ (by show 10 + k.val = 10 + k.val; rfl))
      (fun q => LibRowOps.shapeCast_row_apply bs _ 0 q) r q

end EdgeMessage.Joined

end
-- ==== Proof.KernelValue.lean ====
/-
  The kernel program's result is the network with the joined-row message in both layers.

  The fold of @main's five segments is read back one boundary at a time. After the first host stretch the node
  array h₀, the two gathered row arrays, the six weight blocks and two bias rows hold the operations' terms of the
  arguments. The first region leaves the split message array of those, which is the joined-row message array. The
  second stretch adds the messages into their targets' rows, h₁ = h₀ + Σ, and prepares the second region's
  arrays from h₁ in the same way; the second region leaves the second message array; the last stretch forms h₂ and
  the output projection.
-/
import proofs.«181776_j90881507983728_1_alg».proof.Proof.KernelBlocks
import proofs.«181776_j90881507983728_1_alg».proof.Proof.JoinedEntry

set_option maxRecDepth 16384
set_option maxHeartbeats 2000000

noncomputable section

namespace EdgeNet.Kernel

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- Argument 0 as launched. -/
abbrev a0 : EdgeNet.Arr Ideal Cert.ReferenceIdeal.S100000x2 .f32 := m ((c.tc : Thread nD τ).loc main_arg0)
/-- Argument 1 as launched. -/
abbrev a1 : EdgeNet.Arr Ideal Cert.ReferenceIdeal.S2x6400000 .i32 := m ((c.tc : Thread nD τ).loc main_arg1)
/-- Argument 2 as launched. -/
abbrev a2 : EdgeNet.Arr Ideal Cert.ReferenceIdeal.S6400000x1 .f32 := m ((c.tc : Thread nD τ).loc main_arg2)
/-- Argument 3 as launched. -/
abbrev a3 : EdgeNet.Arr Ideal Cert.ReferenceIdeal.S2x5 .f32 := m ((c.tc : Thread nD τ).loc main_arg3)
/-- Argument 4 as launched. -/
abbrev a4 : EdgeNet.Arr Ideal Cert.ReferenceIdeal.S5 .f32 := m ((c.tc : Thread nD τ).loc main_arg4)
/-- Argument 5 as launched. -/
abbrev a5 : EdgeNet.Arr Ideal Cert.ReferenceIdeal.S11x5 .f32 := m ((c.tc : Thread nD τ).loc main_arg5)
/-- Argument 6 as launched. -/
abbrev a6 : EdgeNet.Arr Ideal Cert.ReferenceIdeal.S5 .f32 := m ((c.tc : Thread nD τ).loc main_arg6)
/-- Argument 7 as launched. -/
abbrev a7 : EdgeNet.Arr Ideal Cert.ReferenceIdeal.S11x5 .f32 := m ((c.tc : Thread nD τ).loc main_arg7)
/-- Argument 8 as launched. -/
abbrev a8 : EdgeNet.Arr Ideal Cert.ReferenceIdeal.S5 .f32 := m ((c.tc : Thread nD τ).loc main_arg8)
/-- Argument 9 as launched. -/
abbrev a9 : EdgeNet.Arr Ideal Cert.ReferenceIdeal.S11x5 .f32 := m ((c.tc : Thread nD τ).loc main_arg9)
/-- Argument 10 as launched. -/
abbrev a10 : EdgeNet.Arr Ideal Cert.ReferenceIdeal.S5 .f32 := m ((c.tc : Thread nD τ).loc main_arg10)
/-- Argument 11 as launched. -/
abbrev a11 : EdgeNet.Arr Ideal Cert.ReferenceIdeal.S11x5 .f32 := m ((c.tc : Thread nD τ).loc main_arg11)
/-- Argument 12 as launched. -/
abbrev a12 : EdgeNet.Arr Ideal Cert.ReferenceIdeal.S5 .f32 := m ((c.tc : Thread nD τ).loc main_arg12)
/-- Argument 13 as launched. -/
abbrev a13 : EdgeNet.Arr Ideal Cert.ReferenceIdeal.S5x2 .f32 := m ((c.tc : Thread nD τ).loc main_arg13)
/-- Argument 14 as launched. -/
abbrev a14 : EdgeNet.Arr Ideal Cert.ReferenceIdeal.S2 .f32 := m ((c.tc : Thread nD τ).loc main_arg14)

/-- The node array after the input projection. -/
abbrev h0 : EdgeNet.Arr Ideal Cert.ReferenceIdeal.S100000x5 .f32 := EdgeNet.lin1 (a0 m c) (a3 m c) (a4 m c)
/-- The first layer's message function. -/
abbrev msg1 := EdgeNet.msgJoined (F := Ideal) (a2 m c) (a5 m c) (a6 m c) (a7 m c) (a8 m c)
/-- The second layer's message function. -/
abbrev msg2 := EdgeNet.msgJoined (F := Ideal) (a2 m c) (a9 m c) (a10 m c) (a11 m c) (a12 m c)
/-- The node array after the first layer. -/
abbrev h1 : EdgeNet.Arr Ideal Cert.ReferenceIdeal.S100000x5 .f32 := EdgeNet.layer (msg1 m c) (h0 m c) (a1 m c)

/-! ## After the first host stretch -/

theorem s1_h : W1 m ρ c (Proc.devRef .tc main_v3) = h0 m c := by
  after_results
  all_goals rfl
theorem s1_dst : W1 m ρ c (Proc.devRef .tc main_v7) = EdgeNet.dstRow (a1 m c) := by
  after_results
  all_goals rfl
theorem s1_xd : W1 m ρ c (Proc.devRef .tc main_v14) = (EdgeNet.rowsAt (h0 m c) (EdgeNet.wrapCol (EdgeNet.dstRow (a1 m c)))) := by
  after_results
  all_goals rfl
theorem s1_xs : W1 m ρ c (Proc.devRef .tc main_v21) = (EdgeNet.rowsAt (h0 m c) (EdgeNet.wrapCol (EdgeNet.srcRow (a1 m c)))) := by
  after_results
  all_goals rfl
theorem s1_attr : W1 m ρ c (Proc.devRef .tc main_arg2) = (a2 m c) := by
  after_results
  all_goals rfl
theorem s1_w0 : W1 m ρ c (Proc.devRef .tc main_v22) = (extractStridedSlice S5x5 ![0, 0] (a5 m c) slices_S11x5_S5x5_0_0) := by
  after_results
  all_goals rfl
theorem s1_w1 : W1 m ρ c (Proc.devRef .tc main_v23) = (extractStridedSlice S5x5 ![5, 0] (a5 m c) slices_S11x5_S5x5_5_0) := by
  after_results
  all_goals rfl
theorem s1_w2 : W1 m ρ c (Proc.devRef .tc main_v24) = (extractStridedSlice S1x5 ![10, 0] (a5 m c) slices_S11x5_S1x5_10_0) := by
  after_results
  all_goals rfl
theorem s1_w3 : W1 m ρ c (Proc.devRef .tc main_v28) = (shapeCast S1x5 (a6 m c) shapeCasts_S5_S1x5) := by
  after_results
  all_goals rfl
theorem s1_w4 : W1 m ρ c (Proc.devRef .tc main_v25) = (extractStridedSlice S5x5 ![0, 0] (a7 m c) slices_S11x5_S5x5_0_0) := by
  after_results
  all_goals rfl
theorem s1_w5 : W1 m ρ c (Proc.devRef .tc main_v26) = (extractStridedSlice S5x5 ![5, 0] (a7 m c) slices_S11x5_S5x5_5_0) := by
  after_results
  all_goals rfl
theorem s1_w6 : W1 m ρ c (Proc.devRef .tc main_v27) = (extractStridedSlice S1x5 ![10, 0] (a7 m c) slices_S11x5_S1x5_10_0) := by
  after_results
  all_goals rfl
theorem s1_w7 : W1 m ρ c (Proc.devRef .tc main_v29) = (shapeCast S1x5 (a8 m c) shapeCasts_S5_S1x5) := by
  after_results
  all_goals rfl
theorem s1_a1 : W1 m ρ c (Proc.devRef .tc main_arg1) = (a1 m c) := by
  after_results
  all_goals rfl
theorem s1_a9 : W1 m ρ c (Proc.devRef .tc main_arg9) = (a9 m c) := by
  after_results
  all_goals rfl
theorem s1_a10 : W1 m ρ c (Proc.devRef .tc main_arg10) = (a10 m c) := by
  after_results
  all_goals rfl
theorem s1_a11 : W1 m ρ c (Proc.devRef .tc main_arg11) = (a11 m c) := by
  after_results
  all_goals rfl
theorem s1_a12 : W1 m ρ c (Proc.devRef .tc main_arg12) = (a12 m c) := by
  after_results
  all_goals rfl
theorem s1_a13 : W1 m ρ c (Proc.devRef .tc main_arg13) = (a13 m c) := by
  after_results
  all_goals rfl
theorem s1_a14 : W1 m ρ c (Proc.devRef .tc main_arg14) = (a14 m c) := by
  after_results
  all_goals rfl

/-! ## After the first region -/

theorem s2_msg : W2 m ρ c (Proc.devRef .tc main_v30) = msg1 m c (EdgeNet.rowsAt (h0 m c) (EdgeNet.wrapCol (EdgeNet.dstRow (a1 m c)))) (EdgeNet.rowsAt (h0 m c) (EdgeNet.wrapCol (EdgeNet.srcRow (a1 m c)))) := by
  refine (W2_arr m ρ c 11).trans ((EdgeMessage.Blocks.final0 (V1 m ρ) c).trans ?_)
  show EdgeMessage.msgSplit (E := 6400000) (W1 m ρ c (Proc.devRef .tc main_v14)) (W1 m ρ c (Proc.devRef .tc main_v21)) (W1 m ρ c (Proc.devRef .tc main_arg2))
      (W1 m ρ c (Proc.devRef .tc main_v22)) (W1 m ρ c (Proc.devRef .tc main_v23)) (W1 m ρ c (Proc.devRef .tc main_v24)) (W1 m ρ c (Proc.devRef .tc main_v28)) (W1 m ρ c (Proc.devRef .tc main_v25)) (W1 m ρ c (Proc.devRef .tc main_v26)) (W1 m ρ c (Proc.devRef .tc main_v27)) (W1 m ρ c (Proc.devRef .tc main_v29)) = _
  rw [s1_xd, s1_xs, s1_attr, s1_w0, s1_w1, s1_w2, s1_w3, s1_w4, s1_w5, s1_w6, s1_w7]
  exact EdgeMessage.Joined.joined_eq_split _ _ _ _ _ _ _
theorem s2_h : W2 m ρ c (Proc.devRef .tc main_v3) = h0 m c := (W2_of_ne m ρ c main_v3 (by decide)).trans (s1_h m ρ c)
theorem s2_dst : W2 m ρ c (Proc.devRef .tc main_v7) = EdgeNet.dstRow (a1 m c) := (W2_of_ne m ρ c main_v7 (by decide)).trans (s1_dst m ρ c)
theorem s2_attr : W2 m ρ c (Proc.devRef .tc main_arg2) = (a2 m c) :=
  (W2_arr m ρ c 2).trans ((((dat0 (V1 m ρ) c).arrAt_in 2 rfl _).trans (A_eq0 (V1 m ρ) c 2)).trans (s1_attr m ρ c))
theorem s2_a1 : W2 m ρ c (Proc.devRef .tc main_arg1) = (a1 m c) := (W2_of_ne m ρ c main_arg1 (by decide)).trans (s1_a1 m ρ c)
theorem s2_a9 : W2 m ρ c (Proc.devRef .tc main_arg9) = (a9 m c) := (W2_of_ne m ρ c main_arg9 (by decide)).trans (s1_a9 m ρ c)
theorem s2_a10 : W2 m ρ c (Proc.devRef .tc main_arg10) = (a10 m c) := (W2_of_ne m ρ c main_arg10 (by decide)).trans (s1_a10 m ρ c)
theorem s2_a11 : W2 m ρ c (Proc.devRef .tc main_arg11) = (a11 m c) := (W2_of_ne m ρ c main_arg11 (by decide)).trans (s1_a11 m ρ c)
theorem s2_a12 : W2 m ρ c (Proc.devRef .tc main_arg12) = (a12 m c) := (W2_of_ne m ρ c main_arg12 (by decide)).trans (s1_a12 m ρ c)
theorem s2_a13 : W2 m ρ c (Proc.devRef .tc main_arg13) = (a13 m c) := (W2_of_ne m ρ c main_arg13 (by decide)).trans (s1_a13 m ρ c)
theorem s2_a14 : W2 m ρ c (Proc.devRef .tc main_arg14) = (a14 m c) := (W2_of_ne m ρ c main_arg14 (by decide)).trans (s1_a14 m ρ c)

/-! ## After the second host stretch -/

theorem s3_h : W3 m ρ c (Proc.devRef .tc main_v34) = h1 m c := by
  after_results
  rw [s2_h, s2_dst, s2_msg]
  all_goals rfl
theorem s3_dst : W3 m ρ c (Proc.devRef .tc main_v38) = EdgeNet.dstRow (a1 m c) := by
  after_results
  rw [s2_a1]
  all_goals rfl
theorem s3_xd : W3 m ρ c (Proc.devRef .tc main_v45) = (EdgeNet.rowsAt (h1 m c) (EdgeNet.wrapCol (EdgeNet.dstRow (a1 m c)))) := by
  after_results
  rw [s2_h, s2_dst, s2_msg, s2_a1]
  all_goals rfl
theorem s3_xs : W3 m ρ c (Proc.devRef .tc main_v52) = (EdgeNet.rowsAt (h1 m c) (EdgeNet.wrapCol (EdgeNet.srcRow (a1 m c)))) := by
  after_results
  rw [s2_h, s2_dst, s2_msg, s2_a1]
  all_goals rfl
theorem s3_attr : W3 m ρ c (Proc.devRef .tc main_arg2) = (a2 m c) := by
  after_results
  rw [s2_attr]
  all_goals rfl
theorem s3_w0 : W3 m ρ c (Proc.devRef .tc main_v53) = (extractStridedSlice S5x5 ![0, 0] (a9 m c) slices_S11x5_S5x5_0_0) := by
  after_results
  rw [s2_a9]
  all_goals rfl
theorem s3_w1 : W3 m ρ c (Proc.devRef .tc main_v54) = (extractStridedSlice S5x5 ![5, 0] (a9 m c) slices_S11x5_S5x5_5_0) := by
  after_results
  rw [s2_a9]
  all_goals rfl
theorem s3_w2 : W3 m ρ c (Proc.devRef .tc main_v55) = (extractStridedSlice S1x5 ![10, 0] (a9 m c) slices_S11x5_S1x5_10_0) := by
  after_results
  rw [s2_a9]
  all_goals rfl
theorem s3_w3 : W3 m ρ c (Proc.devRef .tc main_v59) = (shapeCast S1x5 (a10 m c) shapeCasts_S5_S1x5) := by
  after_results
  rw [s2_a10]
  all_goals rfl
theorem s3_w4 : W3 m ρ c (Proc.devRef .tc main_v56) = (extractStridedSlice S5x5 ![0, 0] (a11 m c) slices_S11x5_S5x5_0_0) := by
  after_results
  rw [s2_a11]
  all_goals rfl
theorem s3_w5 : W3 m ρ c (Proc.devRef .tc main_v57) = (extractStridedSlice S5x5 ![5, 0] (a11 m c) slices_S11x5_S5x5_5_0) := by
  after_results
  rw [s2_a11]
  all_goals rfl
theorem s3_w6 : W3 m ρ c (Proc.devRef .tc main_v58) = (extractStridedSlice S1x5 ![10, 0] (a11 m c) slices_S11x5_S1x5_10_0) := by
  after_results
  rw [s2_a11]
  all_goals rfl
theorem s3_w7 : W3 m ρ c (Proc.devRef .tc main_v60) = (shapeCast S1x5 (a12 m c) shapeCasts_S5_S1x5) := by
  after_results
  rw [s2_a12]
  all_goals rfl
theorem s3_a13 : W3 m ρ c (Proc.devRef .tc main_arg13) = (a13 m c) := by
  after_results
  rw [s2_a13]
  all_goals rfl
theorem s3_a14 : W3 m ρ c (Proc.devRef .tc main_arg14) = (a14 m c) := by
  after_results
  rw [s2_a14]
  all_goals rfl

/-! ## After the second region -/

theorem s4_msg : W4 m ρ c (Proc.devRef .tc main_v61) = msg2 m c (EdgeNet.rowsAt (h1 m c) (EdgeNet.wrapCol (EdgeNet.dstRow (a1 m c)))) (EdgeNet.rowsAt (h1 m c) (EdgeNet.wrapCol (EdgeNet.srcRow (a1 m c)))) := by
  refine (W4_arr m ρ c 11).trans ((EdgeMessage.Blocks.final1 (V3 m ρ) c).trans ?_)
  show EdgeMessage.msgSplit (E := 6400000) (W3 m ρ c (Proc.devRef .tc main_v45)) (W3 m ρ c (Proc.devRef .tc main_v52)) (W3 m ρ c (Proc.devRef .tc main_arg2))
      (W3 m ρ c (Proc.devRef .tc main_v53)) (W3 m ρ c (Proc.devRef .tc main_v54)) (W3 m ρ c (Proc.devRef .tc main_v55)) (W3 m ρ c (Proc.devRef .tc main_v59)) (W3 m ρ c (Proc.devRef .tc main_v56)) (W3 m ρ c (Proc.devRef .tc main_v57)) (W3 m ρ c (Proc.devRef .tc main_v58)) (W3 m ρ c (Proc.devRef .tc main_v60)) = _
  rw [s3_xd, s3_xs, s3_attr, s3_w0, s3_w1, s3_w2, s3_w3, s3_w4, s3_w5, s3_w6, s3_w7]
  exact EdgeMessage.Joined.joined_eq_split _ _ _ _ _ _ _
theorem s4_h : W4 m ρ c (Proc.devRef .tc main_v34) = h1 m c := (W4_of_ne m ρ c main_v34 (by decide)).trans (s3_h m ρ c)
theorem s4_dst : W4 m ρ c (Proc.devRef .tc main_v38) = EdgeNet.dstRow (a1 m c) := (W4_of_ne m ρ c main_v38 (by decide)).trans (s3_dst m ρ c)
theorem s4_a13 : W4 m ρ c (Proc.devRef .tc main_arg13) = (a13 m c) := (W4_of_ne m ρ c main_arg13 (by decide)).trans (s3_a13 m ρ c)
theorem s4_a14 : W4 m ρ c (Proc.devRef .tc main_arg14) = (a14 m c) := (W4_of_ne m ρ c main_arg14 (by decide)).trans (s3_a14 m ρ c)

/-! ## The result -/

/-- THE KERNEL PROGRAM'S RESULT ARRAY, as the fold leaves it: the network of the arguments. -/
theorem result_eq : W5 m ρ c (Proc.devRef .tc main_v69)
    = EdgeNet.net (msg1 m c) (msg2 m c) (a0 m c) (a1 m c) (a3 m c) (a4 m c) (a13 m c) (a14 m c) := by
  after_results
  rw [s4_h, s4_dst, s4_msg, s4_a13, s4_a14]
  all_goals rfl

end EdgeNet.Kernel

end
-- ==== Proof.RefRun.lean ====
/-
  The reference program's run, read off its operations.

  @main is a straight line of 126 host operations. Every buffer ends at the fold of the operations' results over the
  launch contents; the fold is read six stretches at a time: the input projection and the first gathers, the first
  joined-row message, the first scatter-add, the second gathers, the second message, the last scatter-add and
  the output projection. Each stretch's result is the network's corresponding piece of what the stretch finds, and no
  operation writes an argument.
-/
import proofs.«181776_j90881507983728_1_alg».proof.Proof.Gen.ReferenceIdeal
import proofs.«181776_j90881507983728_1_alg».proof.Proof.EdgeNet
import Idealize.ShloMosaic.Lib.StableHlo.Run

set_option maxRecDepth 16384

noncomputable section

namespace EdgeNet.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1–26 of @main. -/
abbrev seg1 : List (HloOp τ sig (Elt F)) :=
  [ binary main_arg0 main_arg3 main_v0 ((fun l r => Host.dotGeneral dot_S100000x2_S2x5_S100000x5_1_0_0_1_n_n none l r) : (⟨S100000x2, .f32⟩ : BufTy).Contents (Elt F) → (⟨S2x5, .f32⟩ : BufTy).Contents (Elt F) → (⟨S100000x5, .f32⟩ : BufTy).Contents (Elt F)),
    unary main_arg4 main_v1 (broadcastInDim S1x5 ![1] bcast_S5_S1x5_1 : (⟨S5, .f32⟩ : BufTy).Contents (Elt F) → (⟨S1x5, .f32⟩ : BufTy).Contents (Elt F)),
    unary main_v1 main_v2 (broadcastInDim S100000x5 ![0, 1] bcast_S1x5_S100000x5_0_1 : (⟨S1x5, .f32⟩ : BufTy).Contents (Elt F) → (⟨S100000x5, .f32⟩ : BufTy).Contents (Elt F)),
    binary main_v0 main_v2 main_v3 (addf : (⟨S100000x5, .f32⟩ : BufTy).Contents (Elt F) → (⟨S100000x5, .f32⟩ : BufTy).Contents (Elt F) → (⟨S100000x5, .f32⟩ : BufTy).Contents (Elt F)),
    unary main_arg1 main_v4 ((extractStridedSlice S1x6400000 ![0, 0] · slices_S2x6400000_S1x6400000_0_0) : (⟨S2x6400000, .i32⟩ : BufTy).Contents (Elt F) → (⟨S1x6400000, .i32⟩ : BufTy).Contents (Elt F)),
    reshape main_v4 main_v5 rfl shapeCasts_S1x6400000_S6400000,
    unary main_arg1 main_v6 ((extractStridedSlice S1x6400000 ![1, 0] · slices_S2x6400000_S1x6400000_1_0) : (⟨S2x6400000, .i32⟩ : BufTy).Contents (Elt F) → (⟨S1x6400000, .i32⟩ : BufTy).Contents (Elt F)),
    reshape main_v6 main_v7 rfl shapeCasts_S1x6400000_S6400000,
    nullary main_c (constantI S_ 32 0#32),
    unary main_c main_v8 (broadcastInDim S6400000 ![] bcast_S_S6400000 : (⟨S_, .i32⟩ : BufTy).Contents (Elt F) → (⟨S6400000, .i32⟩ : BufTy).Contents (Elt F)),
    binary main_v7 main_v8 main_v9 (cmpi .slt : (⟨S6400000, .i32⟩ : BufTy).Contents (Elt F) → (⟨S6400000, .i32⟩ : BufTy).Contents (Elt F) → (⟨S6400000, .i1⟩ : BufTy).Contents (Elt F)),
    nullary main_c_0 (constantI S_ 32 100000#32),
    unary main_c_0 main_v10 (broadcastInDim S6400000 ![] bcast_S_S6400000 : (⟨S_, .i32⟩ : BufTy).Contents (Elt F) → (⟨S6400000, .i32⟩ : BufTy).Contents (Elt F)),
    binary main_v7 main_v10 main_v11 (addi : (⟨S6400000, .i32⟩ : BufTy).Contents (Elt F) → (⟨S6400000, .i32⟩ : BufTy).Contents (Elt F) → (⟨S6400000, .i32⟩ : BufTy).Contents (Elt F)),
    ternary main_v9 main_v11 main_v7 main_v12 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v12 main_v13 (broadcastInDim S6400000x1 ![0] bcast_S6400000_S6400000x1_0 : (⟨S6400000, .i32⟩ : BufTy).Contents (Elt F) → (⟨S6400000x1, .i32⟩ : BufTy).Contents (Elt F)),
    binary main_v3 main_v13 main_v14 ((fun x i => Host.gather gather_S100000x5_S6400000x1_S6400000x5_1_0_n_n_0_1_15 x i) : (⟨S100000x5, .f32⟩ : BufTy).Contents (Elt F) → (⟨S6400000x1, .i32⟩ : BufTy).Contents (Elt F) → (⟨S6400000x5, .f32⟩ : BufTy).Contents (Elt F)),
    nullary main_c_1 (constantI S_ 32 0#32),
    unary main_c_1 main_v15 (broadcastInDim S6400000 ![] bcast_S_S6400000 : (⟨S_, .i32⟩ : BufTy).Contents (Elt F) → (⟨S6400000, .i32⟩ : BufTy).Contents (Elt F)),
    binary main_v5 main_v15 main_v16 (cmpi .slt : (⟨S6400000, .i32⟩ : BufTy).Contents (Elt F) → (⟨S6400000, .i32⟩ : BufTy).Contents (Elt F) → (⟨S6400000, .i1⟩ : BufTy).Contents (Elt F)),
    nullary main_c_2 (constantI S_ 32 100000#32),
    unary main_c_2 main_v17 (broadcastInDim S6400000 ![] bcast_S_S6400000 : (⟨S_, .i32⟩ : BufTy).Contents (Elt F) → (⟨S6400000, .i32⟩ : BufTy).Contents (Elt F)),
    binary main_v5 main_v17 main_v18 (addi : (⟨S6400000, .i32⟩ : BufTy).Contents (Elt F) → (⟨S6400000, .i32⟩ : BufTy).Contents (Elt F) → (⟨S6400000, .i32⟩ : BufTy).Contents (Elt F)),
    ternary main_v16 main_v18 main_v5 main_v19 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v19 main_v20 (broadcastInDim S6400000x1 ![0] bcast_S6400000_S6400000x1_0 : (⟨S6400000, .i32⟩ : BufTy).Contents (Elt F) → (⟨S6400000x1, .i32⟩ : BufTy).Contents (Elt F)),
    binary main_v3 main_v20 main_v21 ((fun x i => Host.gather gather_S100000x5_S6400000x1_S6400000x5_1_0_n_n_0_1_15 x i) : (⟨S100000x5, .f32⟩ : BufTy).Contents (Elt F) → (⟨S6400000x1, .i32⟩ : BufTy).Contents (Elt F) → (⟨S6400000x5, .f32⟩ : BufTy).Contents (Elt F)) ]

/-- Operations 27–58 of @main. -/
abbrev seg2 : List (HloOp τ sig (Elt F)) :=
  [ nary ![main_v14, main_v21, main_arg2] main_v22 (fun u => concatenate S6400000x11 1 [⟨S6400000x5, u 0⟩, ⟨S6400000x5, u 1⟩, ⟨S6400000x1, u 2⟩] concatenates_S6400000x5_S6400000x5_S6400000x1_S6400000x11_d1),
    binary main_v22 main_arg5 main_v23 ((fun l r => Host.dotGeneral dot_S6400000x11_S11x5_S6400000x5_1_0_0_1_n_n none l r) : (⟨S6400000x11, .f32⟩ : BufTy).Contents (Elt F) → (⟨S11x5, .f32⟩ : BufTy).Contents (Elt F) → (⟨S6400000x5, .f32⟩ : BufTy).Contents (Elt F)),
    unary main_arg6 main_v24 (broadcastInDim S1x5 ![1] bcast_S5_S1x5_1 : (⟨S5, .f32⟩ : BufTy).Contents (Elt F) → (⟨S1x5, .f32⟩ : BufTy).Contents (Elt F)),
    unary main_v24 main_v25 (broadcastInDim S6400000x5 ![0, 1] bcast_S1x5_S6400000x5_0_1 : (⟨S1x5, .f32⟩ : BufTy).Contents (Elt F) → (⟨S6400000x5, .f32⟩ : BufTy).Contents (Elt F)),
    binary main_v23 main_v25 main_v26 (addf : (⟨S6400000x5, .f32⟩ : BufTy).Contents (Elt F) → (⟨S6400000x5, .f32⟩ : BufTy).Contents (Elt F) → (⟨S6400000x5, .f32⟩ : BufTy).Contents (Elt F)),
    unary main_v26 main_v27 (Host.negf : (⟨S6400000x5, .f32⟩ : BufTy).Contents (Elt F) → (⟨S6400000x5, .f32⟩ : BufTy).Contents (Elt F)),
    unary main_v27 main_v28 (Host.exp : (⟨S6400000x5, .f32⟩ : BufTy).Contents (Elt F) → (⟨S6400000x5, .f32⟩ : BufTy).Contents (Elt F)),
    nullary main_cst (constant S_ .f32 0x3F800000#32),
    unary main_cst main_v29 (broadcastInDim S6400000x5 ![] bcast_S_S6400000x5 : (⟨S_, .f32⟩ : BufTy).Contents (Elt F) → (⟨S6400000x5, .f32⟩ : BufTy).Contents (Elt F)),
    binary main_v29 main_v28 main_v30 (addf : (⟨S6400000x5, .f32⟩ : BufTy).Contents (Elt F) → (⟨S6400000x5, .f32⟩ : BufTy).Contents (Elt F) → (⟨S6400000x5, .f32⟩ : BufTy).Contents (Elt F)),
    nullary main_cst_3 (constant S_ .f32 0x3F800000#32),
    unary main_cst_3 main_v31 (broadcastInDim S6400000x5 ![] bcast_S_S6400000x5 : (⟨S_, .f32⟩ : BufTy).Contents (Elt F) → (⟨S6400000x5, .f32⟩ : BufTy).Contents (Elt F)),
    binary main_v31 main_v30 main_v32 (Host.divf : (⟨S6400000x5, .f32⟩ : BufTy).Contents (Elt F) → (⟨S6400000x5, .f32⟩ : BufTy).Contents (Elt F) → (⟨S6400000x5, .f32⟩ : BufTy).Contents (Elt F)),
    binary main_v22 main_arg7 main_v33 ((fun l r => Host.dotGeneral dot_S6400000x11_S11x5_S6400000x5_1_0_0_1_n_n none l r) : (⟨S6400000x11, .f32⟩ : BufTy).Contents (Elt F) → (⟨S11x5, .f32⟩ : BufTy).Contents (Elt F) → (⟨S6400000x5, .f32⟩ : BufTy).Contents (Elt F)),
    unary main_arg8 main_v34 (broadcastInDim S1x5 ![1] bcast_S5_S1x5_1 : (⟨S5, .f32⟩ : BufTy).Contents (Elt F) → (⟨S1x5, .f32⟩ : BufTy).Contents (Elt F)),
    unary main_v34 main_v35 (broadcastInDim S6400000x5 ![0, 1] bcast_S1x5_S6400000x5_0_1 : (⟨S1x5, .f32⟩ : BufTy).Contents (Elt F) → (⟨S6400000x5, .f32⟩ : BufTy).Contents (Elt F)),
    binary main_v33 main_v35 main_v36 (addf : (⟨S6400000x5, .f32⟩ : BufTy).Contents (Elt F) → (⟨S6400000x5, .f32⟩ : BufTy).Contents (Elt F) → (⟨S6400000x5, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S6400000x5, .f32⟩) main_call0_v0) (broadcastInDim S6400000x5 ![] bcast_S_S6400000x5),
    TRef.binary (TRef.of (T := ⟨S6400000x5, .f32⟩) main_v36) (TRef.of (T := ⟨S6400000x5, .f32⟩) main_call0_v0) (TRef.of (T := ⟨S6400000x5, .f32⟩) main_call0_v1) maximumf,
    TRef.unary (TRef.of (T := ⟨S_, .f32⟩) main_call0_cst) (TRef.of (T := ⟨S6400000x5, .f32⟩) main_call0_v2) (broadcastInDim S6400000x5 ![] bcast_S_S6400000x5),
    TRef.binary (TRef.of (T := ⟨S6400000x5, .f32⟩) main_v36) (TRef.of (T := ⟨S6400000x5, .f32⟩) main_call0_v2) (TRef.of (T := ⟨S6400000x5, .f32⟩) main_call0_v3) subf,
    TRef.binary (TRef.of (T := ⟨S6400000x5, .f32⟩) main_call0_v3) (TRef.of (T := ⟨S6400000x5, .f32⟩) main_call0_v3) (TRef.of (T := ⟨S6400000x5, .i1⟩) main_call0_v4) (cmpf .une),
    TRef.unary (TRef.of (T := ⟨S_, .f32⟩) main_call0_cst) (TRef.of (T := ⟨S6400000x5, .f32⟩) main_call0_v5) (broadcastInDim S6400000x5 ![] bcast_S_S6400000x5),
    TRef.binary (TRef.of (T := ⟨S6400000x5, .f32⟩) main_v36) (TRef.of (T := ⟨S6400000x5, .f32⟩) main_call0_v5) (TRef.of (T := ⟨S6400000x5, .f32⟩) main_call0_v6) addf,
    TRef.unary (TRef.of (T := ⟨S6400000x5, .f32⟩) main_call0_v3) (TRef.of (T := ⟨S6400000x5, .f32⟩) main_call0_v7) Host.absf,
    TRef.unary (TRef.of (T := ⟨S6400000x5, .f32⟩) main_call0_v7) (TRef.of (T := ⟨S6400000x5, .f32⟩) main_call0_v8) Host.negf,
    TRef.unary (TRef.of (T := ⟨S6400000x5, .f32⟩) main_call0_v8) (TRef.of (T := ⟨S6400000x5, .f32⟩) main_call0_v9) Host.exp,
    TRef.unary (TRef.of (T := ⟨S6400000x5, .f32⟩) main_call0_v9) (TRef.of (T := ⟨S6400000x5, .f32⟩) main_call0_v10) Host.log1p,
    TRef.binary (TRef.of (T := ⟨S6400000x5, .f32⟩) main_call0_v1) (TRef.of (T := ⟨S6400000x5, .f32⟩) main_call0_v10) (TRef.of (T := ⟨S6400000x5, .f32⟩) main_call0_v11) addf,
    TRef.ternary (TRef.of (T := ⟨S6400000x5, .i1⟩) main_call0_v4) (TRef.of (T := ⟨S6400000x5, .f32⟩) main_call0_v6) (TRef.of (T := ⟨S6400000x5, .f32⟩) main_call0_v11) (TRef.of (T := ⟨S6400000x5, .f32⟩) main_v37) select,
    binary main_v32 main_v37 main_v38 (mulf : (⟨S6400000x5, .f32⟩ : BufTy).Contents (Elt F) → (⟨S6400000x5, .f32⟩ : BufTy).Contents (Elt F) → (⟨S6400000x5, .f32⟩ : BufTy).Contents (Elt F)) ]

/-- Operations 59–63 of @main. -/
abbrev seg3 : List (HloOp τ sig (Elt F)) :=
  [ nullary main_cst_4 (constant S_ .f32 0x00000000#32),
    unary main_cst_4 main_v39 (broadcastInDim S100000x5 ![] bcast_S_S100000x5 : (⟨S_, .f32⟩ : BufTy).Contents (Elt F) → (⟨S100000x5, .f32⟩ : BufTy).Contents (Elt F)),
    unary main_v7 main_v40 (broadcastInDim S6400000x1 ![0] bcast_S6400000_S6400000x1_0 : (⟨S6400000, .i32⟩ : BufTy).Contents (Elt F) → (⟨S6400000x1, .i32⟩ : BufTy).Contents (Elt F)),
    ternary main_v39 main_v40 main_v38 main_v41 ((fun x i u => Host.scatterAdd scatter_S100000x5_S6400000x1_S6400000x5_1_0_0_1 x i u) : (⟨S100000x5, .f32⟩ : BufTy).Contents (Elt F) → (⟨S6400000x1, .i32⟩ : BufTy).Contents (Elt F) → (⟨S6400000x5, .f32⟩ : BufTy).Contents (Elt F) → (⟨S100000x5, .f32⟩ : BufTy).Contents (Elt F)),
    binary main_v3 main_v41 main_v42 (addf : (⟨S100000x5, .f32⟩ : BufTy).Contents (Elt F) → (⟨S100000x5, .f32⟩ : BufTy).Contents (Elt F) → (⟨S100000x5, .f32⟩ : BufTy).Contents (Elt F)) ]

/-- Operations 64–85 of @main. -/
abbrev seg4 : List (HloOp τ sig (Elt F)) :=
  [ unary main_arg1 main_v43 ((extractStridedSlice S1x6400000 ![0, 0] · slices_S2x6400000_S1x6400000_0_0) : (⟨S2x6400000, .i32⟩ : BufTy).Contents (Elt F) → (⟨S1x6400000, .i32⟩ : BufTy).Contents (Elt F)),
    reshape main_v43 main_v44 rfl shapeCasts_S1x6400000_S6400000,
    unary main_arg1 main_v45 ((extractStridedSlice S1x6400000 ![1, 0] · slices_S2x6400000_S1x6400000_1_0) : (⟨S2x6400000, .i32⟩ : BufTy).Contents (Elt F) → (⟨S1x6400000, .i32⟩ : BufTy).Contents (Elt F)),
    reshape main_v45 main_v46 rfl shapeCasts_S1x6400000_S6400000,
    nullary main_c_5 (constantI S_ 32 0#32),
    unary main_c_5 main_v47 (broadcastInDim S6400000 ![] bcast_S_S6400000 : (⟨S_, .i32⟩ : BufTy).Contents (Elt F) → (⟨S6400000, .i32⟩ : BufTy).Contents (Elt F)),
    binary main_v46 main_v47 main_v48 (cmpi .slt : (⟨S6400000, .i32⟩ : BufTy).Contents (Elt F) → (⟨S6400000, .i32⟩ : BufTy).Contents (Elt F) → (⟨S6400000, .i1⟩ : BufTy).Contents (Elt F)),
    nullary main_c_6 (constantI S_ 32 100000#32),
    unary main_c_6 main_v49 (broadcastInDim S6400000 ![] bcast_S_S6400000 : (⟨S_, .i32⟩ : BufTy).Contents (Elt F) → (⟨S6400000, .i32⟩ : BufTy).Contents (Elt F)),
    binary main_v46 main_v49 main_v50 (addi : (⟨S6400000, .i32⟩ : BufTy).Contents (Elt F) → (⟨S6400000, .i32⟩ : BufTy).Contents (Elt F) → (⟨S6400000, .i32⟩ : BufTy).Contents (Elt F)),
    ternary main_v48 main_v50 main_v46 main_v51 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v51 main_v52 (broadcastInDim S6400000x1 ![0] bcast_S6400000_S6400000x1_0 : (⟨S6400000, .i32⟩ : BufTy).Contents (Elt F) → (⟨S6400000x1, .i32⟩ : BufTy).Contents (Elt F)),
    binary main_v42 main_v52 main_v53 ((fun x i => Host.gather gather_S100000x5_S6400000x1_S6400000x5_1_0_n_n_0_1_15 x i) : (⟨S100000x5, .f32⟩ : BufTy).Contents (Elt F) → (⟨S6400000x1, .i32⟩ : BufTy).Contents (Elt F) → (⟨S6400000x5, .f32⟩ : BufTy).Contents (Elt F)),
    nullary main_c_7 (constantI S_ 32 0#32),
    unary main_c_7 main_v54 (broadcastInDim S6400000 ![] bcast_S_S6400000 : (⟨S_, .i32⟩ : BufTy).Contents (Elt F) → (⟨S6400000, .i32⟩ : BufTy).Contents (Elt F)),
    binary main_v44 main_v54 main_v55 (cmpi .slt : (⟨S6400000, .i32⟩ : BufTy).Contents (Elt F) → (⟨S6400000, .i32⟩ : BufTy).Contents (Elt F) → (⟨S6400000, .i1⟩ : BufTy).Contents (Elt F)),
    nullary main_c_8 (constantI S_ 32 100000#32),
    unary main_c_8 main_v56 (broadcastInDim S6400000 ![] bcast_S_S6400000 : (⟨S_, .i32⟩ : BufTy).Contents (Elt F) → (⟨S6400000, .i32⟩ : BufTy).Contents (Elt F)),
    binary main_v44 main_v56 main_v57 (addi : (⟨S6400000, .i32⟩ : BufTy).Contents (Elt F) → (⟨S6400000, .i32⟩ : BufTy).Contents (Elt F) → (⟨S6400000, .i32⟩ : BufTy).Contents (Elt F)),
    ternary main_v55 main_v57 main_v44 main_v58 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v58 main_v59 (broadcastInDim S6400000x1 ![0] bcast_S6400000_S6400000x1_0 : (⟨S6400000, .i32⟩ : BufTy).Contents (Elt F) → (⟨S6400000x1, .i32⟩ : BufTy).Contents (Elt F)),
    binary main_v42 main_v59 main_v60 ((fun x i => Host.gather gather_S100000x5_S6400000x1_S6400000x5_1_0_n_n_0_1_15 x i) : (⟨S100000x5, .f32⟩ : BufTy).Contents (Elt F) → (⟨S6400000x1, .i32⟩ : BufTy).Contents (Elt F) → (⟨S6400000x5, .f32⟩ : BufTy).Contents (Elt F)) ]

/-- Operations 86–117 of @main. -/
abbrev seg5 : List (HloOp τ sig (Elt F)) :=
  [ nary ![main_v53, main_v60, main_arg2] main_v61 (fun u => concatenate S6400000x11 1 [⟨S6400000x5, u 0⟩, ⟨S6400000x5, u 1⟩, ⟨S6400000x1, u 2⟩] concatenates_S6400000x5_S6400000x5_S6400000x1_S6400000x11_d1),
    binary main_v61 main_arg9 main_v62 ((fun l r => Host.dotGeneral dot_S6400000x11_S11x5_S6400000x5_1_0_0_1_n_n none l r) : (⟨S6400000x11, .f32⟩ : BufTy).Contents (Elt F) → (⟨S11x5, .f32⟩ : BufTy).Contents (Elt F) → (⟨S6400000x5, .f32⟩ : BufTy).Contents (Elt F)),
    unary main_arg10 main_v63 (broadcastInDim S1x5 ![1] bcast_S5_S1x5_1 : (⟨S5, .f32⟩ : BufTy).Contents (Elt F) → (⟨S1x5, .f32⟩ : BufTy).Contents (Elt F)),
    unary main_v63 main_v64 (broadcastInDim S6400000x5 ![0, 1] bcast_S1x5_S6400000x5_0_1 : (⟨S1x5, .f32⟩ : BufTy).Contents (Elt F) → (⟨S6400000x5, .f32⟩ : BufTy).Contents (Elt F)),
    binary main_v62 main_v64 main_v65 (addf : (⟨S6400000x5, .f32⟩ : BufTy).Contents (Elt F) → (⟨S6400000x5, .f32⟩ : BufTy).Contents (Elt F) → (⟨S6400000x5, .f32⟩ : BufTy).Contents (Elt F)),
    unary main_v65 main_v66 (Host.negf : (⟨S6400000x5, .f32⟩ : BufTy).Contents (Elt F) → (⟨S6400000x5, .f32⟩ : BufTy).Contents (Elt F)),
    unary main_v66 main_v67 (Host.exp : (⟨S6400000x5, .f32⟩ : BufTy).Contents (Elt F) → (⟨S6400000x5, .f32⟩ : BufTy).Contents (Elt F)),
    nullary main_cst_9 (constant S_ .f32 0x3F800000#32),
    unary main_cst_9 main_v68 (broadcastInDim S6400000x5 ![] bcast_S_S6400000x5 : (⟨S_, .f32⟩ : BufTy).Contents (Elt F) → (⟨S6400000x5, .f32⟩ : BufTy).Contents (Elt F)),
    binary main_v68 main_v67 main_v69 (addf : (⟨S6400000x5, .f32⟩ : BufTy).Contents (Elt F) → (⟨S6400000x5, .f32⟩ : BufTy).Contents (Elt F) → (⟨S6400000x5, .f32⟩ : BufTy).Contents (Elt F)),
    nullary main_cst_10 (constant S_ .f32 0x3F800000#32),
    unary main_cst_10 main_v70 (broadcastInDim S6400000x5 ![] bcast_S_S6400000x5 : (⟨S_, .f32⟩ : BufTy).Contents (Elt F) → (⟨S6400000x5, .f32⟩ : BufTy).Contents (Elt F)),
    binary main_v70 main_v69 main_v71 (Host.divf : (⟨S6400000x5, .f32⟩ : BufTy).Contents (Elt F) → (⟨S6400000x5, .f32⟩ : BufTy).Contents (Elt F) → (⟨S6400000x5, .f32⟩ : BufTy).Contents (Elt F)),
    binary main_v61 main_arg11 main_v72 ((fun l r => Host.dotGeneral dot_S6400000x11_S11x5_S6400000x5_1_0_0_1_n_n none l r) : (⟨S6400000x11, .f32⟩ : BufTy).Contents (Elt F) → (⟨S11x5, .f32⟩ : BufTy).Contents (Elt F) → (⟨S6400000x5, .f32⟩ : BufTy).Contents (Elt F)),
    unary main_arg12 main_v73 (broadcastInDim S1x5 ![1] bcast_S5_S1x5_1 : (⟨S5, .f32⟩ : BufTy).Contents (Elt F) → (⟨S1x5, .f32⟩ : BufTy).Contents (Elt F)),
    unary main_v73 main_v74 (broadcastInDim S6400000x5 ![0, 1] bcast_S1x5_S6400000x5_0_1 : (⟨S1x5, .f32⟩ : BufTy).Contents (Elt F) → (⟨S6400000x5, .f32⟩ : BufTy).Contents (Elt F)),
    binary main_v72 main_v74 main_v75 (addf : (⟨S6400000x5, .f32⟩ : BufTy).Contents (Elt F) → (⟨S6400000x5, .f32⟩ : BufTy).Contents (Elt F) → (⟨S6400000x5, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S6400000x5, .f32⟩) main_call1_v0) (broadcastInDim S6400000x5 ![] bcast_S_S6400000x5),
    TRef.binary (TRef.of (T := ⟨S6400000x5, .f32⟩) main_v75) (TRef.of (T := ⟨S6400000x5, .f32⟩) main_call1_v0) (TRef.of (T := ⟨S6400000x5, .f32⟩) main_call1_v1) maximumf,
    TRef.unary (TRef.of (T := ⟨S_, .f32⟩) main_call1_cst) (TRef.of (T := ⟨S6400000x5, .f32⟩) main_call1_v2) (broadcastInDim S6400000x5 ![] bcast_S_S6400000x5),
    TRef.binary (TRef.of (T := ⟨S6400000x5, .f32⟩) main_v75) (TRef.of (T := ⟨S6400000x5, .f32⟩) main_call1_v2) (TRef.of (T := ⟨S6400000x5, .f32⟩) main_call1_v3) subf,
    TRef.binary (TRef.of (T := ⟨S6400000x5, .f32⟩) main_call1_v3) (TRef.of (T := ⟨S6400000x5, .f32⟩) main_call1_v3) (TRef.of (T := ⟨S6400000x5, .i1⟩) main_call1_v4) (cmpf .une),
    TRef.unary (TRef.of (T := ⟨S_, .f32⟩) main_call1_cst) (TRef.of (T := ⟨S6400000x5, .f32⟩) main_call1_v5) (broadcastInDim S6400000x5 ![] bcast_S_S6400000x5),
    TRef.binary (TRef.of (T := ⟨S6400000x5, .f32⟩) main_v75) (TRef.of (T := ⟨S6400000x5, .f32⟩) main_call1_v5) (TRef.of (T := ⟨S6400000x5, .f32⟩) main_call1_v6) addf,
    TRef.unary (TRef.of (T := ⟨S6400000x5, .f32⟩) main_call1_v3) (TRef.of (T := ⟨S6400000x5, .f32⟩) main_call1_v7) Host.absf,
    TRef.unary (TRef.of (T := ⟨S6400000x5, .f32⟩) main_call1_v7) (TRef.of (T := ⟨S6400000x5, .f32⟩) main_call1_v8) Host.negf,
    TRef.unary (TRef.of (T := ⟨S6400000x5, .f32⟩) main_call1_v8) (TRef.of (T := ⟨S6400000x5, .f32⟩) main_call1_v9) Host.exp,
    TRef.unary (TRef.of (T := ⟨S6400000x5, .f32⟩) main_call1_v9) (TRef.of (T := ⟨S6400000x5, .f32⟩) main_call1_v10) Host.log1p,
    TRef.binary (TRef.of (T := ⟨S6400000x5, .f32⟩) main_call1_v1) (TRef.of (T := ⟨S6400000x5, .f32⟩) main_call1_v10) (TRef.of (T := ⟨S6400000x5, .f32⟩) main_call1_v11) addf,
    TRef.ternary (TRef.of (T := ⟨S6400000x5, .i1⟩) main_call1_v4) (TRef.of (T := ⟨S6400000x5, .f32⟩) main_call1_v6) (TRef.of (T := ⟨S6400000x5, .f32⟩) main_call1_v11) (TRef.of (T := ⟨S6400000x5, .f32⟩) main_v76) select,
    binary main_v71 main_v76 main_v77 (mulf : (⟨S6400000x5, .f32⟩ : BufTy).Contents (Elt F) → (⟨S6400000x5, .f32⟩ : BufTy).Contents (Elt F) → (⟨S6400000x5, .f32⟩ : BufTy).Contents (Elt F)) ]

/-- Operations 118–126 of @main. -/
abbrev seg6 : List (HloOp τ sig (Elt F)) :=
  [ nullary main_cst_11 (constant S_ .f32 0x00000000#32),
    unary main_cst_11 main_v78 (broadcastInDim S100000x5 ![] bcast_S_S100000x5 : (⟨S_, .f32⟩ : BufTy).Contents (Elt F) → (⟨S100000x5, .f32⟩ : BufTy).Contents (Elt F)),
    unary main_v46 main_v79 (broadcastInDim S6400000x1 ![0] bcast_S6400000_S6400000x1_0 : (⟨S6400000, .i32⟩ : BufTy).Contents (Elt F) → (⟨S6400000x1, .i32⟩ : BufTy).Contents (Elt F)),
    ternary main_v78 main_v79 main_v77 main_v80 ((fun x i u => Host.scatterAdd scatter_S100000x5_S6400000x1_S6400000x5_1_0_0_1 x i u) : (⟨S100000x5, .f32⟩ : BufTy).Contents (Elt F) → (⟨S6400000x1, .i32⟩ : BufTy).Contents (Elt F) → (⟨S6400000x5, .f32⟩ : BufTy).Contents (Elt F) → (⟨S100000x5, .f32⟩ : BufTy).Contents (Elt F)),
    binary main_v42 main_v80 main_v81 (addf : (⟨S100000x5, .f32⟩ : BufTy).Contents (Elt F) → (⟨S100000x5, .f32⟩ : BufTy).Contents (Elt F) → (⟨S100000x5, .f32⟩ : BufTy).Contents (Elt F)),
    binary main_v81 main_arg13 main_v82 ((fun l r => Host.dotGeneral dot_S100000x5_S5x2_S100000x2_1_0_0_1_n_n none l r) : (⟨S100000x5, .f32⟩ : BufTy).Contents (Elt F) → (⟨S5x2, .f32⟩ : BufTy).Contents (Elt F) → (⟨S100000x2, .f32⟩ : BufTy).Contents (Elt F)),
    unary main_arg14 main_v83 (broadcastInDim S1x2 ![1] bcast_S2_S1x2_1 : (⟨S2, .f32⟩ : BufTy).Contents (Elt F) → (⟨S1x2, .f32⟩ : BufTy).Contents (Elt F)),
    unary main_v83 main_v84 (broadcastInDim S100000x2 ![0, 1] bcast_S1x2_S100000x2_0_1 : (⟨S1x2, .f32⟩ : BufTy).Contents (Elt F) → (⟨S100000x2, .f32⟩ : BufTy).Contents (Elt F)),
    binary main_v82 main_v84 main_v85 (addf : (⟨S100000x2, .f32⟩ : BufTy).Contents (Elt F) → (⟨S100000x2, .f32⟩ : BufTy).Contents (Elt F) → (⟨S100000x2, .f32⟩ : BufTy).Contents (Elt F)) ]

/-- @main's 126 operations, in order. -/
abbrev ops : List (HloOp τ sig (Elt F)) :=
  [ binary main_arg0 main_arg3 main_v0 ((fun l r => Host.dotGeneral dot_S100000x2_S2x5_S100000x5_1_0_0_1_n_n none l r) : (⟨S100000x2, .f32⟩ : BufTy).Contents (Elt F) → (⟨S2x5, .f32⟩ : BufTy).Contents (Elt F) → (⟨S100000x5, .f32⟩ : BufTy).Contents (Elt F)),
    unary main_arg4 main_v1 (broadcastInDim S1x5 ![1] bcast_S5_S1x5_1 : (⟨S5, .f32⟩ : BufTy).Contents (Elt F) → (⟨S1x5, .f32⟩ : BufTy).Contents (Elt F)),
    unary main_v1 main_v2 (broadcastInDim S100000x5 ![0, 1] bcast_S1x5_S100000x5_0_1 : (⟨S1x5, .f32⟩ : BufTy).Contents (Elt F) → (⟨S100000x5, .f32⟩ : BufTy).Contents (Elt F)),
    binary main_v0 main_v2 main_v3 (addf : (⟨S100000x5, .f32⟩ : BufTy).Contents (Elt F) → (⟨S100000x5, .f32⟩ : BufTy).Contents (Elt F) → (⟨S100000x5, .f32⟩ : BufTy).Contents (Elt F)),
    unary main_arg1 main_v4 ((extractStridedSlice S1x6400000 ![0, 0] · slices_S2x6400000_S1x6400000_0_0) : (⟨S2x6400000, .i32⟩ : BufTy).Contents (Elt F) → (⟨S1x6400000, .i32⟩ : BufTy).Contents (Elt F)),
    reshape main_v4 main_v5 rfl shapeCasts_S1x6400000_S6400000,
    unary main_arg1 main_v6 ((extractStridedSlice S1x6400000 ![1, 0] · slices_S2x6400000_S1x6400000_1_0) : (⟨S2x6400000, .i32⟩ : BufTy).Contents (Elt F) → (⟨S1x6400000, .i32⟩ : BufTy).Contents (Elt F)),
    reshape main_v6 main_v7 rfl shapeCasts_S1x6400000_S6400000,
    nullary main_c (constantI S_ 32 0#32),
    unary main_c main_v8 (broadcastInDim S6400000 ![] bcast_S_S6400000 : (⟨S_, .i32⟩ : BufTy).Contents (Elt F) → (⟨S6400000, .i32⟩ : BufTy).Contents (Elt F)),
    binary main_v7 main_v8 main_v9 (cmpi .slt : (⟨S6400000, .i32⟩ : BufTy).Contents (Elt F) → (⟨S6400000, .i32⟩ : BufTy).Contents (Elt F) → (⟨S6400000, .i1⟩ : BufTy).Contents (Elt F)),
    nullary main_c_0 (constantI S_ 32 100000#32),
    unary main_c_0 main_v10 (broadcastInDim S6400000 ![] bcast_S_S6400000 : (⟨S_, .i32⟩ : BufTy).Contents (Elt F) → (⟨S6400000, .i32⟩ : BufTy).Contents (Elt F)),
    binary main_v7 main_v10 main_v11 (addi : (⟨S6400000, .i32⟩ : BufTy).Contents (Elt F) → (⟨S6400000, .i32⟩ : BufTy).Contents (Elt F) → (⟨S6400000, .i32⟩ : BufTy).Contents (Elt F)),
    ternary main_v9 main_v11 main_v7 main_v12 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v12 main_v13 (broadcastInDim S6400000x1 ![0] bcast_S6400000_S6400000x1_0 : (⟨S6400000, .i32⟩ : BufTy).Contents (Elt F) → (⟨S6400000x1, .i32⟩ : BufTy).Contents (Elt F)),
    binary main_v3 main_v13 main_v14 ((fun x i => Host.gather gather_S100000x5_S6400000x1_S6400000x5_1_0_n_n_0_1_15 x i) : (⟨S100000x5, .f32⟩ : BufTy).Contents (Elt F) → (⟨S6400000x1, .i32⟩ : BufTy).Contents (Elt F) → (⟨S6400000x5, .f32⟩ : BufTy).Contents (Elt F)),
    nullary main_c_1 (constantI S_ 32 0#32),
    unary main_c_1 main_v15 (broadcastInDim S6400000 ![] bcast_S_S6400000 : (⟨S_, .i32⟩ : BufTy).Contents (Elt F) → (⟨S6400000, .i32⟩ : BufTy).Contents (Elt F)),
    binary main_v5 main_v15 main_v16 (cmpi .slt : (⟨S6400000, .i32⟩ : BufTy).Contents (Elt F) → (⟨S6400000, .i32⟩ : BufTy).Contents (Elt F) → (⟨S6400000, .i1⟩ : BufTy).Contents (Elt F)),
    nullary main_c_2 (constantI S_ 32 100000#32),
    unary main_c_2 main_v17 (broadcastInDim S6400000 ![] bcast_S_S6400000 : (⟨S_, .i32⟩ : BufTy).Contents (Elt F) → (⟨S6400000, .i32⟩ : BufTy).Contents (Elt F)),
    binary main_v5 main_v17 main_v18 (addi : (⟨S6400000, .i32⟩ : BufTy).Contents (Elt F) → (⟨S6400000, .i32⟩ : BufTy).Contents (Elt F) → (⟨S6400000, .i32⟩ : BufTy).Contents (Elt F)),
    ternary main_v16 main_v18 main_v5 main_v19 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v19 main_v20 (broadcastInDim S6400000x1 ![0] bcast_S6400000_S6400000x1_0 : (⟨S6400000, .i32⟩ : BufTy).Contents (Elt F) → (⟨S6400000x1, .i32⟩ : BufTy).Contents (Elt F)),
    binary main_v3 main_v20 main_v21 ((fun x i => Host.gather gather_S100000x5_S6400000x1_S6400000x5_1_0_n_n_0_1_15 x i) : (⟨S100000x5, .f32⟩ : BufTy).Contents (Elt F) → (⟨S6400000x1, .i32⟩ : BufTy).Contents (Elt F) → (⟨S6400000x5, .f32⟩ : BufTy).Contents (Elt F)),
    nary ![main_v14, main_v21, main_arg2] main_v22 (fun u => concatenate S6400000x11 1 [⟨S6400000x5, u 0⟩, ⟨S6400000x5, u 1⟩, ⟨S6400000x1, u 2⟩] concatenates_S6400000x5_S6400000x5_S6400000x1_S6400000x11_d1),
    binary main_v22 main_arg5 main_v23 ((fun l r => Host.dotGeneral dot_S6400000x11_S11x5_S6400000x5_1_0_0_1_n_n none l r) : (⟨S6400000x11, .f32⟩ : BufTy).Contents (Elt F) → (⟨S11x5, .f32⟩ : BufTy).Contents (Elt F) → (⟨S6400000x5, .f32⟩ : BufTy).Contents (Elt F)),
    unary main_arg6 main_v24 (broadcastInDim S1x5 ![1] bcast_S5_S1x5_1 : (⟨S5, .f32⟩ : BufTy).Contents (Elt F) → (⟨S1x5, .f32⟩ : BufTy).Contents (Elt F)),
    unary main_v24 main_v25 (broadcastInDim S6400000x5 ![0, 1] bcast_S1x5_S6400000x5_0_1 : (⟨S1x5, .f32⟩ : BufTy).Contents (Elt F) → (⟨S6400000x5, .f32⟩ : BufTy).Contents (Elt F)),
    binary main_v23 main_v25 main_v26 (addf : (⟨S6400000x5, .f32⟩ : BufTy).Contents (Elt F) → (⟨S6400000x5, .f32⟩ : BufTy).Contents (Elt F) → (⟨S6400000x5, .f32⟩ : BufTy).Contents (Elt F)),
    unary main_v26 main_v27 (Host.negf : (⟨S6400000x5, .f32⟩ : BufTy).Contents (Elt F) → (⟨S6400000x5, .f32⟩ : BufTy).Contents (Elt F)),
    unary main_v27 main_v28 (Host.exp : (⟨S6400000x5, .f32⟩ : BufTy).Contents (Elt F) → (⟨S6400000x5, .f32⟩ : BufTy).Contents (Elt F)),
    nullary main_cst (constant S_ .f32 0x3F800000#32),
    unary main_cst main_v29 (broadcastInDim S6400000x5 ![] bcast_S_S6400000x5 : (⟨S_, .f32⟩ : BufTy).Contents (Elt F) → (⟨S6400000x5, .f32⟩ : BufTy).Contents (Elt F)),
    binary main_v29 main_v28 main_v30 (addf : (⟨S6400000x5, .f32⟩ : BufTy).Contents (Elt F) → (⟨S6400000x5, .f32⟩ : BufTy).Contents (Elt F) → (⟨S6400000x5, .f32⟩ : BufTy).Contents (Elt F)),
    nullary main_cst_3 (constant S_ .f32 0x3F800000#32),
    unary main_cst_3 main_v31 (broadcastInDim S6400000x5 ![] bcast_S_S6400000x5 : (⟨S_, .f32⟩ : BufTy).Contents (Elt F) → (⟨S6400000x5, .f32⟩ : BufTy).Contents (Elt F)),
    binary main_v31 main_v30 main_v32 (Host.divf : (⟨S6400000x5, .f32⟩ : BufTy).Contents (Elt F) → (⟨S6400000x5, .f32⟩ : BufTy).Contents (Elt F) → (⟨S6400000x5, .f32⟩ : BufTy).Contents (Elt F)),
    binary main_v22 main_arg7 main_v33 ((fun l r => Host.dotGeneral dot_S6400000x11_S11x5_S6400000x5_1_0_0_1_n_n none l r) : (⟨S6400000x11, .f32⟩ : BufTy).Contents (Elt F) → (⟨S11x5, .f32⟩ : BufTy).Contents (Elt F) → (⟨S6400000x5, .f32⟩ : BufTy).Contents (Elt F)),
    unary main_arg8 main_v34 (broadcastInDim S1x5 ![1] bcast_S5_S1x5_1 : (⟨S5, .f32⟩ : BufTy).Contents (Elt F) → (⟨S1x5, .f32⟩ : BufTy).Contents (Elt F)),
    unary main_v34 main_v35 (broadcastInDim S6400000x5 ![0, 1] bcast_S1x5_S6400000x5_0_1 : (⟨S1x5, .f32⟩ : BufTy).Contents (Elt F) → (⟨S6400000x5, .f32⟩ : BufTy).Contents (Elt F)),
    binary main_v33 main_v35 main_v36 (addf : (⟨S6400000x5, .f32⟩ : BufTy).Contents (Elt F) → (⟨S6400000x5, .f32⟩ : BufTy).Contents (Elt F) → (⟨S6400000x5, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S6400000x5, .f32⟩) main_call0_v0) (broadcastInDim S6400000x5 ![] bcast_S_S6400000x5),
    TRef.binary (TRef.of (T := ⟨S6400000x5, .f32⟩) main_v36) (TRef.of (T := ⟨S6400000x5, .f32⟩) main_call0_v0) (TRef.of (T := ⟨S6400000x5, .f32⟩) main_call0_v1) maximumf,
    TRef.unary (TRef.of (T := ⟨S_, .f32⟩) main_call0_cst) (TRef.of (T := ⟨S6400000x5, .f32⟩) main_call0_v2) (broadcastInDim S6400000x5 ![] bcast_S_S6400000x5),
    TRef.binary (TRef.of (T := ⟨S6400000x5, .f32⟩) main_v36) (TRef.of (T := ⟨S6400000x5, .f32⟩) main_call0_v2) (TRef.of (T := ⟨S6400000x5, .f32⟩) main_call0_v3) subf,
    TRef.binary (TRef.of (T := ⟨S6400000x5, .f32⟩) main_call0_v3) (TRef.of (T := ⟨S6400000x5, .f32⟩) main_call0_v3) (TRef.of (T := ⟨S6400000x5, .i1⟩) main_call0_v4) (cmpf .une),
    TRef.unary (TRef.of (T := ⟨S_, .f32⟩) main_call0_cst) (TRef.of (T := ⟨S6400000x5, .f32⟩) main_call0_v5) (broadcastInDim S6400000x5 ![] bcast_S_S6400000x5),
    TRef.binary (TRef.of (T := ⟨S6400000x5, .f32⟩) main_v36) (TRef.of (T := ⟨S6400000x5, .f32⟩) main_call0_v5) (TRef.of (T := ⟨S6400000x5, .f32⟩) main_call0_v6) addf,
    TRef.unary (TRef.of (T := ⟨S6400000x5, .f32⟩) main_call0_v3) (TRef.of (T := ⟨S6400000x5, .f32⟩) main_call0_v7) Host.absf,
    TRef.unary (TRef.of (T := ⟨S6400000x5, .f32⟩) main_call0_v7) (TRef.of (T := ⟨S6400000x5, .f32⟩) main_call0_v8) Host.negf,
    TRef.unary (TRef.of (T := ⟨S6400000x5, .f32⟩) main_call0_v8) (TRef.of (T := ⟨S6400000x5, .f32⟩) main_call0_v9) Host.exp,
    TRef.unary (TRef.of (T := ⟨S6400000x5, .f32⟩) main_call0_v9) (TRef.of (T := ⟨S6400000x5, .f32⟩) main_call0_v10) Host.log1p,
    TRef.binary (TRef.of (T := ⟨S6400000x5, .f32⟩) main_call0_v1) (TRef.of (T := ⟨S6400000x5, .f32⟩) main_call0_v10) (TRef.of (T := ⟨S6400000x5, .f32⟩) main_call0_v11) addf,
    TRef.ternary (TRef.of (T := ⟨S6400000x5, .i1⟩) main_call0_v4) (TRef.of (T := ⟨S6400000x5, .f32⟩) main_call0_v6) (TRef.of (T := ⟨S6400000x5, .f32⟩) main_call0_v11) (TRef.of (T := ⟨S6400000x5, .f32⟩) main_v37) select,
    binary main_v32 main_v37 main_v38 (mulf : (⟨S6400000x5, .f32⟩ : BufTy).Contents (Elt F) → (⟨S6400000x5, .f32⟩ : BufTy).Contents (Elt F) → (⟨S6400000x5, .f32⟩ : BufTy).Contents (Elt F)),
    nullary main_cst_4 (constant S_ .f32 0x00000000#32),
    unary main_cst_4 main_v39 (broadcastInDim S100000x5 ![] bcast_S_S100000x5 : (⟨S_, .f32⟩ : BufTy).Contents (Elt F) → (⟨S100000x5, .f32⟩ : BufTy).Contents (Elt F)),
    unary main_v7 main_v40 (broadcastInDim S6400000x1 ![0] bcast_S6400000_S6400000x1_0 : (⟨S6400000, .i32⟩ : BufTy).Contents (Elt F) → (⟨S6400000x1, .i32⟩ : BufTy).Contents (Elt F)),
    ternary main_v39 main_v40 main_v38 main_v41 ((fun x i u => Host.scatterAdd scatter_S100000x5_S6400000x1_S6400000x5_1_0_0_1 x i u) : (⟨S100000x5, .f32⟩ : BufTy).Contents (Elt F) → (⟨S6400000x1, .i32⟩ : BufTy).Contents (Elt F) → (⟨S6400000x5, .f32⟩ : BufTy).Contents (Elt F) → (⟨S100000x5, .f32⟩ : BufTy).Contents (Elt F)),
    binary main_v3 main_v41 main_v42 (addf : (⟨S100000x5, .f32⟩ : BufTy).Contents (Elt F) → (⟨S100000x5, .f32⟩ : BufTy).Contents (Elt F) → (⟨S100000x5, .f32⟩ : BufTy).Contents (Elt F)),
    unary main_arg1 main_v43 ((extractStridedSlice S1x6400000 ![0, 0] · slices_S2x6400000_S1x6400000_0_0) : (⟨S2x6400000, .i32⟩ : BufTy).Contents (Elt F) → (⟨S1x6400000, .i32⟩ : BufTy).Contents (Elt F)),
    reshape main_v43 main_v44 rfl shapeCasts_S1x6400000_S6400000,
    unary main_arg1 main_v45 ((extractStridedSlice S1x6400000 ![1, 0] · slices_S2x6400000_S1x6400000_1_0) : (⟨S2x6400000, .i32⟩ : BufTy).Contents (Elt F) → (⟨S1x6400000, .i32⟩ : BufTy).Contents (Elt F)),
    reshape main_v45 main_v46 rfl shapeCasts_S1x6400000_S6400000,
    nullary main_c_5 (constantI S_ 32 0#32),
    unary main_c_5 main_v47 (broadcastInDim S6400000 ![] bcast_S_S6400000 : (⟨S_, .i32⟩ : BufTy).Contents (Elt F) → (⟨S6400000, .i32⟩ : BufTy).Contents (Elt F)),
    binary main_v46 main_v47 main_v48 (cmpi .slt : (⟨S6400000, .i32⟩ : BufTy).Contents (Elt F) → (⟨S6400000, .i32⟩ : BufTy).Contents (Elt F) → (⟨S6400000, .i1⟩ : BufTy).Contents (Elt F)),
    nullary main_c_6 (constantI S_ 32 100000#32),
    unary main_c_6 main_v49 (broadcastInDim S6400000 ![] bcast_S_S6400000 : (⟨S_, .i32⟩ : BufTy).Contents (Elt F) → (⟨S6400000, .i32⟩ : BufTy).Contents (Elt F)),
    binary main_v46 main_v49 main_v50 (addi : (⟨S6400000, .i32⟩ : BufTy).Contents (Elt F) → (⟨S6400000, .i32⟩ : BufTy).Contents (Elt F) → (⟨S6400000, .i32⟩ : BufTy).Contents (Elt F)),
    ternary main_v48 main_v50 main_v46 main_v51 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v51 main_v52 (broadcastInDim S6400000x1 ![0] bcast_S6400000_S6400000x1_0 : (⟨S6400000, .i32⟩ : BufTy).Contents (Elt F) → (⟨S6400000x1, .i32⟩ : BufTy).Contents (Elt F)),
    binary main_v42 main_v52 main_v53 ((fun x i => Host.gather gather_S100000x5_S6400000x1_S6400000x5_1_0_n_n_0_1_15 x i) : (⟨S100000x5, .f32⟩ : BufTy).Contents (Elt F) → (⟨S6400000x1, .i32⟩ : BufTy).Contents (Elt F) → (⟨S6400000x5, .f32⟩ : BufTy).Contents (Elt F)),
    nullary main_c_7 (constantI S_ 32 0#32),
    unary main_c_7 main_v54 (broadcastInDim S6400000 ![] bcast_S_S6400000 : (⟨S_, .i32⟩ : BufTy).Contents (Elt F) → (⟨S6400000, .i32⟩ : BufTy).Contents (Elt F)),
    binary main_v44 main_v54 main_v55 (cmpi .slt : (⟨S6400000, .i32⟩ : BufTy).Contents (Elt F) → (⟨S6400000, .i32⟩ : BufTy).Contents (Elt F) → (⟨S6400000, .i1⟩ : BufTy).Contents (Elt F)),
    nullary main_c_8 (constantI S_ 32 100000#32),
    unary main_c_8 main_v56 (broadcastInDim S6400000 ![] bcast_S_S6400000 : (⟨S_, .i32⟩ : BufTy).Contents (Elt F) → (⟨S6400000, .i32⟩ : BufTy).Contents (Elt F)),
    binary main_v44 main_v56 main_v57 (addi : (⟨S6400000, .i32⟩ : BufTy).Contents (Elt F) → (⟨S6400000, .i32⟩ : BufTy).Contents (Elt F) → (⟨S6400000, .i32⟩ : BufTy).Contents (Elt F)),
    ternary main_v55 main_v57 main_v44 main_v58 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v58 main_v59 (broadcastInDim S6400000x1 ![0] bcast_S6400000_S6400000x1_0 : (⟨S6400000, .i32⟩ : BufTy).Contents (Elt F) → (⟨S6400000x1, .i32⟩ : BufTy).Contents (Elt F)),
    binary main_v42 main_v59 main_v60 ((fun x i => Host.gather gather_S100000x5_S6400000x1_S6400000x5_1_0_n_n_0_1_15 x i) : (⟨S100000x5, .f32⟩ : BufTy).Contents (Elt F) → (⟨S6400000x1, .i32⟩ : BufTy).Contents (Elt F) → (⟨S6400000x5, .f32⟩ : BufTy).Contents (Elt F)),
    nary ![main_v53, main_v60, main_arg2] main_v61 (fun u => concatenate S6400000x11 1 [⟨S6400000x5, u 0⟩, ⟨S6400000x5, u 1⟩, ⟨S6400000x1, u 2⟩] concatenates_S6400000x5_S6400000x5_S6400000x1_S6400000x11_d1),
    binary main_v61 main_arg9 main_v62 ((fun l r => Host.dotGeneral dot_S6400000x11_S11x5_S6400000x5_1_0_0_1_n_n none l r) : (⟨S6400000x11, .f32⟩ : BufTy).Contents (Elt F) → (⟨S11x5, .f32⟩ : BufTy).Contents (Elt F) → (⟨S6400000x5, .f32⟩ : BufTy).Contents (Elt F)),
    unary main_arg10 main_v63 (broadcastInDim S1x5 ![1] bcast_S5_S1x5_1 : (⟨S5, .f32⟩ : BufTy).Contents (Elt F) → (⟨S1x5, .f32⟩ : BufTy).Contents (Elt F)),
    unary main_v63 main_v64 (broadcastInDim S6400000x5 ![0, 1] bcast_S1x5_S6400000x5_0_1 : (⟨S1x5, .f32⟩ : BufTy).Contents (Elt F) → (⟨S6400000x5, .f32⟩ : BufTy).Contents (Elt F)),
    binary main_v62 main_v64 main_v65 (addf : (⟨S6400000x5, .f32⟩ : BufTy).Contents (Elt F) → (⟨S6400000x5, .f32⟩ : BufTy).Contents (Elt F) → (⟨S6400000x5, .f32⟩ : BufTy).Contents (Elt F)),
    unary main_v65 main_v66 (Host.negf : (⟨S6400000x5, .f32⟩ : BufTy).Contents (Elt F) → (⟨S6400000x5, .f32⟩ : BufTy).Contents (Elt F)),
    unary main_v66 main_v67 (Host.exp : (⟨S6400000x5, .f32⟩ : BufTy).Contents (Elt F) → (⟨S6400000x5, .f32⟩ : BufTy).Contents (Elt F)),
    nullary main_cst_9 (constant S_ .f32 0x3F800000#32),
    unary main_cst_9 main_v68 (broadcastInDim S6400000x5 ![] bcast_S_S6400000x5 : (⟨S_, .f32⟩ : BufTy).Contents (Elt F) → (⟨S6400000x5, .f32⟩ : BufTy).Contents (Elt F)),
    binary main_v68 main_v67 main_v69 (addf : (⟨S6400000x5, .f32⟩ : BufTy).Contents (Elt F) → (⟨S6400000x5, .f32⟩ : BufTy).Contents (Elt F) → (⟨S6400000x5, .f32⟩ : BufTy).Contents (Elt F)),
    nullary main_cst_10 (constant S_ .f32 0x3F800000#32),
    unary main_cst_10 main_v70 (broadcastInDim S6400000x5 ![] bcast_S_S6400000x5 : (⟨S_, .f32⟩ : BufTy).Contents (Elt F) → (⟨S6400000x5, .f32⟩ : BufTy).Contents (Elt F)),
    binary main_v70 main_v69 main_v71 (Host.divf : (⟨S6400000x5, .f32⟩ : BufTy).Contents (Elt F) → (⟨S6400000x5, .f32⟩ : BufTy).Contents (Elt F) → (⟨S6400000x5, .f32⟩ : BufTy).Contents (Elt F)),
    binary main_v61 main_arg11 main_v72 ((fun l r => Host.dotGeneral dot_S6400000x11_S11x5_S6400000x5_1_0_0_1_n_n none l r) : (⟨S6400000x11, .f32⟩ : BufTy).Contents (Elt F) → (⟨S11x5, .f32⟩ : BufTy).Contents (Elt F) → (⟨S6400000x5, .f32⟩ : BufTy).Contents (Elt F)),
    unary main_arg12 main_v73 (broadcastInDim S1x5 ![1] bcast_S5_S1x5_1 : (⟨S5, .f32⟩ : BufTy).Contents (Elt F) → (⟨S1x5, .f32⟩ : BufTy).Contents (Elt F)),
    unary main_v73 main_v74 (broadcastInDim S6400000x5 ![0, 1] bcast_S1x5_S6400000x5_0_1 : (⟨S1x5, .f32⟩ : BufTy).Contents (Elt F) → (⟨S6400000x5, .f32⟩ : BufTy).Contents (Elt F)),
    binary main_v72 main_v74 main_v75 (addf : (⟨S6400000x5, .f32⟩ : BufTy).Contents (Elt F) → (⟨S6400000x5, .f32⟩ : BufTy).Contents (Elt F) → (⟨S6400000x5, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S6400000x5, .f32⟩) main_call1_v0) (broadcastInDim S6400000x5 ![] bcast_S_S6400000x5),
    TRef.binary (TRef.of (T := ⟨S6400000x5, .f32⟩) main_v75) (TRef.of (T := ⟨S6400000x5, .f32⟩) main_call1_v0) (TRef.of (T := ⟨S6400000x5, .f32⟩) main_call1_v1) maximumf,
    TRef.unary (TRef.of (T := ⟨S_, .f32⟩) main_call1_cst) (TRef.of (T := ⟨S6400000x5, .f32⟩) main_call1_v2) (broadcastInDim S6400000x5 ![] bcast_S_S6400000x5),
    TRef.binary (TRef.of (T := ⟨S6400000x5, .f32⟩) main_v75) (TRef.of (T := ⟨S6400000x5, .f32⟩) main_call1_v2) (TRef.of (T := ⟨S6400000x5, .f32⟩) main_call1_v3) subf,
    TRef.binary (TRef.of (T := ⟨S6400000x5, .f32⟩) main_call1_v3) (TRef.of (T := ⟨S6400000x5, .f32⟩) main_call1_v3) (TRef.of (T := ⟨S6400000x5, .i1⟩) main_call1_v4) (cmpf .une),
    TRef.unary (TRef.of (T := ⟨S_, .f32⟩) main_call1_cst) (TRef.of (T := ⟨S6400000x5, .f32⟩) main_call1_v5) (broadcastInDim S6400000x5 ![] bcast_S_S6400000x5),
    TRef.binary (TRef.of (T := ⟨S6400000x5, .f32⟩) main_v75) (TRef.of (T := ⟨S6400000x5, .f32⟩) main_call1_v5) (TRef.of (T := ⟨S6400000x5, .f32⟩) main_call1_v6) addf,
    TRef.unary (TRef.of (T := ⟨S6400000x5, .f32⟩) main_call1_v3) (TRef.of (T := ⟨S6400000x5, .f32⟩) main_call1_v7) Host.absf,
    TRef.unary (TRef.of (T := ⟨S6400000x5, .f32⟩) main_call1_v7) (TRef.of (T := ⟨S6400000x5, .f32⟩) main_call1_v8) Host.negf,
    TRef.unary (TRef.of (T := ⟨S6400000x5, .f32⟩) main_call1_v8) (TRef.of (T := ⟨S6400000x5, .f32⟩) main_call1_v9) Host.exp,
    TRef.unary (TRef.of (T := ⟨S6400000x5, .f32⟩) main_call1_v9) (TRef.of (T := ⟨S6400000x5, .f32⟩) main_call1_v10) Host.log1p,
    TRef.binary (TRef.of (T := ⟨S6400000x5, .f32⟩) main_call1_v1) (TRef.of (T := ⟨S6400000x5, .f32⟩) main_call1_v10) (TRef.of (T := ⟨S6400000x5, .f32⟩) main_call1_v11) addf,
    TRef.ternary (TRef.of (T := ⟨S6400000x5, .i1⟩) main_call1_v4) (TRef.of (T := ⟨S6400000x5, .f32⟩) main_call1_v6) (TRef.of (T := ⟨S6400000x5, .f32⟩) main_call1_v11) (TRef.of (T := ⟨S6400000x5, .f32⟩) main_v76) select,
    binary main_v71 main_v76 main_v77 (mulf : (⟨S6400000x5, .f32⟩ : BufTy).Contents (Elt F) → (⟨S6400000x5, .f32⟩ : BufTy).Contents (Elt F) → (⟨S6400000x5, .f32⟩ : BufTy).Contents (Elt F)),
    nullary main_cst_11 (constant S_ .f32 0x00000000#32),
    unary main_cst_11 main_v78 (broadcastInDim S100000x5 ![] bcast_S_S100000x5 : (⟨S_, .f32⟩ : BufTy).Contents (Elt F) → (⟨S100000x5, .f32⟩ : BufTy).Contents (Elt F)),
    unary main_v46 main_v79 (broadcastInDim S6400000x1 ![0] bcast_S6400000_S6400000x1_0 : (⟨S6400000, .i32⟩ : BufTy).Contents (Elt F) → (⟨S6400000x1, .i32⟩ : BufTy).Contents (Elt F)),
    ternary main_v78 main_v79 main_v77 main_v80 ((fun x i u => Host.scatterAdd scatter_S100000x5_S6400000x1_S6400000x5_1_0_0_1 x i u) : (⟨S100000x5, .f32⟩ : BufTy).Contents (Elt F) → (⟨S6400000x1, .i32⟩ : BufTy).Contents (Elt F) → (⟨S6400000x5, .f32⟩ : BufTy).Contents (Elt F) → (⟨S100000x5, .f32⟩ : BufTy).Contents (Elt F)),
    binary main_v42 main_v80 main_v81 (addf : (⟨S100000x5, .f32⟩ : BufTy).Contents (Elt F) → (⟨S100000x5, .f32⟩ : BufTy).Contents (Elt F) → (⟨S100000x5, .f32⟩ : BufTy).Contents (Elt F)),
    binary main_v81 main_arg13 main_v82 ((fun l r => Host.dotGeneral dot_S100000x5_S5x2_S100000x2_1_0_0_1_n_n none l r) : (⟨S100000x5, .f32⟩ : BufTy).Contents (Elt F) → (⟨S5x2, .f32⟩ : BufTy).Contents (Elt F) → (⟨S100000x2, .f32⟩ : BufTy).Contents (Elt F)),
    unary main_arg14 main_v83 (broadcastInDim S1x2 ![1] bcast_S2_S1x2_1 : (⟨S2, .f32⟩ : BufTy).Contents (Elt F) → (⟨S1x2, .f32⟩ : BufTy).Contents (Elt F)),
    unary main_v83 main_v84 (broadcastInDim S100000x2 ![0, 1] bcast_S1x2_S100000x2_0_1 : (⟨S1x2, .f32⟩ : BufTy).Contents (Elt F) → (⟨S100000x2, .f32⟩ : BufTy).Contents (Elt F)),
    binary main_v82 main_v84 main_v85 (addf : (⟨S100000x2, .f32⟩ : BufTy).Contents (Elt F) → (⟨S100000x2, .f32⟩ : BufTy).Contents (Elt F) → (⟨S100000x2, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., nullary_bufs_sub .., unary_bufs_sub .., unary_bufs_sub .., ternary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., nullary_bufs_sub .., unary_bufs_sub .., unary_bufs_sub .., ternary_bufs_sub .., binary_bufs_sub .., binary_bufs_sub .., unary_bufs_sub .., unary_bufs_sub .., binary_bufs_sub ..⟩

section Fold

variable (V : Valuation τ sig (Elt F))

/-- The fold over the whole line is the fold over the six stretches in turn. -/
theorem ops_split : after (ops (F := F)) V = after seg6 (after seg5 (after seg4 (after seg3 (after seg2 (after seg1 V))))) := rfl

theorem seg1_h : after (seg1 (F := F)) V (Proc.devRef .tc main_v3) = EdgeNet.lin1 (V (Proc.devRef .tc main_arg0)) (V (Proc.devRef .tc main_arg3)) (V (Proc.devRef .tc main_arg4)) := by
  after_results
  all_goals rfl
theorem seg1_dst : after (seg1 (F := F)) V (Proc.devRef .tc main_v7) = EdgeNet.dstRow (V (Proc.devRef .tc main_arg1)) := by
  after_results
  all_goals rfl
theorem seg1_xd : after (seg1 (F := F)) V (Proc.devRef .tc main_v14) = EdgeNet.rowsAt (EdgeNet.lin1 (V (Proc.devRef .tc main_arg0)) (V (Proc.devRef .tc main_arg3)) (V (Proc.devRef .tc main_arg4))) (EdgeNet.wrapCol (EdgeNet.dstRow (V (Proc.devRef .tc main_arg1)))) := by
  after_results
  all_goals rfl
theorem seg1_xs : after (seg1 (F := F)) V (Proc.devRef .tc main_v21) = EdgeNet.rowsAt (EdgeNet.lin1 (V (Proc.devRef .tc main_arg0)) (V (Proc.devRef .tc main_arg3)) (V (Proc.devRef .tc main_arg4))) (EdgeNet.wrapCol (EdgeNet.srcRow (V (Proc.devRef .tc main_arg1)))) := by
  after_results
  all_goals rfl
set_option maxHeartbeats 2000000 in
theorem seg2_msg : after (seg2 (F := F)) V (Proc.devRef .tc main_v38) = EdgeNet.msgJoined (V (Proc.devRef .tc main_arg2)) (V (Proc.devRef .tc main_arg5)) (V (Proc.devRef .tc main_arg6)) (V (Proc.devRef .tc main_arg7)) (V (Proc.devRef .tc main_arg8)) (V (Proc.devRef .tc main_v14)) (V (Proc.devRef .tc main_v21)) := by
  after_results_simp
  all_goals rfl
theorem seg3_h : after (seg3 (F := F)) V (Proc.devRef .tc main_v42) = addf (V (Proc.devRef .tc main_v3)) (EdgeNet.sumInto (V (Proc.devRef .tc main_v7)) (V (Proc.devRef .tc main_v38))) := by
  after_results
  all_goals rfl
theorem seg4_dst : after (seg4 (F := F)) V (Proc.devRef .tc main_v46) = EdgeNet.dstRow (V (Proc.devRef .tc main_arg1)) := by
  after_results
  all_goals rfl
theorem seg4_xd : after (seg4 (F := F)) V (Proc.devRef .tc main_v53) = EdgeNet.rowsAt (V (Proc.devRef .tc main_v42)) (EdgeNet.wrapCol (EdgeNet.dstRow (V (Proc.devRef .tc main_arg1)))) := by
  after_results
  all_goals rfl
theorem seg4_xs : after (seg4 (F := F)) V (Proc.devRef .tc main_v60) = EdgeNet.rowsAt (V (Proc.devRef .tc main_v42)) (EdgeNet.wrapCol (EdgeNet.srcRow (V (Proc.devRef .tc main_arg1)))) := by
  after_results
  all_goals rfl
set_option maxHeartbeats 2000000 in
theorem seg5_msg : after (seg5 (F := F)) V (Proc.devRef .tc main_v77) = EdgeNet.msgJoined (V (Proc.devRef .tc main_arg2)) (V (Proc.devRef .tc main_arg9)) (V (Proc.devRef .tc main_arg10)) (V (Proc.devRef .tc main_arg11)) (V (Proc.devRef .tc main_arg12)) (V (Proc.devRef .tc main_v53)) (V (Proc.devRef .tc main_v60)) := by
  after_results_simp
  all_goals rfl
theorem seg6_out : after (seg6 (F := F)) V (Proc.devRef .tc main_v85) = EdgeNet.lin2 (addf (V (Proc.devRef .tc main_v42)) (EdgeNet.sumInto (V (Proc.devRef .tc main_v46)) (V (Proc.devRef .tc main_v77)))) (V (Proc.devRef .tc main_arg13)) (V (Proc.devRef .tc main_arg14)) := by
  after_results
  all_goals rfl
theorem seg1_keep_arg1 : after (seg1 (F := F)) V (Proc.devRef .tc main_arg1) = (V (Proc.devRef .tc main_arg1)) := by
  after_results
  all_goals rfl
theorem seg1_keep_arg2 : after (seg1 (F := F)) V (Proc.devRef .tc main_arg2) = (V (Proc.devRef .tc main_arg2)) := by
  after_results
  all_goals rfl
theorem seg1_keep_arg5 : after (seg1 (F := F)) V (Proc.devRef .tc main_arg5) = (V (Proc.devRef .tc main_arg5)) := by
  after_results
  all_goals rfl
theorem seg1_keep_arg6 : after (seg1 (F := F)) V (Proc.devRef .tc main_arg6) = (V (Proc.devRef .tc main_arg6)) := by
  after_results
  all_goals rfl
theorem seg1_keep_arg7 : after (seg1 (F := F)) V (Proc.devRef .tc main_arg7) = (V (Proc.devRef .tc main_arg7)) := by
  after_results
  all_goals rfl
theorem seg1_keep_arg8 : after (seg1 (F := F)) V (Proc.devRef .tc main_arg8) = (V (Proc.devRef .tc main_arg8)) := by
  after_results
  all_goals rfl
theorem seg1_keep_arg9 : after (seg1 (F := F)) V (Proc.devRef .tc main_arg9) = (V (Proc.devRef .tc main_arg9)) := by
  after_results
  all_goals rfl
theorem seg1_keep_arg10 : after (seg1 (F := F)) V (Proc.devRef .tc main_arg10) = (V (Proc.devRef .tc main_arg10)) := by
  after_results
  all_goals rfl
theorem seg1_keep_arg11 : after (seg1 (F := F)) V (Proc.devRef .tc main_arg11) = (V (Proc.devRef .tc main_arg11)) := by
  after_results
  all_goals rfl
theorem seg1_keep_arg12 : after (seg1 (F := F)) V (Proc.devRef .tc main_arg12) = (V (Proc.devRef .tc main_arg12)) := by
  after_results
  all_goals rfl
theorem seg1_keep_arg13 : after (seg1 (F := F)) V (Proc.devRef .tc main_arg13) = (V (Proc.devRef .tc main_arg13)) := by
  after_results
  all_goals rfl
theorem seg1_keep_arg14 : after (seg1 (F := F)) V (Proc.devRef .tc main_arg14) = (V (Proc.devRef .tc main_arg14)) := by
  after_results
  all_goals rfl
theorem seg2_keep_v3 : after (seg2 (F := F)) V (Proc.devRef .tc main_v3) = (V (Proc.devRef .tc main_v3)) := by
  after_results
  all_goals rfl
theorem seg2_keep_v7 : after (seg2 (F := F)) V (Proc.devRef .tc main_v7) = (V (Proc.devRef .tc main_v7)) := by
  after_results
  all_goals rfl
theorem seg2_keep_arg1 : after (seg2 (F := F)) V (Proc.devRef .tc main_arg1) = (V (Proc.devRef .tc main_arg1)) := by
  after_results
  all_goals rfl
theorem seg2_keep_arg2 : after (seg2 (F := F)) V (Proc.devRef .tc main_arg2) = (V (Proc.devRef .tc main_arg2)) := by
  after_results
  all_goals rfl
theorem seg2_keep_arg9 : after (seg2 (F := F)) V (Proc.devRef .tc main_arg9) = (V (Proc.devRef .tc main_arg9)) := by
  after_results
  all_goals rfl
theorem seg2_keep_arg10 : after (seg2 (F := F)) V (Proc.devRef .tc main_arg10) = (V (Proc.devRef .tc main_arg10)) := by
  after_results
  all_goals rfl
theorem seg2_keep_arg11 : after (seg2 (F := F)) V (Proc.devRef .tc main_arg11) = (V (Proc.devRef .tc main_arg11)) := by
  after_results
  all_goals rfl
theorem seg2_keep_arg12 : after (seg2 (F := F)) V (Proc.devRef .tc main_arg12) = (V (Proc.devRef .tc main_arg12)) := by
  after_results
  all_goals rfl
theorem seg2_keep_arg13 : after (seg2 (F := F)) V (Proc.devRef .tc main_arg13) = (V (Proc.devRef .tc main_arg13)) := by
  after_results
  all_goals rfl
theorem seg2_keep_arg14 : after (seg2 (F := F)) V (Proc.devRef .tc main_arg14) = (V (Proc.devRef .tc main_arg14)) := by
  after_results
  all_goals rfl
theorem seg3_keep_arg1 : after (seg3 (F := F)) V (Proc.devRef .tc main_arg1) = (V (Proc.devRef .tc main_arg1)) := by
  after_results
  all_goals rfl
theorem seg3_keep_arg2 : after (seg3 (F := F)) V (Proc.devRef .tc main_arg2) = (V (Proc.devRef .tc main_arg2)) := by
  after_results
  all_goals rfl
theorem seg3_keep_arg9 : after (seg3 (F := F)) V (Proc.devRef .tc main_arg9) = (V (Proc.devRef .tc main_arg9)) := by
  after_results
  all_goals rfl
theorem seg3_keep_arg10 : after (seg3 (F := F)) V (Proc.devRef .tc main_arg10) = (V (Proc.devRef .tc main_arg10)) := by
  after_results
  all_goals rfl
theorem seg3_keep_arg11 : after (seg3 (F := F)) V (Proc.devRef .tc main_arg11) = (V (Proc.devRef .tc main_arg11)) := by
  after_results
  all_goals rfl
theorem seg3_keep_arg12 : after (seg3 (F := F)) V (Proc.devRef .tc main_arg12) = (V (Proc.devRef .tc main_arg12)) := by
  after_results
  all_goals rfl
theorem seg3_keep_arg13 : after (seg3 (F := F)) V (Proc.devRef .tc main_arg13) = (V (Proc.devRef .tc main_arg13)) := by
  after_results
  all_goals rfl
theorem seg3_keep_arg14 : after (seg3 (F := F)) V (Proc.devRef .tc main_arg14) = (V (Proc.devRef .tc main_arg14)) := by
  after_results
  all_goals rfl
theorem seg4_keep_v42 : after (seg4 (F := F)) V (Proc.devRef .tc main_v42) = (V (Proc.devRef .tc main_v42)) := by
  after_results
  all_goals rfl
theorem seg4_keep_arg2 : after (seg4 (F := F)) V (Proc.devRef .tc main_arg2) = (V (Proc.devRef .tc main_arg2)) := by
  after_results
  all_goals rfl
theorem seg4_keep_arg9 : after (seg4 (F := F)) V (Proc.devRef .tc main_arg9) = (V (Proc.devRef .tc main_arg9)) := by
  after_results
  all_goals rfl
theorem seg4_keep_arg10 : after (seg4 (F := F)) V (Proc.devRef .tc main_arg10) = (V (Proc.devRef .tc main_arg10)) := by
  after_results
  all_goals rfl
theorem seg4_keep_arg11 : after (seg4 (F := F)) V (Proc.devRef .tc main_arg11) = (V (Proc.devRef .tc main_arg11)) := by
  after_results
  all_goals rfl
theorem seg4_keep_arg12 : after (seg4 (F := F)) V (Proc.devRef .tc main_arg12) = (V (Proc.devRef .tc main_arg12)) := by
  after_results
  all_goals rfl
theorem seg4_keep_arg13 : after (seg4 (F := F)) V (Proc.devRef .tc main_arg13) = (V (Proc.devRef .tc main_arg13)) := by
  after_results
  all_goals rfl
theorem seg4_keep_arg14 : after (seg4 (F := F)) V (Proc.devRef .tc main_arg14) = (V (Proc.devRef .tc main_arg14)) := by
  after_results
  all_goals rfl
theorem seg5_keep_v42 : after (seg5 (F := F)) V (Proc.devRef .tc main_v42) = (V (Proc.devRef .tc main_v42)) := by
  after_results
  all_goals rfl
theorem seg5_keep_v46 : after (seg5 (F := F)) V (Proc.devRef .tc main_v46) = (V (Proc.devRef .tc main_v46)) := by
  after_results
  all_goals rfl
theorem seg5_keep_arg13 : after (seg5 (F := F)) V (Proc.devRef .tc main_arg13) = (V (Proc.devRef .tc main_arg13)) := by
  after_results
  all_goals rfl
theorem seg5_keep_arg14 : after (seg5 (F := F)) V (Proc.devRef .tc main_arg14) = (V (Proc.devRef .tc main_arg14)) := by
  after_results
  all_goals rfl
theorem ops_keep_arg0 : after (ops (F := F)) V (Proc.devRef .tc main_arg0) = V (Proc.devRef .tc main_arg0) :=
  after_of_forall_not_mem (b := Proc.devRef .tc main_arg0) _ _ (List.forall_iff_forall_mem.mp (by
    simp only [ops, List.Forall, nullary_writes, unary_writes, binary_writes, ternary_writes, quaternary_writes, reshape_writes, nary_writes, binaryIndexed_writes, Finset.mem_singleton]
    repeat' apply And.intro
    all_goals exact devRef_ne_of_ne (by decide)))
theorem ops_keep_arg1 : after (ops (F := F)) V (Proc.devRef .tc main_arg1) = V (Proc.devRef .tc main_arg1) :=
  after_of_forall_not_mem (b := Proc.devRef .tc main_arg1) _ _ (List.forall_iff_forall_mem.mp (by
    simp only [ops, List.Forall, nullary_writes, unary_writes, binary_writes, ternary_writes, quaternary_writes, reshape_writes, nary_writes, binaryIndexed_writes, Finset.mem_singleton]
    repeat' apply And.intro
    all_goals exact devRef_ne_of_ne (by decide)))
theorem ops_keep_arg2 : after (ops (F := F)) V (Proc.devRef .tc main_arg2) = V (Proc.devRef .tc main_arg2) :=
  after_of_forall_not_mem (b := Proc.devRef .tc main_arg2) _ _ (List.forall_iff_forall_mem.mp (by
    simp only [ops, List.Forall, nullary_writes, unary_writes, binary_writes, ternary_writes, quaternary_writes, reshape_writes, nary_writes, binaryIndexed_writes, Finset.mem_singleton]
    repeat' apply And.intro
    all_goals exact devRef_ne_of_ne (by decide)))
theorem ops_keep_arg3 : after (ops (F := F)) V (Proc.devRef .tc main_arg3) = V (Proc.devRef .tc main_arg3) :=
  after_of_forall_not_mem (b := Proc.devRef .tc main_arg3) _ _ (List.forall_iff_forall_mem.mp (by
    simp only [ops, List.Forall, nullary_writes, unary_writes, binary_writes, ternary_writes, quaternary_writes, reshape_writes, nary_writes, binaryIndexed_writes, Finset.mem_singleton]
    repeat' apply And.intro
    all_goals exact devRef_ne_of_ne (by decide)))
theorem ops_keep_arg4 : after (ops (F := F)) V (Proc.devRef .tc main_arg4) = V (Proc.devRef .tc main_arg4) :=
  after_of_forall_not_mem (b := Proc.devRef .tc main_arg4) _ _ (List.forall_iff_forall_mem.mp (by
    simp only [ops, List.Forall, nullary_writes, unary_writes, binary_writes, ternary_writes, quaternary_writes, reshape_writes, nary_writes, binaryIndexed_writes, Finset.mem_singleton]
    repeat' apply And.intro
    all_goals exact devRef_ne_of_ne (by decide)))
theorem ops_keep_arg5 : after (ops (F := F)) V (Proc.devRef .tc main_arg5) = V (Proc.devRef .tc main_arg5) :=
  after_of_forall_not_mem (b := Proc.devRef .tc main_arg5) _ _ (List.forall_iff_forall_mem.mp (by
    simp only [ops, List.Forall, nullary_writes, unary_writes, binary_writes, ternary_writes, quaternary_writes, reshape_writes, nary_writes, binaryIndexed_writes, Finset.mem_singleton]
    repeat' apply And.intro
    all_goals exact devRef_ne_of_ne (by decide)))
theorem ops_keep_arg6 : after (ops (F := F)) V (Proc.devRef .tc main_arg6) = V (Proc.devRef .tc main_arg6) :=
  after_of_forall_not_mem (b := Proc.devRef .tc main_arg6) _ _ (List.forall_iff_forall_mem.mp (by
    simp only [ops, List.Forall, nullary_writes, unary_writes, binary_writes, ternary_writes, quaternary_writes, reshape_writes, nary_writes, binaryIndexed_writes, Finset.mem_singleton]
    repeat' apply And.intro
    all_goals exact devRef_ne_of_ne (by decide)))
theorem ops_keep_arg7 : after (ops (F := F)) V (Proc.devRef .tc main_arg7) = V (Proc.devRef .tc main_arg7) :=
  after_of_forall_not_mem (b := Proc.devRef .tc main_arg7) _ _ (List.forall_iff_forall_mem.mp (by
    simp only [ops, List.Forall, nullary_writes, unary_writes, binary_writes, ternary_writes, quaternary_writes, reshape_writes, nary_writes, binaryIndexed_writes, Finset.mem_singleton]
    repeat' apply And.intro
    all_goals exact devRef_ne_of_ne (by decide)))
theorem ops_keep_arg8 : after (ops (F := F)) V (Proc.devRef .tc main_arg8) = V (Proc.devRef .tc main_arg8) :=
  after_of_forall_not_mem (b := Proc.devRef .tc main_arg8) _ _ (List.forall_iff_forall_mem.mp (by
    simp only [ops, List.Forall, nullary_writes, unary_writes, binary_writes, ternary_writes, quaternary_writes, reshape_writes, nary_writes, binaryIndexed_writes, Finset.mem_singleton]
    repeat' apply And.intro
    all_goals exact devRef_ne_of_ne (by decide)))
theorem ops_keep_arg9 : after (ops (F := F)) V (Proc.devRef .tc main_arg9) = V (Proc.devRef .tc main_arg9) :=
  after_of_forall_not_mem (b := Proc.devRef .tc main_arg9) _ _ (List.forall_iff_forall_mem.mp (by
    simp only [ops, List.Forall, nullary_writes, unary_writes, binary_writes, ternary_writes, quaternary_writes, reshape_writes, nary_writes, binaryIndexed_writes, Finset.mem_singleton]
    repeat' apply And.intro
    all_goals exact devRef_ne_of_ne (by decide)))
theorem ops_keep_arg10 : after (ops (F := F)) V (Proc.devRef .tc main_arg10) = V (Proc.devRef .tc main_arg10) :=
  after_of_forall_not_mem (b := Proc.devRef .tc main_arg10) _ _ (List.forall_iff_forall_mem.mp (by
    simp only [ops, List.Forall, nullary_writes, unary_writes, binary_writes, ternary_writes, quaternary_writes, reshape_writes, nary_writes, binaryIndexed_writes, Finset.mem_singleton]
    repeat' apply And.intro
    all_goals exact devRef_ne_of_ne (by decide)))
theorem ops_keep_arg11 : after (ops (F := F)) V (Proc.devRef .tc main_arg11) = V (Proc.devRef .tc main_arg11) :=
  after_of_forall_not_mem (b := Proc.devRef .tc main_arg11) _ _ (List.forall_iff_forall_mem.mp (by
    simp only [ops, List.Forall, nullary_writes, unary_writes, binary_writes, ternary_writes, quaternary_writes, reshape_writes, nary_writes, binaryIndexed_writes, Finset.mem_singleton]
    repeat' apply And.intro
    all_goals exact devRef_ne_of_ne (by decide)))
theorem ops_keep_arg12 : after (ops (F := F)) V (Proc.devRef .tc main_arg12) = V (Proc.devRef .tc main_arg12) :=
  after_of_forall_not_mem (b := Proc.devRef .tc main_arg12) _ _ (List.forall_iff_forall_mem.mp (by
    simp only [ops, List.Forall, nullary_writes, unary_writes, binary_writes, ternary_writes, quaternary_writes, reshape_writes, nary_writes, binaryIndexed_writes, Finset.mem_singleton]
    repeat' apply And.intro
    all_goals exact devRef_ne_of_ne (by decide)))
theorem ops_keep_arg13 : after (ops (F := F)) V (Proc.devRef .tc main_arg13) = V (Proc.devRef .tc main_arg13) :=
  after_of_forall_not_mem (b := Proc.devRef .tc main_arg13) _ _ (List.forall_iff_forall_mem.mp (by
    simp only [ops, List.Forall, nullary_writes, unary_writes, binary_writes, ternary_writes, quaternary_writes, reshape_writes, nary_writes, binaryIndexed_writes, Finset.mem_singleton]
    repeat' apply And.intro
    all_goals exact devRef_ne_of_ne (by decide)))
theorem ops_keep_arg14 : after (ops (F := F)) V (Proc.devRef .tc main_arg14) = V (Proc.devRef .tc main_arg14) :=
  after_of_forall_not_mem (b := Proc.devRef .tc main_arg14) _ _ (List.forall_iff_forall_mem.mp (by
    simp only [ops, List.Forall, nullary_writes, unary_writes, binary_writes, ternary_writes, quaternary_writes, reshape_writes, nary_writes, binaryIndexed_writes, Finset.mem_singleton]
    repeat' apply And.intro
    all_goals exact devRef_ne_of_ne (by decide)))

/-- THE RESULT BUFFER after the whole line: the network of the launch contents. -/
theorem result_eq : after (ops (F := F)) V (Proc.devRef .tc main_v85) = EdgeNet.net (EdgeNet.msgJoined (V (Proc.devRef .tc main_arg2)) (V (Proc.devRef .tc main_arg5)) (V (Proc.devRef .tc main_arg6)) (V (Proc.devRef .tc main_arg7)) (V (Proc.devRef .tc main_arg8))) (EdgeNet.msgJoined (V (Proc.devRef .tc main_arg2)) (V (Proc.devRef .tc main_arg9)) (V (Proc.devRef .tc main_arg10)) (V (Proc.devRef .tc main_arg11)) (V (Proc.devRef .tc main_arg12))) (V (Proc.devRef .tc main_arg0)) (V (Proc.devRef .tc main_arg1)) (V (Proc.devRef .tc main_arg3)) (V (Proc.devRef .tc main_arg4)) (V (Proc.devRef .tc main_arg13)) (V (Proc.devRef .tc main_arg14)) := by
  rw [ops_split, seg6_out]
  rw [seg5_keep_v42, seg5_keep_v46, seg5_msg, seg5_keep_arg13, seg5_keep_arg14]
  rw [seg4_keep_v42, seg4_dst, seg4_xd, seg4_xs, seg4_keep_arg2, seg4_keep_arg9, seg4_keep_arg10, seg4_keep_arg11, seg4_keep_arg12, seg4_keep_arg13, seg4_keep_arg14]
  rw [seg3_h, seg3_keep_arg1, seg3_keep_arg2, seg3_keep_arg9, seg3_keep_arg10, seg3_keep_arg11, seg3_keep_arg12, seg3_keep_arg13, seg3_keep_arg14]
  rw [seg2_keep_v3, seg2_keep_v7, seg2_msg, seg2_keep_arg1, seg2_keep_arg2, seg2_keep_arg9, seg2_keep_arg10, seg2_keep_arg11, seg2_keep_arg12, seg2_keep_arg13, seg2_keep_arg14]
  rw [seg1_h, seg1_dst, seg1_xd, seg1_xs, seg1_keep_arg1, seg1_keep_arg2, seg1_keep_arg5, seg1_keep_arg6, seg1_keep_arg7, seg1_keep_arg8, seg1_keep_arg9, seg1_keep_arg10, seg1_keep_arg11, seg1_keep_arg12, seg1_keep_arg13, seg1_keep_arg14]
  rfl

end Fold

/-- Every weakly fair execution of @main terminates with the result array at the network of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = EdgeNet.net (EdgeNet.msgJoined (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))) (EdgeNet.msgJoined (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v85).trans (result_eq (launchContents m c)),
      (h c main_arg0).trans (ops_keep_arg0 (launchContents m c)),
      (h c main_arg1).trans (ops_keep_arg1 (launchContents m c)),
      (h c main_arg2).trans (ops_keep_arg2 (launchContents m c)),
      (h c main_arg3).trans (ops_keep_arg3 (launchContents m c)),
      (h c main_arg4).trans (ops_keep_arg4 (launchContents m c)),
      (h c main_arg5).trans (ops_keep_arg5 (launchContents m c)),
      (h c main_arg6).trans (ops_keep_arg6 (launchContents m c)),
      (h c main_arg7).trans (ops_keep_arg7 (launchContents m c)),
      (h c main_arg8).trans (ops_keep_arg8 (launchContents m c)),
      (h c main_arg9).trans (ops_keep_arg9 (launchContents m c)),
      (h c main_arg10).trans (ops_keep_arg10 (launchContents m c)),
      (h c main_arg11).trans (ops_keep_arg11 (launchContents m c)),
      (h c main_arg12).trans (ops_keep_arg12 (launchContents m c)),
      (h c main_arg13).trans (ops_keep_arg13 (launchContents m c)),
      (h c main_arg14).trans (ops_keep_arg14 (launchContents m c))⟩)
    (run_seq scopedRefs_eq scopedSems_eq defs main (fun _ => ops) main_eq (fun _ => ops_sub) m ρ)

end EdgeNet.RefRun

end
-- ==== Proof.lean ====
/-
  The certificate of a two-layer edge-message network: a kernel for the per-edge message, launched twice between the
  host's gathers and scatter-adds, against the same network written with host operations only.

  Both programs compute lin₂(h₂), h₂ = h₁ + Σ msg₂, h₁ = h₀ + Σ msg₁, h₀ = lin₁(x): the sums add each edge's
  message into its target's row. The reference forms a message as sigmoid(z·W_f + b_f) · softplus(z·W_s + b_s) with z the
  joined row [h[dst], h[src], attr]; the kernel's regions form it from three products with W's row blocks. On the
  extended reals the two are one function (Proof/JoinedEntry.lean), everything around them is the same text
  (Proof/EdgeNet.lean), the kernel's regions leave the message arrays (Proof/KernelBlocks.lean) and its run ends at the
  segments' fold (Proof/KernelRun.lean, Proof/KernelValue.lean); the reference's run is read off its operations
  (Proof/RefRun.lean). No law used needs finiteness, so the precondition is never opened. The ideal pass rewrote
  nothing, so the sanctioned-idealization conjunct is trivial.
-/
import proofs.«181776_j90881507983728_1_alg».proof.Defs
import proofs.«181776_j90881507983728_1_alg».proof.Proof.Gen.Kernel
import proofs.«181776_j90881507983728_1_alg».proof.Proof.Gen.Kernel.Skeleton
import proofs.«181776_j90881507983728_1_alg».proof.Proof.Gen.Kernel.Launch
import proofs.«181776_j90881507983728_1_alg».proof.Proof.Gen.Kernel.Points
import proofs.«181776_j90881507983728_1_alg».proof.Proof.Gen.Kernel.Frame
import proofs.«181776_j90881507983728_1_alg».proof.Proof.Gen.KernelIdeal
import proofs.«181776_j90881507983728_1_alg».proof.Proof.Gen.KernelIdeal.Skeleton
import proofs.«181776_j90881507983728_1_alg».proof.Proof.Gen.KernelIdeal.Launch
import proofs.«181776_j90881507983728_1_alg».proof.Proof.Gen.KernelIdeal.Points
import proofs.«181776_j90881507983728_1_alg».proof.Proof.Gen.KernelIdeal.Frame
import proofs.«181776_j90881507983728_1_alg».proof.Proof.Gen.ReferenceIdeal
import proofs.«181776_j90881507983728_1_alg».proof.Proof.Gen.Pre_finite_inputs
import proofs.«181776_j90881507983728_1_alg».proof.Proof.KernelRun
import proofs.«181776_j90881507983728_1_alg».proof.Proof.KernelValue
import proofs.«181776_j90881507983728_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (EdgeNet.RefRun.run (F := Ideal) m ρ)

/-- Both runs end with the network of the (agreeing) arguments in their result arrays. -/
theorem algebraic : Cert.algebraic_KernelIdeal_ReferenceIdeal := by
  intro m ρ m' ρ' _ hagree
  refine ⟨fun c => EdgeNet.net (EdgeNet.Kernel.msg1 m c) (EdgeNet.Kernel.msg2 m c) (EdgeNet.Kernel.a0 m c) (EdgeNet.Kernel.a1 m c) (EdgeNet.Kernel.a3 m c) (EdgeNet.Kernel.a4 m c) (EdgeNet.Kernel.a13 m c) (EdgeNet.Kernel.a14 m c), ?_, ?_⟩
  · exact (θ_run Cert.KernelIdeal.defs _ _).mono
      (fun r h c => ⟨(h c).1.trans (EdgeNet.Kernel.result_eq m ρ c), (h c).2⟩) (Cert.KernelIdeal.RunValue.run m ρ)
  · refine (θ_run Cert.ReferenceIdeal.defs _ _).mono (fun r h c => ⟨(h c).1.trans ?_, (h c).2⟩)
      (EdgeNet.RefRun.run (F := Ideal) m' ρ')
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
